-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x9x25 : Shape := ⟨4, ![128, 512, 9, 25]⟩
abbrev S8x512 : Shape := ⟨2, ![8, 512]⟩
abbrev S8 : Shape := ⟨1, ![8]⟩
abbrev S1800x2048 : Shape := ⟨2, ![1800, 2048]⟩
abbrev S2048 : Shape := ⟨1, ![2048]⟩
abbrev S2048x1480 : Shape := ⟨2, ![2048, 1480]⟩
abbrev S1480 : Shape := ⟨1, ![1480]⟩
abbrev S_ : Shape := ⟨0, ![]⟩

class Facts : Prop where
  bcast_S_S128x512x9x25 : S_.BroadcastsInDim S128x512x9x25 (![] : Fin 0 → Fin S128x512x9x25.rank)
  reducesTo_S128x512x9x25_S_d0_1_2_3 : S128x512x9x25.ReducesTo [0, 1, 2, 3] S_
  h_S_ : 0 < S_.numel
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_
  bcast_S_S1800x2048 : S_.BroadcastsInDim S1800x2048 (![] : Fin 0 → Fin S1800x2048.rank)
  reducesTo_S1800x2048_S_d0_1 : S1800x2048.ReducesTo [0, 1] S_
  bcast_S_S2048 : S_.BroadcastsInDim S2048 (![] : Fin 0 → Fin S2048.rank)
  reducesTo_S2048_S_d0 : S2048.ReducesTo [0] S_
  bcast_S_S2048x1480 : S_.BroadcastsInDim S2048x1480 (![] : Fin 0 → Fin S2048x1480.rank)
  reducesTo_S2048x1480_S_d0_1 : S2048x1480.ReducesTo [0, 1] S_
  bcast_S_S1480 : S_.BroadcastsInDim S1480 (![] : Fin 0 → Fin S1480.rank)
  reducesTo_S1480_S_d0 : S1480.ReducesTo [0] S_

variable [Facts]

def fn_part1 {F : FTy → Type} [FloatOps F] (main_arg4 : FVec F S2048 .f32) (main_arg5 : FVec F S2048x1480 .f32) (main_arg6 : FVec F S1480 .f32) (main_v13 : IVec S_ 1) (main_v16 : IVec S1800x2048 1) : IVec S_ 1 :=
  let main_c_5 : IVec S_ 1 := constantI S_ 1 1#1
  let main_v17 : IVec S_ 1 := (fun x v => Host.reduce IntOp.andi x v reducesTo_S1800x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1480 .f32 := Host.absf main_arg5
  let main_cst_8 : FVec F S_ .f32 := constant S_ .f32 0x7F800000#32
  let main_v25 : FVec F S2048x1480 .f32 := broadcastInDim S2048x1480 ![] bcast_S_S2048x1480 main_cst_8
  let main_v26 : IVec S2048x1480 1 := cmpf .olt main_v24 main_v25
  let main_c_9 : IVec S_ 1 := constantI S_ 1 1#1
  let main_v27 : IVec S_ 1 := (fun x v => Host.reduce IntOp.andi x v reducesTo_S2048x1480_S_d0_1 h_S_) main_v26 main_c_9
  let main_v28 : IVec S_ 1 := andi main_v23 main_v27
  let main_v29 : FVec F S1480 .f32 := Host.absf main_arg6
  let main_cst_10 : FVec F S_ .f32 := constant S_ .f32 0x7F800000#32
  let main_v30 : FVec F S1480 .f32 := broadcastInDim S1480 ![] bcast_S_S1480 main_cst_10
  let main_v31 : IVec S1480 1 := cmpf .olt main_v29 main_v30
  let main_c_11 : IVec S_ 1 := constantI S_ 1 1#1
  let main_v32 : IVec S_ 1 := (fun x v => Host.reduce IntOp.andi x v reducesTo_S1480_S_d0 h_S_) main_v31 main_c_11
  let main_v33 : IVec S_ 1 := andi main_v28 main_v32
  main_v33

def fn {F : FTy → Type} [FloatOps F] (main_arg0 : FVec F S128x512x9x25 .f32) (main_arg1 : FVec F S8x512 .f32) (main_arg2 : FVec F S8 .f32) (main_arg3 : FVec F S1800x2048 .f32) (main_arg4 : FVec F S2048 .f32) (main_arg5 : FVec F S2048x1480 .f32) (main_arg6 : FVec F S1480 .f32) : IVec S_ 1 :=
  let main_v0 : FVec F S128x512x9x25 .f32 := Host.absf main_arg0
  let main_cst : FVec F S_ .f32 := constant S_ .f32 0x7F800000#32
  let main_v1 : FVec F S128x512x9x25 .f32 := broadcastInDim S128x512x9x25 ![] bcast_S_S128x512x9x25 main_cst
  let main_v2 : IVec S128x512x9x25 1 := cmpf .olt main_v0 main_v1
  let main_c : IVec S_ 1 := constantI S_ 1 1#1
  let main_v3 : IVec S_ 1 := (fun x v => Host.reduce IntOp.andi x v reducesTo_S128x512x9x25_S_d0_1_2_3 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1800x2048 .f32 := Host.absf main_arg3
  let main_cst_4 : FVec F S_ .f32 := constant S_ .f32 0x7F800000#32
  let main_v15 : FVec F S1800x2048 .f32 := broadcastInDim S1800x2048 ![] bcast_S_S1800x2048 main_cst_4
  let main_v16 : IVec S1800x2048 1 := cmpf .olt main_v14 main_v15
  fn_part1 (F := F) main_arg4 main_arg5 main_arg6 main_v13 main_v16
-- ==== Kernel.lean ====
abbrev S128x512x9x25 : Shape := ⟨4, ![128, 512, 9, 25]⟩
abbrev S8x512 : Shape := ⟨2, ![8, 512]⟩
abbrev S8 : Shape := ⟨1, ![8]⟩
abbrev S1800x2048 : Shape := ⟨2, ![1800, 2048]⟩
abbrev S2048 : Shape := ⟨1, ![2048]⟩
abbrev S2048x1480 : Shape := ⟨2, ![2048, 1480]⟩
abbrev S1480 : Shape := ⟨1, ![1480]⟩
abbrev S128x512x225 : Shape := ⟨3, ![128, 512, 225]⟩
abbrev S8x1 : Shape := ⟨2, ![8, 1]⟩
abbrev S128x8x225 : Shape := ⟨3, ![128, 8, 225]⟩
abbrev S128x1800 : Shape := ⟨2, ![128, 1800]⟩
abbrev S1x2048 : Shape := ⟨2, ![1, 2048]⟩
abbrev S128x2048 : Shape := ⟨2, ![128, 2048]⟩
abbrev S1x1480 : Shape := ⟨2, ![1, 1480]⟩
abbrev S128x1480 : Shape := ⟨2, ![128, 1480]⟩
abbrev S128x37x10x4 : Shape := ⟨4, ![128, 37, 10, 4]⟩
abbrev S8x512x225 : Shape := ⟨3, ![8, 512, 225]⟩
abbrev S8x8x225 : Shape := ⟨3, ![8, 8, 225]⟩
abbrev S1x512x225 : Shape := ⟨3, ![1, 512, 225]⟩
abbrev S512x225 : Shape := ⟨2, ![512, 225]⟩
abbrev S8x225 : Shape := ⟨2, ![8, 225]⟩
abbrev S1x8x225 : Shape := ⟨3, ![1, 8, 225]⟩
abbrev S1800x512 : Shape := ⟨2, ![1800, 512]⟩
abbrev S1x512 : Shape := ⟨2, ![1, 512]⟩
abbrev S128x512 : Shape := ⟨2, ![128, 512]⟩
abbrev S2048x256 : Shape := ⟨2, ![2048, 256]⟩
abbrev S1x256 : Shape := ⟨2, ![1, 256]⟩
abbrev S128x256 : Shape := ⟨2, ![128, 256]⟩

abbrev nBuf : Space → Nat
  | .hbm => 16
  | .vmem => 20
  | .smem => 0
  | _ => 0

abbrev bufTy : (tb : Table) → Fin (tcTables nBuf tb) → BufTy
  | .hbm, ⟨0, _⟩ => ⟨S128x512x9x25, .f32⟩
  | .hbm, ⟨1, _⟩ => ⟨S8x512, .f32⟩
  | .hbm, ⟨2, _⟩ => ⟨S8, .f32⟩
  | .hbm, ⟨3, _⟩ => ⟨S1800x2048, .f32⟩
  | .hbm, ⟨4, _⟩ => ⟨S2048, .f32⟩
  | .hbm, ⟨5, _⟩ => ⟨S2048x1480, .f32⟩
  | .hbm, ⟨6, _⟩ => ⟨S1480, .f32⟩
  | .hbm, ⟨7, _⟩ => ⟨S128x512x225, .f32⟩
  | .hbm, ⟨8, _⟩ => ⟨S8x1, .f32⟩
  | .hbm, ⟨9, _⟩ => ⟨S128x8x225, .bf16⟩
  | .hbm, ⟨10, _⟩ => ⟨S128x1800, .bf16⟩
  | .hbm, ⟨11, _⟩ => ⟨S1x2048, .f32⟩
  | .hbm, ⟨12, _⟩ => ⟨S128x2048, .bf16⟩
  | .hbm, ⟨13, _⟩ => ⟨S1x1480, .f32⟩
  | .hbm, ⟨14, _⟩ => ⟨S128x1480, .f32⟩
  | .hbm, ⟨15, _⟩ => ⟨S128x37x10x4, .f32⟩
  | .local _ .vmem, ⟨0, _⟩ => ⟨S8x512x225, .f32⟩
  | .local _ .vmem, ⟨1, _⟩ => ⟨S8x512x225, .f32⟩
  | .local _ .vmem, ⟨2, _⟩ => ⟨S8x512, .f32⟩
  | .local _ .vmem, ⟨3, _⟩ => ⟨S8x1, .f32⟩
  | .local _ .vmem, ⟨4, _⟩ => ⟨S8x8x225, .bf16⟩
  | .local _ .vmem, ⟨5, _⟩ => ⟨S8x8x225, .bf16⟩
  | .local _ .vmem, ⟨6, _⟩ => ⟨S128x1800, .bf16⟩
  | .local _ .vmem, ⟨7, _⟩ => ⟨S1800x512, .f32⟩
  | .local _ .vmem, ⟨8, _⟩ => ⟨S1800x512, .f32⟩
  | .local _ .vmem, ⟨9, _⟩ => ⟨S1x512, .f32⟩
  | .local _ .vmem, ⟨10, _⟩ => ⟨S1x512, .f32⟩
  | .local _ .vmem, ⟨11, _⟩ => ⟨S128x512, .bf16⟩
  | .local _ .vmem, ⟨12, _⟩ => ⟨S128x512, .bf16⟩
  | .local _ .vmem, ⟨13, _⟩ => ⟨S128x2048, .bf16⟩
  | .local _ .vmem, ⟨14, _⟩ => ⟨S2048x256, .f32⟩
  | .local _ .vmem, ⟨15, _⟩ => ⟨S2048x256, .f32⟩
  | .local _ .vmem, ⟨16, _⟩ => ⟨S1x256, .f32⟩
  | .local _ .vmem, ⟨17, _⟩ => ⟨S1x256, .f32⟩
  | .local _ .vmem, ⟨18, _⟩ => ⟨S128x256, .f32⟩
  | .local _ .vmem, ⟨19, _⟩ => ⟨S128x256, .f32⟩
  | _, _ => ⟨S128x512x9x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x225 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x225 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1800 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1800x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128x512x9x25_S128x512x225 : S128x512x9x25.ShapeCasts S128x512x225
  shapeCasts_S8_S8x1 : S8.ShapeCasts S8x1
  shapeCasts_S128x8x225_S128x1800 : S128x8x225.ShapeCasts S128x1800
  shapeCasts_S2048_S1x2048 : S2048.ShapeCasts S1x2048
  shapeCasts_S1480_S1x1480 : S1480.ShapeCasts S1x1480
  shapeCasts_S128x1480_S128x37x10x4 : S128x1480.ShapeCasts S128x37x10x4
  inb_S8x512_S8x512_0_0 : ∀ a, (![0, 0] : Fin 2 → Nat) a + S8x512.size a ≤ S8x512.size a
  h_S8x512 : 0 < S8x512.numel
  bitsLt_bf16_f32 : FTy.bits .bf16 < FTy.bits .f32
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x225_S1x512x225_0_0_0 : ∀ a, (![0, 0, 0] : Fin 3 → Nat) a + S1x512x225.size a ≤ S8x512x225.size a
  h_S1x512x225 : 0 < S1x512x225.numel
  shapeCasts_S1x512x225_S512x225 : S1x512x225.ShapeCasts S512x225
  broadcasts_S8x1_S8x225 : S8x1.Broadcasts S8x225
  inb_S8x8x225_S1x8x225_0_0_0 : ∀ a, (![0, 0, 0] : Fin 3 → Nat) a + S1x8x225.size a ≤ S8x8x225.size a
  h_S1x8x225 : 0 < S1x8x225.numel
  shapeCasts_S1x8x225_S8x225 : S1x8x225.ShapeCasts S8x225
  shapeCasts_S8x225_S1x8x225 : S8x225.ShapeCasts S1x8x225
  packedbf16_S8x8x225_S1x8x225_0_0_0 : (Rect.unit (s := S8x8x225) ![0, 0, 0] S1x8x225.size inb_S8x8x225_S1x8x225_0_0_0).PackedRows (EltTy.packing .bf16)
  inb_S8x512x225_S1x512x225_1_0_0 : ∀ a, (![1, 0, 0] : Fin 3 → Nat) a + S1x512x225.size a ≤ S8x512x225.size a
  inb_S8x8x225_S1x8x225_1_0_0 : ∀ a, (![1, 0, 0] : Fin 3 → Nat) a + S1x8x225.size a ≤ S8x8x225.size a
  packedbf16_S8x8x225_S1x8x225_1_0_0 : (Rect.unit (s := S8x8x225) ![1, 0, 0] S1x8x225.size inb_S8x8x225_S1x8x225_1_0_0).PackedRows (EltTy.packing .bf16)
  inb_S8x512x225_S1x512x225_2_0_0 : ∀ a, (![2, 0, 0] : Fin 3 → Nat) a + S1x512x225.size a ≤ S8x512x225.size a
  inb_S8x8x225_S1x8x225_2_0_0 : ∀ a, (![2, 0, 0] : Fin 3 → Nat) a + S1x8x225.size a ≤ S8x8x225.size a
  packedbf16_S8x8x225_S1x8x225_2_0_0 : (Rect.unit (s := S8x8x225) ![2, 0, 0] S1x8x225.size inb_S8x8x225_S1x8x225_2_0_0).PackedRows (EltTy.packing .bf16)
  inb_S8x512x225_S1x512x225_3_0_0 : ∀ a, (![3, 0, 0] : Fin 3 → Nat) a + S1x512x225.size a ≤ S8x512x225.size a
  inb_S8x8x225_S1x8x225_3_0_0 : ∀ a, (![3, 0, 0] : Fin 3 → Nat) a + S1x8x225.size a ≤ S8x8x225.size a
  packedbf16_S8x8x225_S1x8x225_3_0_0 : (Rect.unit (s := S8x8x225) ![3, 0, 0] S1x8x225.size inb_S8x8x225_S1x8x225_3_0_0).PackedRows (EltTy.packing .bf16)
  inb_S8x512x225_S1x512x225_4_0_0 : ∀ a, (![4, 0, 0] : Fin 3 → Nat) a + S1x512x225.size a ≤ S8x512x225.size a
  inb_S8x8x225_S1x8x225_4_0_0 : ∀ a, (![4, 0, 0] : Fin 3 → Nat) a + S1x8x225.size a ≤ S8x8x225.size a
  packedbf16_S8x8x225_S1x8x225_4_0_0 : (Rect.unit (s := S8x8x225) ![4, 0, 0] S1x8x225.size inb_S8x8x225_S1x8x225_4_0_0).PackedRows (EltTy.packing .bf16)
  inb_S8x512x225_S1x512x225_5_0_0 : ∀ a, (![5, 0, 0] : Fin 3 → Nat) a + S1x512x225.size a ≤ S8x512x225.size a
  inb_S8x8x225_S1x8x225_5_0_0 : ∀ a, (![5, 0, 0] : Fin 3 → Nat) a + S1x8x225.size a ≤ S8x8x225.size a
  packedbf16_S8x8x225_S1x8x225_5_0_0 : (Rect.unit (s := S8x8x225) ![5, 0, 0] S1x8x225.size inb_S8x8x225_S1x8x225_5_0_0).PackedRows (EltTy.packing .bf16)
  inb_S8x512x225_S1x512x225_6_0_0 : ∀ a, (![6, 0, 0] : Fin 3 → Nat) a + S1x512x225.size a ≤ S8x512x225.size a
  inb_S8x8x225_S1x8x225_6_0_0 : ∀ a, (![6, 0, 0] : Fin 3 → Nat) a + S1x8x225.size a ≤ S8x8x225.size a
  packedbf16_S8x8x225_S1x8x225_6_0_0 : (Rect.unit (s := S8x8x225) ![6, 0, 0] S1x8x225.size inb_S8x8x225_S1x8x225_6_0_0).PackedRows (EltTy.packing .bf16)
  inb_S8x512x225_S1x512x225_7_0_0 : ∀ a, (![7, 0, 0] : Fin 3 → Nat) a + S1x512x225.size a ≤ S8x512x225.size a
  inb_S8x8x225_S1x8x225_7_0_0 : ∀ a, (![7, 0, 0] : Fin 3 → Nat) a + S1x8x225.size a ≤ S8x8x225.size a
  packedbf16_S8x8x225_S1x8x225_7_0_0 : (Rect.unit (s := S8x8x225) ![7, 0, 0] S1x8x225.size inb_S8x8x225_S1x8x225_7_0_0).PackedRows (EltTy.packing .bf16)
  inb_S1800x512_S1800x512_0_0 : ∀ a, (![0, 0] : Fin 2 → Nat) a + S1800x512.size a ≤ S1800x512.size a
  h_S1800x512 : 0 < S1800x512.numel
  inb_S128x1800_S128x1800_0_0 : ∀ a, (![0, 0] : Fin 2 → Nat) a + S128x1800.size a ≤ S128x1800.size a
  h_S128x1800 : 0 < S128x1800.numel
  shapeCasts_S128x1800_S128x1800 : S128x1800.ShapeCasts S128x1800
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  inb_S2048x256_S2048x256_0_0 : ∀ a, (![0, 0] : Fin 2 → Nat) a + S2048x256.size a ≤ S2048x256.size a
  h_S2048x256 : 0 < S2048x256.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S8x512_S512x225_S8x225_1_0_0_1_n_n_wf : DotDims.WF S8x512 S512x225 S8x225 [1] [0] [0] [1] [] []
  dot_S128x1800_S1800x512_S128x512_1_0_0_1_n_n_wf : DotDims.WF S128x1800 S1800x512 S128x512 [1] [0] [0] [1] [] []
  dot_S128x2048_S2048x256_S128x256_1_0_0_1_n_n_wf : DotDims.WF S128x2048 S2048x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x225.size a ≤ S128x512x225.size a
  hwx0_0 : ∀ i : grid0.Coords, EltTy.bits .f32 = 32 ∨ (Rect.block (s := S128x512x225) S8x512x225.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x225.size a ≤ S128x8x225.size a
  hwx0_3 : ∀ i : grid0.Coords, EltTy.bits .bf16 = 32 ∨ (Rect.block (s := S128x8x225) S8x8x225.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1800.size a ≤ S128x1800.size a
  hwx1_0 : ∀ i : grid1.Coords, EltTy.bits .bf16 = 32 ∨ (Rect.block (s := S128x1800) S128x1800.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1800x512.size a ≤ S1800x2048.size a
  hwx1_1 : ∀ i : grid1.Coords, EltTy.bits .f32 = 32 ∨ (Rect.block (s := S1800x2048) S1800x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x2048.size a
  hwx1_3 : ∀ i : grid1.Coords, EltTy.bits .bf16 = 32 ∨ (Rect.block (s := S128x2048) S128x512.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S128x2048.size a
  hwx2_0 : ∀ i : grid2.Coords, EltTy.bits .bf16 = 32 ∨ (Rect.block (s := S128x2048) S128x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x256.size a < S2048x1480.size a
  hwx2_1 : ∀ i : grid2.Coords, EltTy.bits .f32 = 32 ∨ (Rect.unit (s := S2048x1480) (fun a => cc2_transform_1 i a * S2048x256.size a) (fun a => (Pipeline.Clip.of (cc2_transform_1 i a) (S2048x256.size a) (S2048x1480.size a)).extent (S2048x256.size a)) fun a => Pipeline.Clip.inb (Pipeline.Clip.ok_of (hstart2_1 i a))).WholeWords (EltTy.packing .f32)
  hwxs2_1 : ∀ i : grid2.Coords, EltTy.bits .f32 = 32 ∨ (Rect.unit (s := S2048x256) (fun _ => 0) (fun a => (Pipeline.Clip.of (cc2_transform_1 i a) (S2048x256.size a) (S2048x1480.size a)).extent (S2048x256.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x256.size a < S1x1480.size a
  hwx2_2 : ∀ i : grid2.Coords, EltTy.bits .f32 = 32 ∨ (Rect.unit (s := S1x1480) (fun a => cc2_transform_2 i a * S1x256.size a) (fun a => (Pipeline.Clip.of (cc2_transform_2 i a) (S1x256.size a) (S1x1480.size a)).extent (S1x256.size a)) fun a => Pipeline.Clip.inb (Pipeline.Clip.ok_of (hstart2_2 i a))).WholeWords (EltTy.packing .f32)
  hwxs2_2 : ∀ i : grid2.Coords, EltTy.bits .f32 = 32 ∨ (Rect.unit (s := S1x256) (fun _ => 0) (fun a => (Pipeline.Clip.of (cc2_transform_2 i a) (S1x256.size a) (S1x1480.size a)).extent (S1x256.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S128x256.size a < S128x1480.size a
  hwx2_3 : ∀ i : grid2.Coords, EltTy.bits .f32 = 32 ∨ (Rect.unit (s := S128x1480) (fun a => cc2_transform_3 i a * S128x256.size a) (fun a => (Pipeline.Clip.of (cc2_transform_3 i a) (S128x256.size a) (S128x1480.size a)).extent (S128x256.size a)) fun a => Pipeline.Clip.inb (Pipeline.Clip.ok_of (hstart2_3 i a))).WholeWords (EltTy.packing .f32)
  hwxs2_3 : ∀ i : grid2.Coords, EltTy.bits .f32 = 32 ∨ (Rect.unit (s := S128x256) (fun _ => 0) (fun a => (Pipeline.Clip.of (cc2_transform_3 i a) (S128x256.size a) (S128x1480.size a)).extent (S128x256.size a)) fun a => (Nat.zero_add _).trans_le (Pipeline.Clip.extent_le (Pipeline.Clip.ok_of (hstart2_3 i a)))).WholeWords (EltTy.packing .f32)

variable [Facts₀]

def dot_S8x512_S512x225_S8x225_1_0_0_1_n_n : DotDims S8x512 S512x225 S8x225 where
  lhsContracting := [1]
  rhsContracting := [0]
  lhsNonContracting := [0]
  rhsNonContracting := [1]
  lhsBatch := []
  rhsBatch := []
  wf := dot_S8x512_S512x225_S8x225_1_0_0_1_n_n_wf
def dot_S128x1800_S1800x512_S128x512_1_0_0_1_n_n : DotDims S128x1800 S1800x512 S128x512 where
  lhsContracting := [1]
  rhsContracting := [0]
  lhsNonContracting := [0]
  rhsNonContracting := [1]
  lhsBatch := []
  rhsBatch := []
  wf := dot_S128x1800_S1800x512_S128x512_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf

abbrev win0_0 : Pipeline.Window sig grid0 :=
  Pipeline.Window.ofSpec (Memref.whole main_call0_v0) S8x512x225.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S8x8x225.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v3) S128x1800.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1800x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v5) S128x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg5) S2048x256.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_call0_v6) S1x256.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_call0_v7) S128x256.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S128x512x9x25 : Shape := ⟨4, ![128, 512, 9, 25]⟩
abbrev S8x512 : Shape := ⟨2, ![8, 512]⟩
abbrev S8 : Shape := ⟨1, ![8]⟩
abbrev S1800x2048 : Shape := ⟨2, ![1800, 2048]⟩
abbrev S2048 : Shape := ⟨1, ![2048]⟩
abbrev S2048x1480 : Shape := ⟨2, ![2048, 1480]⟩
abbrev S1480 : Shape := ⟨1, ![1480]⟩
abbrev S128x512x225 : Shape := ⟨3, ![128, 512, 225]⟩
abbrev S8x1 : Shape := ⟨2, ![8, 1]⟩
abbrev S128x8x225 : Shape := ⟨3, ![128, 8, 225]⟩
abbrev S128x1800 : Shape := ⟨2, ![128, 1800]⟩
abbrev S1x2048 : Shape := ⟨2, ![1, 2048]⟩
abbrev S128x2048 : Shape := ⟨2, ![128, 2048]⟩
abbrev S1x1480 : Shape := ⟨2, ![1, 1480]⟩
abbrev S128x1480 : Shape := ⟨2, ![128, 1480]⟩
abbrev S128x37x10x4 : Shape := ⟨4, ![128, 37, 10, 4]⟩
abbrev S1x512x225 : Shape := ⟨3, ![1, 512, 225]⟩
abbrev S1x8x225 : Shape := ⟨3, ![1, 8, 225]⟩
abbrev S512x225 : Shape := ⟨2, ![512, 225]⟩
abbrev S8x225 : Shape := ⟨2, ![8, 225]⟩
abbrev S1800x512 : Shape := ⟨2, ![1800, 512]⟩
abbrev S1x512 : Shape := ⟨2, ![1, 512]⟩
abbrev S128x512 : Shape := ⟨2, ![128, 512]⟩
abbrev S2048x512 : Shape := ⟨2, ![2048, 512]⟩

abbrev nBuf : Space → Nat
  | .hbm => 16
  | .vmem => 20
  | .smem => 0
  | _ => 0

abbrev bufTy : (tb : Table) → Fin (tcTables nBuf tb) → BufTy
  | .hbm, ⟨0, _⟩ => ⟨S128x512x9x25, .f32⟩
  | .hbm, ⟨1, _⟩ => ⟨S8x512, .f32⟩
  | .hbm, ⟨2, _⟩ => ⟨S8, .f32⟩
  | .hbm, ⟨3, _⟩ => ⟨S1800x2048, .f32⟩
  | .hbm, ⟨4, _⟩ => ⟨S2048, .f32⟩
  | .hbm, ⟨5, _⟩ => ⟨S2048x1480, .f32⟩
  | .hbm, ⟨6, _⟩ => ⟨S1480, .f32⟩
  | .hbm, ⟨7, _⟩ => ⟨S128x512x225, .f32⟩
  | .hbm, ⟨8, _⟩ => ⟨S8x1, .f32⟩
  | .hbm, ⟨9, _⟩ => ⟨S128x8x225, .f32⟩
  | .hbm, ⟨10, _⟩ => ⟨S128x1800, .f32⟩
  | .hbm, ⟨11, _⟩ => ⟨S1x2048, .f32⟩
  | .hbm, ⟨12, _⟩ => ⟨S128x2048, .f32⟩
  | .hbm, ⟨13, _⟩ => ⟨S1x1480, .f32⟩
  | .hbm, ⟨14, _⟩ => ⟨S128x1480, .f32⟩
  | .hbm, ⟨15, _⟩ => ⟨S128x37x10x4, .f32⟩
  | .local _ .vmem, ⟨0, _⟩ => ⟨S1x512x225, .f32⟩
  | .local _ .vmem, ⟨1, _⟩ => ⟨S1x512x225, .f32⟩
  | .local _ .vmem, ⟨2, _⟩ => ⟨S8x512, .f32⟩
  | .local _ .vmem, ⟨3, _⟩ => ⟨S8x1, .f32⟩
  | .local _ .vmem, ⟨4, _⟩ => ⟨S1x8x225, .f32⟩
  | .local _ .vmem, ⟨5, _⟩ => ⟨S1x8x225, .f32⟩
  | .local _ .vmem, ⟨6, _⟩ => ⟨S128x1800, .f32⟩
  | .local _ .vmem, ⟨7, _⟩ => ⟨S1800x512, .f32⟩
  | .local _ .vmem, ⟨8, _⟩ => ⟨S1800x512, .f32⟩
  | .local _ .vmem, ⟨9, _⟩ => ⟨S1x512, .f32⟩
  | .local _ .vmem, ⟨10, _⟩ => ⟨S1x512, .f32⟩
  | .local _ .vmem, ⟨11, _⟩ => ⟨S128x512, .f32⟩
  | .local _ .vmem, ⟨12, _⟩ => ⟨S128x512, .f32⟩
  | .local _ .vmem, ⟨13, _⟩ => ⟨S128x2048, .f32⟩
  | .local _ .vmem, ⟨14, _⟩ => ⟨S2048x512, .f32⟩
  | .local _ .vmem, ⟨15, _⟩ => ⟨S2048x512, .f32⟩
  | .local _ .vmem, ⟨16, _⟩ => ⟨S1x512, .f32⟩
  | .local _ .vmem, ⟨17, _⟩ => ⟨S1x512, .f32⟩
  | .local _ .vmem, ⟨18, _⟩ => ⟨S128x512, .f32⟩
  | .local _ .vmem, ⟨19, _⟩ => ⟨S128x512, .f32⟩
  | _, _ => ⟨S128x512x9x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x225 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x225 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1800 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1800x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128x512x9x25_S128x512x225 : S128x512x9x25.ShapeCasts S128x512x225
  shapeCasts_S8_S8x1 : S8.ShapeCasts S8x1
  shapeCasts_S128x8x225_S128x1800 : S128x8x225.ShapeCasts S128x1800
  shapeCasts_S2048_S1x2048 : S2048.ShapeCasts S1x2048
  shapeCasts_S1480_S1x1480 : S1480.ShapeCasts S1x1480
  shapeCasts_S128x1480_S128x37x10x4 : S128x1480.ShapeCasts S128x37x10x4
  inb_S8x512_S8x512_0_0 : ∀ a, (![0, 0] : Fin 2 → Nat) a + S8x512.size a ≤ S8x512.size a
  h_S8x512 : 0 < S8x512.numel
  inb_S1x512x225_S1x512x225_0_0_0 : ∀ a, (![0, 0, 0] : Fin 3 → Nat) a + S1x512x225.size a ≤ S1x512x225.size a
  h_S1x512x225 : 0 < S1x512x225.numel
  shapeCasts_S1x512x225_S512x225 : S1x512x225.ShapeCasts S512x225
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x225 : S8x1.Broadcasts S8x225
  inb_S1x8x225_S1x8x225_0_0_0 : ∀ a, (![0, 0, 0] : Fin 3 → Nat) a + S1x8x225.size a ≤ S1x8x225.size a
  h_S1x8x225 : 0 < S1x8x225.numel
  shapeCasts_S1x8x225_S8x225 : S1x8x225.ShapeCasts S8x225
  shapeCasts_S8x225_S1x8x225 : S8x225.ShapeCasts S1x8x225
  inb_S128x1800_S128x1800_0_0 : ∀ a, (![0, 0] : Fin 2 → Nat) a + S128x1800.size a ≤ S128x1800.size a
  h_S128x1800 : 0 < S128x1800.numel
  shapeCasts_S128x1800_S128x1800 : S128x1800.ShapeCasts S128x1800
  inb_S1800x512_S1800x512_0_0 : ∀ a, (![0, 0] : Fin 2 → Nat) a + S1800x512.size a ≤ S1800x512.size a
  h_S1800x512 : 0 < S1800x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  dot_S8x512_S512x225_S8x225_1_0_0_1_n_n_wf : DotDims.WF S8x512 S512x225 S8x225 [1] [0] [0] [1] [] []
  dot_S128x1800_S1800x512_S128x512_1_0_0_1_n_n_wf : DotDims.WF S128x1800 S1800x512 S128x512 [1] [0] [0] [1] [] []
  dot_S128x2048_S2048x512_S128x512_1_0_0_1_n_n_wf : DotDims.WF S128x2048 S2048x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x225.size a ≤ S128x512x225.size a
  hwx0_0 : ∀ i : grid0.Coords, EltTy.bits .f32 = 32 ∨ (Rect.block (s := S128x512x225) S1x512x225.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x225.size a ≤ S128x8x225.size a
  hwx0_3 : ∀ i : grid0.Coords, EltTy.bits .f32 = 32 ∨ (Rect.block (s := S128x8x225) S1x8x225.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1800.size a ≤ S128x1800.size a
  hwx1_0 : ∀ i : grid1.Coords, EltTy.bits .f32 = 32 ∨ (Rect.block (s := S128x1800) S128x1800.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1800x512.size a ≤ S1800x2048.size a
  hwx1_1 : ∀ i : grid1.Coords, EltTy.bits .f32 = 32 ∨ (Rect.block (s := S1800x2048) S1800x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x2048.size a
  hwx1_3 : ∀ i : grid1.Coords, EltTy.bits .f32 = 32 ∨ (Rect.block (s := S128x2048) S128x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S128x2048.size a
  hwx2_0 : ∀ i : grid2.Coords, EltTy.bits .f32 = 32 ∨ (Rect.block (s := S128x2048) S128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x512.size a < S2048x1480.size a
  hwx2_1 : ∀ i : grid2.Coords, EltTy.bits .f32 = 32 ∨ (Rect.unit (s := S2048x1480) (fun a => cc2_transform_1 i a * S2048x512.size a) (fun a => (Pipeline.Clip.of (cc2_transform_1 i a) (S2048x512.size a) (S2048x1480.size a)).extent (S2048x512.size a)) fun a => Pipeline.Clip.inb (Pipeline.Clip.ok_of (hstart2_1 i a))).WholeWords (EltTy.packing .f32)
  hwxs2_1 : ∀ i : grid2.Coords, EltTy.bits .f32 = 32 ∨ (Rect.unit (s := S2048x512) (fun _ => 0) (fun a => (Pipeline.Clip.of (cc2_transform_1 i a) (S2048x512.size a) (S2048x1480.size a)).extent (S2048x512.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x512.size a < S1x1480.size a
  hwx2_2 : ∀ i : grid2.Coords, EltTy.bits .f32 = 32 ∨ (Rect.unit (s := S1x1480) (fun a => cc2_transform_2 i a * S1x512.size a) (fun a => (Pipeline.Clip.of (cc2_transform_2 i a) (S1x512.size a) (S1x1480.size a)).extent (S1x512.size a)) fun a => Pipeline.Clip.inb (Pipeline.Clip.ok_of (hstart2_2 i a))).WholeWords (EltTy.packing .f32)
  hwxs2_2 : ∀ i : grid2.Coords, EltTy.bits .f32 = 32 ∨ (Rect.unit (s := S1x512) (fun _ => 0) (fun a => (Pipeline.Clip.of (cc2_transform_2 i a) (S1x512.size a) (S1x1480.size a)).extent (S1x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S128x512.size a < S128x1480.size a
  hwx2_3 : ∀ i : grid2.Coords, EltTy.bits .f32 = 32 ∨ (Rect.unit (s := S128x1480) (fun a => cc2_transform_3 i a * S128x512.size a) (fun a => (Pipeline.Clip.of (cc2_transform_3 i a) (S128x512.size a) (S128x1480.size a)).extent (S128x512.size a)) fun a => Pipeline.Clip.inb (Pipeline.Clip.ok_of (hstart2_3 i a))).WholeWords (EltTy.packing .f32)
  hwxs2_3 : ∀ i : grid2.Coords, EltTy.bits .f32 = 32 ∨ (Rect.unit (s := S128x512) (fun _ => 0) (fun a => (Pipeline.Clip.of (cc2_transform_3 i a) (S128x512.size a) (S128x1480.size a)).extent (S128x512.size a)) fun a => (Nat.zero_add _).trans_le (Pipeline.Clip.extent_le (Pipeline.Clip.ok_of (hstart2_3 i a)))).WholeWords (EltTy.packing .f32)

variable [Facts₀]

def dot_S8x512_S512x225_S8x225_1_0_0_1_n_n : DotDims S8x512 S512x225 S8x225 where
  lhsContracting := [1]
  rhsContracting := [0]
  lhsNonContracting := [0]
  rhsNonContracting := [1]
  lhsBatch := []
  rhsBatch := []
  wf := dot_S8x512_S512x225_S8x225_1_0_0_1_n_n_wf
def dot_S128x1800_S1800x512_S128x512_1_0_0_1_n_n : DotDims S128x1800 S1800x512 S128x512 where
  lhsContracting := [1]
  rhsContracting := [0]
  lhsNonContracting := [0]
  rhsNonContracting := [1]
  lhsBatch := []
  rhsBatch := []
  wf := dot_S128x1800_S1800x512_S128x512_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_call0_v0) S1x512x225.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x8x225.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v3) S128x1800.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1800x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v5) S128x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg5) S2048x512.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_call0_v6) S1x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_call0_v7) S128x512.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.K.Region0.lean ====
/-
  The pooling call (the first pallas_call): a 1 x 1 convolution from 512 channels to 8, over batch tiles of 8 rows.
  At each of the 16 grid points the body reads the weight (8 x 512) and the bias (8 x 1) once and, for each of the
  8 batch rows of the tile, the row's feature slab (512 x 225); it stores W · slab + bias into the row's slab
  (8 x 225) of the result's buffer: eight stores that tile the buffer along its leading axis.
  This module states what the body leaves in the result's staging buffer as a function of the three blocks it
  read, proves the body's triple, and packages the call's proof data at an arbitrary entry valuation `V`.
-/
import proofs.«105144_g2000002570731441_pallasbulk_209_2_alg».proof.Proof.Gen.Kernel.Launch
import proofs.«105144_g2000002570731441_pallasbulk_209_2_alg».proof.Proof.Gen.Kernel.Skeleton
import proofs.«105144_g2000002570731441_pallasbulk_209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pooling call: blocks, the body's result, the body's triple -/

/-- Window `w`'s block at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangles of the weight's and the bias's buffers. -/
abbrev whole0_w : Rect S8x512 := Rect.unit (s := S8x512) ![0, 0] S8x512.size inb_S8x512_S8x512_0_0
abbrev whole0_b : Rect S8x1 := Rect.unit (s := S8x1) ![0, 0] S8x1.size inb_S8x1_S8x1_0_0
/-- Batch row `k` of the feature tile: a 1 x 512 x 225 slab; -/
abbrev xslab0 : Rect S8x512x225 := Rect.unit (s := S8x512x225) ![0, 0, 0] S1x512x225.size inb_S8x512x225_S1x512x225_0_0_0
abbrev xslab1 : Rect S8x512x225 := Rect.unit (s := S8x512x225) ![1, 0, 0] S1x512x225.size inb_S8x512x225_S1x512x225_1_0_0
abbrev xslab2 : Rect S8x512x225 := Rect.unit (s := S8x512x225) ![2, 0, 0] S1x512x225.size inb_S8x512x225_S1x512x225_2_0_0
abbrev xslab3 : Rect S8x512x225 := Rect.unit (s := S8x512x225) ![3, 0, 0] S1x512x225.size inb_S8x512x225_S1x512x225_3_0_0
abbrev xslab4 : Rect S8x512x225 := Rect.unit (s := S8x512x225) ![4, 0, 0] S1x512x225.size inb_S8x512x225_S1x512x225_4_0_0
abbrev xslab5 : Rect S8x512x225 := Rect.unit (s := S8x512x225) ![5, 0, 0] S1x512x225.size inb_S8x512x225_S1x512x225_5_0_0
abbrev xslab6 : Rect S8x512x225 := Rect.unit (s := S8x512x225) ![6, 0, 0] S1x512x225.size inb_S8x512x225_S1x512x225_6_0_0
abbrev xslab7 : Rect S8x512x225 := Rect.unit (s := S8x512x225) ![7, 0, 0] S1x512x225.size inb_S8x512x225_S1x512x225_7_0_0
/-- and of the result tile: a 1 x 8 x 225 slab. -/
abbrev oslab0 : Rect S8x8x225 := Rect.unit (s := S8x8x225) ![0, 0, 0] S1x8x225.size inb_S8x8x225_S1x8x225_0_0_0
abbrev oslab1 : Rect S8x8x225 := Rect.unit (s := S8x8x225) ![1, 0, 0] S1x8x225.size inb_S8x8x225_S1x8x225_1_0_0
abbrev oslab2 : Rect S8x8x225 := Rect.unit (s := S8x8x225) ![2, 0, 0] S1x8x225.size inb_S8x8x225_S1x8x225_2_0_0
abbrev oslab3 : Rect S8x8x225 := Rect.unit (s := S8x8x225) ![3, 0, 0] S1x8x225.size inb_S8x8x225_S1x8x225_3_0_0
abbrev oslab4 : Rect S8x8x225 := Rect.unit (s := S8x8x225) ![4, 0, 0] S1x8x225.size inb_S8x8x225_S1x8x225_4_0_0
abbrev oslab5 : Rect S8x8x225 := Rect.unit (s := S8x8x225) ![5, 0, 0] S1x8x225.size inb_S8x8x225_S1x8x225_5_0_0
abbrev oslab6 : Rect S8x8x225 := Rect.unit (s := S8x8x225) ![6, 0, 0] S1x8x225.size inb_S8x8x225_S1x8x225_6_0_0
abbrev oslab7 : Rect S8x8x225 := Rect.unit (s := S8x8x225) ![7, 0, 0] S1x8x225.size inb_S8x8x225_S1x8x225_7_0_0

/-- The result tile the body stores, from the feature tile `x`, the weight `w` and the bias `b`: row `k`'s slab is
    W · x[k] + bias, the eight stores listed last first (the weight and bias pass through the body's two format
    changes, which the later rows share). -/
def pool0 (x : Vec F S8x512x225 .f32) (w : Vec F S8x512 .f32) (b : Vec F S8x1 .f32) : Vec F S8x8x225 .bf16 :=
  View.canon [
    ⟨oslab7, k0_pay2 (k0_pay3 (View.ld w whole0_w)) (k0_pay4 (View.ld b whole0_b)) (View.ld x (xslab7))⟩,
    ⟨oslab6, k0_pay1 (k0_pay3 (View.ld w whole0_w)) (k0_pay4 (View.ld b whole0_b)) (View.ld x (xslab6))⟩,
    ⟨oslab5, k0_pay11 (k0_pay3 (View.ld w whole0_w)) (k0_pay4 (View.ld b whole0_b)) (View.ld x (xslab5))⟩,
    ⟨oslab4, k0_pay10 (k0_pay3 (View.ld w whole0_w)) (k0_pay4 (View.ld b whole0_b)) (View.ld x (xslab4))⟩,
    ⟨oslab3, k0_pay9 (k0_pay3 (View.ld w whole0_w)) (k0_pay4 (View.ld b whole0_b)) (View.ld x (xslab3))⟩,
    ⟨oslab2, k0_pay8 (k0_pay7 (View.ld w whole0_w) (View.ld b whole0_b) (View.ld x (xslab2)))⟩,
    ⟨oslab1, k0_pay6 (View.ld w whole0_w) (View.ld b whole0_b) (View.ld x (xslab1))⟩,
    ⟨oslab0, k0_pay5 (View.ld w whole0_w) (View.ld b whole0_b) (View.ld x (xslab0))⟩]

/-- The eight slabs tile the buffer along its leading axis. -/
theorem pool0_cover (p7 p6 p5 p4 p3 p2 p1 p0 : Vec F S1x8x225 .bf16) (y : S8x8x225.Idx) :
    ∃ pc ∈ ([⟨oslab7, p7⟩, ⟨oslab6, p6⟩, ⟨oslab5, p5⟩, ⟨oslab4, p4⟩, ⟨oslab3, p3⟩, ⟨oslab2, p2⟩, ⟨oslab1, p1⟩, ⟨oslab0, p0⟩] :
        List (View.Piece (Elt F) S8x8x225 .bf16)), y ∈ pc.1.set :=
  View.cover_of_tiled [⟨oslab7, p7⟩, ⟨oslab6, p6⟩, ⟨oslab5, p5⟩, ⟨oslab4, p4⟩, ⟨oslab3, p3⟩, ⟨oslab2, p2⟩, ⟨oslab1, p1⟩, ⟨oslab0, p0⟩]
    S1x8x225.size (by rfl) y

set_option maxHeartbeats 4000000 in
/-- The body on whole staging buffers: the three inputs are read and left as they were, the result's buffer ends at `pool0`. -/
theorem body0_triple (c : Dev nD) (E : Set ℕ) (i : grid0.Coords)
    (a1 : Memref sig .tc .vmem S8x512x225 .f32) (h1 : a1.IsWhole) (a2 : Memref sig .tc .vmem S8x512 .f32) (h2 : a2.IsWhole)
    (a3 : Memref sig .tc .vmem S8x1 .f32) (h3 : a3.IsWhole) (a4 : Memref sig .tc .vmem S8x8x225 .bf16) (h4 : a4.IsWhole)
    (x : Vec F S8x512x225 .f32) (w : Vec F S8x512 .f32) (b : Vec F S8x1 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (pool0 x w b)) -∗ K ⟨⟩))
      ⊢ wp frame (wpE (defs₀ (F := F)) Variants.none c none) E (cc0__conv_kernel i a1 h1 a2 h2 a3 h3 a4 h4) K := by
  simp only [cc0__conv_kernel_eq_skeleton]; unfold cc0__conv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (pool0_cover _ _ _ _ _ _ _ _)

/-! ## The call's proof data -/

/-- The proof data of the pooling call on core `c`: the arrays as the call finds them; after the body at point `t` each
    input's buffer still at its block and the result's buffer at `pool0` of the three blocks; the invariant is the scoped
    rest and the generator register, untouched; nothing is owed; every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => pool0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = pool0 (blk0 V c 0 t) (blk0 V c 1 t) (blk0 V c 2 t) := by dsimp only [dat0]

/-- Each input's current staging buffer holds its block at every point, whether the point fetched it or an earlier one did
    (the block index has not moved since). -/
theorem found0_0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [dat0_after2]; unfold Dat.blockOf blk0; rw [dat0_A]; try rfl) t d).trans
    (by unfold Dat.fetched Dat.blockOf blk0; rw [dat0_A]; try rfl)

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body0_obligation (c : Dev nD) : BodyObligation (dat0 (F := F) V c) (defs₀ (F := F)) Variants.none () Set.univ := fun t => by
  rw [bigSep_W0, bigSep_W0]
  exact body0_at V c t

end Cert.Kernel.Hand

end
-- ==== Proof.K.Region1.lean ====
/-
  The hidden layer's call (the second pallas_call): h = relu(xf · W1 + b1), computed in four column tiles of 512.
  At each grid point the body reads the whole activation matrix (128 x 1800, resident), one column tile of the
  weight (1800 x 512) and of the bias (1 x 512), and stores the tile of the result (128 x 512) whole.
  This module states what the body leaves in the result's staging buffer as a function of the three blocks it
  read, proves the body's triple, and packages the call's proof data at an arbitrary entry valuation `V`.
-/
import proofs.«105144_g2000002570731441_pallasbulk_209_2_alg».proof.Proof.Gen.Kernel.Launch
import proofs.«105144_g2000002570731441_pallasbulk_209_2_alg».proof.Proof.Gen.Kernel.Skeleton
import proofs.«105144_g2000002570731441_pallasbulk_209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The hidden layer's call: blocks, the body's result, the body's triple -/

/-- Window `w`'s block at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole rectangle of each staging buffer. -/
abbrev whole1_x : Rect S128x1800 := Rect.unit (s := S128x1800) ![0, 0] S128x1800.size inb_S128x1800_S128x1800_0_0
abbrev whole1_w : Rect S1800x512 := Rect.unit (s := S1800x512) ![0, 0] S1800x512.size inb_S1800x512_S1800x512_0_0
abbrev whole1_b : Rect S1x512 := Rect.unit (s := S1x512) ![0, 0] S1x512.size inb_S1x512_S1x512_0_0
abbrev whole1_o : Rect S128x512 := Rect.unit (s := S128x512) ![0, 0] S128x512.size inb_S128x512_S128x512_0_0

/-- The result tile the body stores, from the activation block `x`, the weight tile `w` and the bias tile `b`:
    one whole store of relu(x · w + b). -/
def hid1 (x : Vec F S128x1800 .bf16) (w : Vec F S1800x512 .f32) (b : Vec F S1x512 .f32) : Vec F S128x512 .bf16 :=
  View.canon [⟨whole1_o, k1_pay1 (View.ld w whole1_w) (View.ld x whole1_x) (View.ld b whole1_b)⟩]

/-- The one store fills the buffer. -/
theorem hid1_cover (p : Vec F S128x512 .bf16) (y : S128x512.Idx) :
    ∃ pc ∈ ([⟨whole1_o, p⟩] : List (View.Piece (Elt F) S128x512 .bf16)), y ∈ pc.1.set :=
  View.cover_of_tiled [⟨whole1_o, p⟩] S128x512.size (by rfl) y

set_option maxHeartbeats 1000000 in
/-- The body on whole staging buffers: the three inputs are read and left as they were, the result's buffer ends at `hid1`. -/
theorem body1_triple (c : Dev nD) (E : Set ℕ) (i : grid1.Coords)
    (a1 : Memref sig .tc .vmem S128x1800 .bf16) (h1 : a1.IsWhole) (a2 : Memref sig .tc .vmem S1800x512 .f32) (h2 : a2.IsWhole)
    (a3 : Memref sig .tc .vmem S1x512 .f32) (h3 : a3.IsWhole) (a4 : Memref sig .tc .vmem S128x512 .bf16) (h4 : a4.IsWhole)
    (x : Vec F S128x1800 .bf16) (w : Vec F S1800x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (hid1 x w b)) -∗ K ⟨⟩))
      ⊢ wp frame (wpE (defs₀ (F := F)) Variants.none c none) E (cc1__linear_kernel i a1 h1 a2 h2 a3 h3 a4 h4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hid1_cover _)

/-! ## The call's proof data -/

/-- The proof data of the hidden layer's call on core `c`: the arrays as the call finds them; after the body at point `t`
    each input's buffer still at its block and the result's buffer at `hid1` of the three blocks; the invariant is the
    scoped rest and the generator register, untouched; nothing is owed; every array is held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hid1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = hid1 (blk1 V c 0 t) (blk1 V c 1 t) (blk1 V c 2 t) := by dsimp only [dat1]

/-- Each input's current staging buffer holds its block at every point, whether the point fetched it or an earlier one did
    (the block index has not moved since). -/
theorem found1_0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body1_obligation (c : Dev nD) : BodyObligation (dat1 (F := F) V c) (defs₀ (F := F)) Variants.none () Set.univ := fun t => by
  rw [bigSep_W1, bigSep_W1]
  exact body1_at V c t

end Cert.Kernel.Hand

end
-- ==== Proof.K.Region2.lean ====
/-
  REGION 2 of @main: the third pallas_call, `cc2__linear_kernel` — `y = h · w + b` over a grid of six points, the
  resident operand `h` (128 × 2048, one block, fetched once), the weights `w` (2048 × 1480 in blocks of 256 columns),
  the bias `b` (1 × 1480 likewise) and the result (128 × 1480 likewise). Six blocks of 256 columns are 1536 > 1480:
  the last point's blocks of the weights, the bias and the result overhang their arrays by 56 columns, their transfers
  are cut at the array's end, and what the weights' and the bias's buffers hold past it after the cut fetch is
  whatever the overwrite before the fetch left. The three windows are loose: the body obligation states their buffers
  on the part inside the array only.

  Stated at the TensorCore's buffer contents `V` when the region is entered, for any float instance:
  the proof data `dat2` (after the body the resident operand's buffer holds the operand, the weights' and the bias's
  their blocks filled out past the array's end with the zero word, the result's the payload of those three);
  `body_obligation2_fgt`, the body obligation with the result's window forgotten, at any instance;
  `body_obligation2`, the body obligation with nothing forgotten, under `PayLocal2`: element `(i, j)` of the payload
  reads of the weights and the bias their column `j` only. That is what makes the result's columns inside the array
  independent of the words past the end of the other two buffers; it is a property of the instance's matrix product
  (an instance may define the product of the whole operands), so it is a hypothesis here.
  Then what each point writes back of the result (`flushed2_3`), and that the three inputs' arrays are never written
  (`arrAt2_in`).
-/
import proofs.«105144_g2000002570731441_pallasbulk_209_2_alg».proof.Proof.Gen.Kernel.Launch
import proofs.«105144_g2000002570731441_pallasbulk_209_2_alg».proof.Proof.Gen.Kernel.Skeleton
import proofs.«105144_g2000002570731441_pallasbulk_209_2_alg».proof.Proof.Gen.Kernel.Points
import Idealize.ShloMosaic.Lib.Pipeline.FrameBody
import Idealize.ShloMosaic.Lib.Pipeline.Value
import Idealize.ShloMosaic.Lib.Pipeline.Kit
import Idealize.ShloMosaic.Lib.Tactic
import Idealize.ShloMosaic.Lib.ValueIdx

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: the block's part inside the
    array (for the last point of windows 1, 2, 3 the first 200 of its 256 columns). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The word a block cut at the array's end is filled out with past that end: the zero word. Nothing reads it. -/
def pad2 : Elt F .f32 := Scalar.ofBits .f32 0#32

/-- The weights' block at point `t` as a whole staging block: its part inside the array, filled out. -/
def wblk2 (c : Dev nD) (t : Fin cfg2.N) : Vec F S2048x256 .f32 :=
  win2_1.fill (grid2.coords t) (fun _ => pad2) (blk2 V c 1 t)

/-- The bias's block likewise. -/
def bblk2 (c : Dev nD) (t : Fin cfg2.N) : Vec F S1x256 .f32 :=
  win2_2.fill (grid2.coords t) (fun _ => pad2) (blk2 V c 2 t)

/-- The proof data of pipeline 2 on core `c`: the arrays as the region finds them (`V`); after the body at point `t` the
    resident operand's buffer at the operand, the weights' and the bias's at their blocks filled out, the result's at
    the payload of the three; the invariant the scoped rest and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => wblk2 V c t
    | ⟨2, _⟩ => bblk2 V c t
    | ⟨3, _⟩ => k2_pay1 (wblk2 V c t) (blk2 V c 0 t) (bblk2 V c t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = blk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = k2_pay1 (wblk2 V c t) (blk2 V c 0 t) (bblk2 V c t) := by dsimp only [dat2]

abbrev r2_0 : Rect S128x2048 := Rect.unit (s := S128x2048) ![0, 0] S128x2048.size inb_S128x2048_S128x2048_0_0
abbrev r2_1 : Rect S2048x256 := Rect.unit (s := S2048x256) ![0, 0] S2048x256.size inb_S2048x256_S2048x256_0_0
abbrev r2_2 : Rect S1x256 := Rect.unit (s := S1x256) ![0, 0] S1x256.size inb_S1x256_S1x256_0_0
abbrev r2_3 : Rect S128x256 := Rect.unit (s := S128x256) ![0, 0] S128x256.size inb_S128x256_S128x256_0_0

theorem hz2 : (![0, 0] : Fin 2 → Nat) = fun _ => 0 := funext fun a => by fin_cases a <;> rfl

theorem cover2_3 (p : Vec F S128x256 .f32) (y : S128x256.Idx) :
    ∃ pc ∈ ([⟨r2_3, p⟩] : List (View.Piece (Elt F) S128x256 .f32)), y ∈ pc.1.set :=
  ⟨⟨r2_3, p⟩, List.mem_singleton_self _, View.mem_set_unit_zero hz2 inb_S128x256_S128x256_0_0 y⟩

theorem canon2_3 (p : Vec F S128x256 .f32) :
    View.canon ([⟨r2_3, p⟩] : List (View.Piece (Elt F) S128x256 .f32)) = p :=
  View.canon_unit_zero hz2 inb_S128x256_S128x256_0_0 p

theorem read_store2 {κ : Kind} {sp : Space} (v : View sig κ sp S128x256 .f32) (f : v.ty.Contents (Elt F)) (p : Vec F S128x256 .f32) :
    v.read (Elt F) (v.writes (Elt F) f [⟨r2_3, p⟩]) = p :=
  (View.read_writes_eq_canon v f _ (cover2_3 p)).trans (canon2_3 p)

theorem readAt2_0 {κ : Kind} {sp : Space} (v : View sig κ sp S128x2048 .bf16) (f : v.ty.Contents (Elt F)) :
    v.readAt (Elt F) r2_0.toLoadRect f = v.read (Elt F) f := View.ld_unit_zero hz2 inb_S128x2048_S128x2048_0_0 _
theorem readAt2_1 {κ : Kind} {sp : Space} (v : View sig κ sp S2048x256 .f32) (f : v.ty.Contents (Elt F)) :
    v.readAt (Elt F) r2_1.toLoadRect f = v.read (Elt F) f := View.ld_unit_zero hz2 inb_S2048x256_S2048x256_0_0 _
theorem readAt2_2 {κ : Kind} {sp : Space} (v : View sig κ sp S1x256 .f32) (f : v.ty.Contents (Elt F)) :
    v.readAt (Elt F) r2_2.toLoadRect f = v.read (Elt F) f := View.ld_unit_zero hz2 inb_S1x256_S1x256_0_0 _

/-! ## The body's triple -/

set_option maxHeartbeats 1000000 in
/-- The kernel body on whole staging memrefs: the three inputs' at contents `x0`, `x1`, `x2`, the result's at anything.
    It loads the three whole, loads the result's buffer (a value nothing reads) and stores the payload over all of it:
    the inputs' buffers are left as found and the result's holds the payload of what the inputs' held. -/
theorem sound_kernel2 (c : Dev nD) (E : Set ℕ) (i : grid2.Coords)
    (arg1 : Memref sig .tc .vmem S128x2048 .bf16) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S128x256 .f32) (harg4 : arg4.IsWhole)
    (x0 : Vec F S128x2048 .bf16) (x1 : Vec F S2048x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x1 x0 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store2 _ _ _).trans ?_
  rw [readAt2_0, readAt2_1, readAt2_2]

/-! ## What the body finds in the inputs' buffers -/

/-- The resident operand's buffer holds the whole operand at every point: fetched at the first, kept since (its block
    index never moves, and the body leaves the buffer as found). -/
theorem before2_0 (c : Dev nD) (t : Fin cfg2.N) (d) : (dat2 V c).before 0 t d = blk2 V c 0 t :=
  ((dat2 V c).before_in_eq_fetched 0 rfl (fun _ => rfl) (fun _ _ _ => rfl)
    (fun u => by rw [after2_0]; unfold Dat.blockOf blk2; rw [A_eq2]; try rfl) t d).trans
    (by unfold Dat.fetched Dat.blockOf blk2; rw [A_eq2]; try rfl)

/-- The weights' buffer, fetched at every point, holds the block's part inside the array and `d` past it. -/
theorem before2_1 (c : Dev nD) (t : Fin cfg2.N) (d) :
    (dat2 V c).before 1 t d = win2_1.fill (grid2.coords t) d (blk2 V c 1 t) := by
  rw [(dat2 V c).before_fetched 1 t (fetch2_1 t) d]; unfold Dat.fetched Dat.blockOf blk2; rw [A_eq2]; try rfl

/-- The bias's likewise. -/
theorem before2_2 (c : Dev nD) (t : Fin cfg2.N) (d) :
    (dat2 V c).before 2 t d = win2_2.fill (grid2.coords t) d (blk2 V c 2 t) := by
  rw [(dat2 V c).before_fetched 2 t (fetch2_2 t) d]; unfold Dat.fetched Dat.blockOf blk2; rw [A_eq2]; try rfl

/-! ## The body at a point -/

/-- The body at any point, the result's buffer handed over at anything: the inputs' buffers hold their blocks (`before2_W`: windows 1 and 2 filled out past the
    array's end with whatever the cut fetches left, `d1`, `d2`), so the body's triple applies; the invariant and the
    core's `owes` pass through unread. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ X, owns (c : Thread nD τ) (st2_3 t) fullShare X))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare (blk2 V c 0 t)
            ∗ ∃ d1 d2, iprop(owns (c : Thread nD τ) (st2_1 t) fullShare (win2_1.fill (grid2.coords t) d1 (blk2 V c 1 t))
                ∗ owns (c : Thread nD τ) (st2_2 t) fullShare (win2_2.fill (grid2.coords t) d2 (blk2 V c 2 t))
                ∗ owns (c : Thread nD τ) (st2_3 t) fullShare
                    (k2_pay1 (win2_1.fill (grid2.coords t) d1 (blk2 V c 1 t)) (blk2 V c 0 t)
                      (win2_2.fill (grid2.coords t) d2 (blk2 V c 2 t)))))) := by
  simp only [before2_0, before2_1, before2_2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  iapply (sound_kernel2 c Set.univ _ _ _ _ _ _ _ _ _ (blk2 V c 0 t) (win2_1.fill (grid2.coords t) d1 (blk2 V c 1 t))
    (win2_2.fill (grid2.coords t) d2 (blk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  iexists d1; iexists d2
  isplitl [H1]; · iexact H1
  isplitl [H2]; · iexact H2
  iexact H3

/-! ## The body obligation -/

/-- The result's window: the one a certificate that does not read the result forgets. -/
abbrev fgt2 : Fin cfg2.W → Bool :=
  fun | 0 => false | 1 => false | 2 => false | 3 => true | ⟨_ + 4, h⟩ => absurd h (Nat.not_lt.2 (Nat.le_add_left _ _))

/-- What the weights' and the bias's buffers are left holding is, on the part inside the array, the block: all a
    loose window's obligation states of them. -/
theorem leaves2_1 (c : Dev nD) (t : Fin cfg2.N) (d1 : Vec F S2048x256 .f32) :
    win2_1.fill (grid2.coords t) d1 (win2_1.cut (grid2.coords t) ((dat2 V c).after 1 t))
      = win2_1.fill (grid2.coords t) d1 (blk2 V c 1 t) := by
  rw [after2_1]; unfold wblk2; rw [win2_1.cut_fill]
theorem leaves2_2 (c : Dev nD) (t : Fin cfg2.N) (d2 : Vec F S1x256 .f32) :
    win2_2.fill (grid2.coords t) d2 (win2_2.cut (grid2.coords t) ((dat2 V c).after 2 t))
      = win2_2.fill (grid2.coords t) d2 (blk2 V c 2 t) := by
  rw [after2_2]; unfold bblk2; rw [win2_2.cut_fill]

/-- The body obligation with the result's window forgotten, at any float instance: the resident operand's buffer is
    left holding the operand, the weights' and the bias's their blocks on the part inside the array, the result's
    anything. -/
theorem body_obligation2_fgt (c : Dev nD) :
    BodyObligationLoose (dat2 (F := F) V c) (defs₀ (F := F)) Variants.none () Set.univ fgt2 := fun t => by
  rw [bigSep_W2, bigSep_W2]
  simp only
  refine (sound_body2 V c t).trans (wp_mono _ _ _ fun _ => ?_)
  iintro ⟨HΦ, Ho, H0, ⟨%d1, %d2, H1, H2, H3⟩⟩
  isplitl [HΦ]; · iexact HΦ
  isplitl [Ho]; · iexact Ho
  isplitl [H0]; · rw [after2_0]; iexact H0
  isplitl [H1]
  · iexists d1
    change _ ⊢ owns (c : Thread nD τ) (st2_1 t) fullShare (win2_1.fill (grid2.coords t) d1 (win2_1.cut (grid2.coords t) ((dat2 V c).after 1 t)))
    rw [leaves2_1]
  isplitl [H2]
  · iexists d2
    change _ ⊢ owns (c : Thread nD τ) (st2_2 t) fullShare (win2_2.fill (grid2.coords t) d2 (win2_2.cut (grid2.coords t) ((dat2 V c).after 2 t)))
    rw [leaves2_2]
  · iexists _; iexact H3

/-! ## The result's block, where the payload is local to its column -/

/-- COLUMN LOCALITY of the payload: its element `(i, j)` reads of the weights and of the bias their column `j` and
    nothing else. It holds where an element of the matrix product is a function of its own row and column of the
    operands (the exact product is); a float instance whose product reads the whole right operand need not have it. -/
def PayLocal2 : Prop :=
  ∀ (v0 v0' : Vec F S2048x256 .f32) (v2 : Vec F S128x2048 .bf16) (v5 v5' : Vec F S1x256 .f32) (i : Fin 128) (j : Fin 256),
    (∀ k : Fin 2048, v0 (ix2 k j) = v0' (ix2 k j)) → v5 (ix2 (0 : Fin 1) j) = v5' (ix2 (0 : Fin 1) j) →
      k2_pay1 v0 v2 v5 (ix2 i j) = k2_pay1 v0' v2 v5' (ix2 i j)

/-- Under it, the part of the result's block inside the array does not depend on what the weights' and the bias's
    buffers hold past the array's end: a column of the result inside the array reads the same column of the weights
    and of the bias, which is inside their arrays (the three windows are cut at the same column). -/
theorem cut_pay2 (hloc : PayLocal2 (F := F)) (i : grid2.Coords) (x0 : Vec F S128x2048 .bf16)
    (d1 d1' : Vec F S2048x256 .f32) (g1 : (win2_1.xblock i).Idx → Elt F .f32)
    (d2 d2' : Vec F S1x256 .f32) (g2 : (win2_2.xblock i).Idx → Elt F .f32) :
    win2_3.cut i (k2_pay1 (win2_1.fill i d1 g1) x0 (win2_2.fill i d2 g2))
      = win2_3.cut i (k2_pay1 (win2_1.fill i d1' g1) x0 (win2_2.fill i d2' g2)) := by
  funext j
  have hj : (j 1).val < win2_3.xsize i 1 := (j 1).isLt
  show k2_pay1 _ _ _ (win2_3.xinj i j) = k2_pay1 _ _ _ (win2_3.xinj i j)
  rw [eq_ix2 (n0 := 128) (n1 := 256) (win2_3.xinj i j)]
  refine hloc _ _ _ _ _ _ _ (fun k => ?_) ?_
  · have hm : win2_1.moved i (ix2 k ((win2_3.xinj i j) 1)) = true :=
      (win2_1.moved_iff i _).mpr fun a => by
        match a with
        | ⟨0, _⟩ => exact k.isLt
        | ⟨1, _⟩ => exact hj
    unfold Window.fill; rw [dif_pos hm, dif_pos hm]
  · have hm : win2_2.moved i (ix2 (0 : Fin 1) ((win2_3.xinj i j) 1)) = true :=
      (win2_2.moved_iff i _).mpr fun a => by
        match a with
        | ⟨0, _⟩ => exact Nat.zero_lt_one
        | ⟨1, _⟩ => exact hj
    unfold Window.fill; rw [dif_pos hm, dif_pos hm]

/-- So what the body leaves in the result's buffer is, on the part inside the array, the payload of the blocks
    filled out with the zero word. -/
theorem leaves2_3 (hloc : PayLocal2 (F := F)) (c : Dev nD) (t : Fin cfg2.N) (d1 : Vec F S2048x256 .f32) (d2 : Vec F S1x256 .f32) :
    win2_3.fill (grid2.coords t)
        (k2_pay1 (win2_1.fill (grid2.coords t) d1 (blk2 V c 1 t)) (blk2 V c 0 t) (win2_2.fill (grid2.coords t) d2 (blk2 V c 2 t)))
        (win2_3.cut (grid2.coords t) ((dat2 V c).after 3 t))
      = k2_pay1 (win2_1.fill (grid2.coords t) d1 (blk2 V c 1 t)) (blk2 V c 0 t) (win2_2.fill (grid2.coords t) d2 (blk2 V c 2 t)) := by
  rw [after2_3]; unfold wblk2 bblk2
  exact win2_3.fill_congr_cut _ (cut_pay2 hloc _ _ _ _ _ _ _ _)

/-- The result's buffer as its loose obligation states it. -/
theorem post2_3 (hloc : PayLocal2 (F := F)) (c : Dev nD) (t : Fin cfg2.N) (d1 : Vec F S2048x256 .f32) (d2 : Vec F S1x256 .f32) :
    owns (c : Thread nD τ) (st2_3 t) fullShare
        (k2_pay1 (win2_1.fill (grid2.coords t) d1 (blk2 V c 1 t)) (blk2 V c 0 t) (win2_2.fill (grid2.coords t) d2 (blk2 V c 2 t)))
      ⊢ (iprop(∃ d, owns (c : Thread nD τ) (st2_3 t) fullShare
          (win2_3.fill (grid2.coords t) d (win2_3.cut (grid2.coords t) ((dat2 V c).after 3 t)))) : sProp 𝕄) := by
  iintro H; iexists _; rw [leaves2_3 V hloc c t d1 d2]; iexact H

/-- The body obligation, nothing forgotten, at a float instance whose payload is local to its column. -/
theorem body_obligation2 (hloc : PayLocal2 (F := F)) (c : Dev nD) :
    BodyObligationLoose (dat2 (F := F) V c) (defs₀ (F := F)) Variants.none () Set.univ := fun t => by
  rw [bigSep_W2, bigSep_W2]
  simp only
  refine (sep_mono .rfl (sep_mono .rfl (sep_mono .rfl (sep_mono .rfl (sep_mono .rfl ?_))))).trans
    ((sound_body2 V c t).trans (wp_mono _ _ _ fun _ => ?_))
  · iintro ⟨%d, H⟩; iexists _; iexact H
  iintro ⟨HΦ, Ho, H0, ⟨%d1, %d2, H1, H2, H3⟩⟩
  isplitl [HΦ]; · iexact HΦ
  isplitl [Ho]; · iexact Ho
  isplitl [H0]; · rw [after2_0]; iexact H0
  isplitl [H1]
  · iexists d1
    change _ ⊢ owns (c : Thread nD τ) (st2_1 t) fullShare (win2_1.fill (grid2.coords t) d1 (win2_1.cut (grid2.coords t) ((dat2 V c).after 1 t)))
    rw [leaves2_1]
  isplitl [H2]
  · iexists d2
    change _ ⊢ owns (c : Thread nD τ) (st2_2 t) fullShare (win2_2.fill (grid2.coords t) d2 (win2_2.cut (grid2.coords t) ((dat2 V c).after 2 t)))
    rw [leaves2_2]
  · iapply (post2_3 V hloc c t d1 d2); iexact H3

/-! ## What the region writes, and what it leaves alone -/

/-- What point `t` writes back of the result: the part inside the array of the payload of the three blocks (the
    weights' and the bias's filled out with the zero word). -/
theorem flushed2_3 (c : Dev nD) (t : Fin cfg2.N) :
    (dat2 V c).flushed 3 t = win2_3.cut (grid2.coords t) (k2_pay1 (wblk2 V c t) (blk2 V c 0 t) (bblk2 V c t)) := by
  unfold Dat.flushed; rw [after2_3]; try rfl

/-- Under column locality, with the weights' and the bias's buffers filled out with anything. -/
theorem flushed2_3_of (hloc : PayLocal2 (F := F)) (c : Dev nD) (t : Fin cfg2.N) (d1 : Vec F S2048x256 .f32) (d2 : Vec F S1x256 .f32) :
    (dat2 V c).flushed 3 t
      = win2_3.cut (grid2.coords t)
          (k2_pay1 (win2_1.fill (grid2.coords t) d1 (blk2 V c 1 t)) (blk2 V c 0 t) (win2_2.fill (grid2.coords t) d2 (blk2 V c 2 t))) := by
  rw [flushed2_3]; unfold wblk2 bblk2
  exact cut_pay2 hloc _ _ _ _ _ _ _ _

/-- The inputs' arrays are never written: at every point they hold what the region found. -/
theorem arrAt2_in (c : Dev nD) (w : Fin cfg2.W) (hw : (cfg2.win w).isOut = false) (n : Nat) :
    (dat2 V c).arrAt w n = V c (Pipeline.arrRef spec2 w) :=
  ((dat2 V c).arrAt_in w hw n).trans (A_eq2 V c w)
theorem arrAt2_0 (c : Dev nD) (n : Nat) : (dat2 V c).arrAt 0 n = V c (Pipeline.arrRef spec2 0) := arrAt2_in V c 0 rfl n
theorem arrAt2_1 (c : Dev nD) (n : Nat) : (dat2 V c).arrAt 1 n = V c (Pipeline.arrRef spec2 1) := arrAt2_in V c 1 rfl n
theorem arrAt2_2 (c : Dev nD) (n : Nat) : (dat2 V c).arrAt 2 n = V c (Pipeline.arrRef spec2 2) := arrAt2_in V c 2 rfl n

end Cert.Kernel.Hand
end
-- ==== Proof.K.Run.lean ====
/-
  The run of the word-level program. @main is four stretches of host reshapes around three calls. The contents of every
  unscoped buffer are named at each boundary up to the entry of the last call; each of the first two calls is a segment
  entered at one boundary's contents and left at the next. The last call's final grid point has blocks that overhang
  their arrays: its matrix product then reads staging columns no array cell fills, and at the word level nothing says
  the stored columns do not depend on them. So what the last call leaves in its result array is not named: the call's
  result window is forgotten, the array is only known to hold SOME contents afterwards, and the two boundaries after the
  call are stated under that unknown. The argument arrays are inputs of the calls or bypass them, so they are read back
  through all eight boundaries unchanged, which is all the frame asks.
-/
import proofs.«105144_g2000002570731441_pallasbulk_209_2_alg».proof.Proof.Gen.Kernel.Regions
import proofs.«105144_g2000002570731441_pallasbulk_209_2_alg».proof.Proof.K.Region0
import proofs.«105144_g2000002570731441_pallasbulk_209_2_alg».proof.Proof.K.Region1
import proofs.«105144_g2000002570731441_pallasbulk_209_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary up to the last call's entry -/

/-- Core `c`'s unscoped buffers at launch. -/
abbrev W0 : Dev nD → Valuation τ sig (Elt F) := fun c b => m (c, b)

/-- After the first stretch of reshapes. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- When call 0 returns: its windows' arrays at what the pipeline leaves (the inputs as entered, the result's
    write-backs folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem W2_final (c : Dev nD) (w : Fin cfg0.W) : (dat0 (U1 m) c).arrAt w cfg0.N = U2 m c (Pipeline.arrRef spec0 w) :=
  (W2_arr m c w).symm
theorem W2_rest (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch of reshapes. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- When call 1 returns. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem W4_final (c : Dev nD) (w : Fin cfg1.W) : (dat1 (U3 m) c).arrAt w cfg1.N = U4 m c (Pipeline.arrRef spec1 w) :=
  (W4_arr m c w).symm
theorem W4_rest (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third stretch of reshapes: what the last call is entered with. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-! ## After the last call: the arrays at contents not named -/

/-- Contents for each of the last call's four arrays. -/
abbrev Arrs2 (c : Dev nD) : Type := (w : Fin cfg2.W) → Buf (Elt F) ((spec2 w).arr.view.loc (c.tc : Thread nD τ))

/-- When the last call returns with its arrays at `Fs`: those arrays at `Fs`, every other buffer as entered. -/
def W6 (c : Dev nD) (Fs : Arrs2 (F := F) c) : Valuation τ sig (Elt F) := Pipeline.withArrays spec2 c (W5 m c) Fs
theorem W6_arr (c : Dev nD) (Fs : Arrs2 (F := F) c) (w : Fin cfg2.W) :
    W6 m c Fs (Proc.devRef .tc (Pipeline.arrRef spec2 w)) = Fs w := by
  unfold W6; exact Pipeline.withArrays_arr spec2 launch2.win.arr_inj c _ _ w
theorem W6_of_ne (c : Dev nD) (Fs : Arrs2 (F := F) c) (b : Ref sig .tc) (hb : ∀ w, Pipeline.arrRef spec2 w ≠ b) :
    W6 m c Fs (Proc.devRef .tc b) = W5 m c (Proc.devRef .tc b) := by
  unfold W6; exact Pipeline.withArrays_of_ne spec2 c _ _ b hb
abbrev U6 (c : Dev nD) (Fs : Arrs2 (F := F) c) : (b : Ref sig .tc) → Buf (Elt F) ((c : Thread nD τ).loc b) := fun b => W6 m c Fs b
theorem W6_rest (c : Dev nD) (Fs : Arrs2 (F := F) c) : ∀ b, b ∉ Finset.univ.image (Pipeline.arrRef spec2) → U6 m c Fs b = U5 m c b :=
  fun b hb => W6_of_ne m c Fs b fun w e => hb (Finset.mem_image.mpr ⟨w, Finset.mem_univ _, e⟩)

/-- After the last reshape: the end. -/
abbrev W7 (c : Dev nD) (Fs : Arrs2 (F := F) c) : Valuation τ sig (Elt F) := StableHlo.after hostOps3 (W6 m c Fs)

/-! ## The proof data of the three calls -/

/-- Every call's proof data, each at its own entry contents, as data that names what the body leaves; -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
/-- and as data that only constrains it, which is what the launch takes: the first two calls as they are, the last call
    with its result window forgotten (nothing is said of what its body leaves there). -/
def rdats : (p : Fin 3) → (c : Dev nD) → RDat τ (Elt F) Unit ℕ (UR sig nD τ) ℕ (Pipeline.pin (pcfgs (F := F)) adm p) c
  | ⟨0, _⟩ => fun c => (dat0 (U1 m) c).toR
  | ⟨1, _⟩ => fun c => (dat1 (U3 m) c).toR
  | ⟨2, _⟩ => fun c => (dat2 (U5 m) c).toRForget fgt2

/-- `Fs` is something the last call's arrays may hold when it returns: each array's entry contents overwritten, in point
    order, by what the body may have left at each write-back. -/
def Ends2 (c : Dev nD) (Fs : Arrs2 (F := F) c) : Prop := ∀ w, (rdats m 2 c).ArrAt w cfg2.N (Fs w)

/-- The last call's second array is an input, never written: it ends as entered. -/
theorem Ends2.in1 {c : Dev nD} {Fs : Arrs2 (F := F) c} (h : Ends2 m c Fs) : Fs 1 = W5 m c (Proc.devRef .tc main_arg5) := by
  have h1 := h 1
  rw [RDat.ArrAt_in (rdats m 2 c) 1 rfl cfg2.N] at h1
  exact h1

/-- `main_arg0` reaches the end as launched: no reshape writes it, and a call reads it through an input window or not at all. -/
theorem W7_main_arg0 (c : Dev nD) (Fs : Arrs2 (F := F) c) (hFs : Ends2 m c Fs) :
    W7 m c Fs (Proc.devRef .tc main_arg0) = m ((c : Thread nD τ).loc main_arg0) :=
  calc W7 m c Fs (Proc.devRef .tc main_arg0)
    _ = W6 m c Fs (Proc.devRef .tc main_arg0) := StableHlo.after_of_writes_sub hostOps3 _ hostOps3_writes (by decide)
    _ = W5 m c (Proc.devRef .tc main_arg0) := W6_of_ne m c Fs main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no reshape writes it, and a call reads it through an input window or not at all. -/
theorem W7_main_arg1 (c : Dev nD) (Fs : Arrs2 (F := F) c) (hFs : Ends2 m c Fs) :
    W7 m c Fs (Proc.devRef .tc main_arg1) = m ((c : Thread nD τ).loc main_arg1) :=
  calc W7 m c Fs (Proc.devRef .tc main_arg1)
    _ = W6 m c Fs (Proc.devRef .tc main_arg1) := StableHlo.after_of_writes_sub hostOps3 _ hostOps3_writes (by decide)
    _ = W5 m c (Proc.devRef .tc main_arg1) := W6_of_ne m c Fs main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (U1 m) c).arrAt_in 1 rfl _).trans (dat0_A (U1 m) c 1))
    _ = W0 m c (Proc.devRef .tc main_arg1) := StableHlo.after_of_writes_sub hostOps0 _ hostOps0_writes (by decide)
    _ = m ((c : Thread nD τ).loc main_arg1) := rfl

/-- `main_arg2` reaches the end as launched: no reshape writes it, and a call reads it through an input window or not at all. -/
theorem W7_main_arg2 (c : Dev nD) (Fs : Arrs2 (F := F) c) (hFs : Ends2 m c Fs) :
    W7 m c Fs (Proc.devRef .tc main_arg2) = m ((c : Thread nD τ).loc main_arg2) :=
  calc W7 m c Fs (Proc.devRef .tc main_arg2)
    _ = W6 m c Fs (Proc.devRef .tc main_arg2) := StableHlo.after_of_writes_sub hostOps3 _ hostOps3_writes (by decide)
    _ = W5 m c (Proc.devRef .tc main_arg2) := W6_of_ne m c Fs main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no reshape writes it, and a call reads it through an input window or not at all. -/
theorem W7_main_arg3 (c : Dev nD) (Fs : Arrs2 (F := F) c) (hFs : Ends2 m c Fs) :
    W7 m c Fs (Proc.devRef .tc main_arg3) = m ((c : Thread nD τ).loc main_arg3) :=
  calc W7 m c Fs (Proc.devRef .tc main_arg3)
    _ = W6 m c Fs (Proc.devRef .tc main_arg3) := StableHlo.after_of_writes_sub hostOps3 _ hostOps3_writes (by decide)
    _ = W5 m c (Proc.devRef .tc main_arg3) := W6_of_ne m c Fs main_arg3 (by decide)
    _ = W4 m c (Proc.devRef .tc main_arg3) := StableHlo.after_of_writes_sub hostOps2 _ hostOps2_writes (by decide)
    _ = W3 m c (Proc.devRef .tc main_arg3) := (W4_arr m c 1).trans (((dat1 (U3 m) c).arrAt_in 1 rfl _).trans (dat1_A (U3 m) c 1))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no reshape writes it, and a call reads it through an input window or not at all. -/
theorem W7_main_arg4 (c : Dev nD) (Fs : Arrs2 (F := F) c) (hFs : Ends2 m c Fs) :
    W7 m c Fs (Proc.devRef .tc main_arg4) = m ((c : Thread nD τ).loc main_arg4) :=
  calc W7 m c Fs (Proc.devRef .tc main_arg4)
    _ = W6 m c Fs (Proc.devRef .tc main_arg4) := StableHlo.after_of_writes_sub hostOps3 _ hostOps3_writes (by decide)
    _ = W5 m c (Proc.devRef .tc main_arg4) := W6_of_ne m c Fs main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no reshape writes it, and a call reads it through an input window or not at all. -/
theorem W7_main_arg5 (c : Dev nD) (Fs : Arrs2 (F := F) c) (hFs : Ends2 m c Fs) :
    W7 m c Fs (Proc.devRef .tc main_arg5) = m ((c : Thread nD τ).loc main_arg5) :=
  calc W7 m c Fs (Proc.devRef .tc main_arg5)
    _ = W6 m c Fs (Proc.devRef .tc main_arg5) := StableHlo.after_of_writes_sub hostOps3 _ hostOps3_writes (by decide)
    _ = W5 m c (Proc.devRef .tc main_arg5) := (W6_arr m c Fs 1).trans hFs.in1
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no reshape writes it, and a call reads it through an input window or not at all. -/
theorem W7_main_arg6 (c : Dev nD) (Fs : Arrs2 (F := F) c) (hFs : Ends2 m c Fs) :
    W7 m c Fs (Proc.devRef .tc main_arg6) = m ((c : Thread nD τ).loc main_arg6) :=
  calc W7 m c Fs (Proc.devRef .tc main_arg6)
    _ = W6 m c Fs (Proc.devRef .tc main_arg6) := StableHlo.after_of_writes_sub hostOps3 _ hostOps3_writes (by decide)
    _ = W5 m c (Proc.devRef .tc main_arg6) := W6_of_ne m c Fs main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## What rides along, and the host stretches as segments -/

abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state, and its dues, none. -/
abbrev Rest (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first two calls as segments -/

set_option backward.isDefEq.respectTransparency.types false in
/-- Call 0 as a segment: entered with every unscoped buffer at `W1`, left with them at `W2`. Its windows' arrays are
    split out of the unscoped buffers at entry and put back at their final contents at exit (what the arrays may hold
    then is exactly what the call's data names); the generator register goes into the call's invariant and comes back;
    nothing is owed; the kernel has no semaphore of its own. -/
def reg0 : Pipeline.RDat.RegionSeg (pcfgs (F := F)) adm (rdats m) () defs₀ 𝒱n Lz lvz 0 where
  win := launch0.win.to₀
  block_pos := launch0.block_pos
  stage_whole := launch0.stage_whole
  K := PEmpty
  osem k := k.elim
  ho := Pipeline.OwnSemFacts.none _
  hbody c := (body0_obligation (U1 m) c).toR
  hwaits := Pipeline.RDat.hwaits_of_owed_zero _ _ _ _ Lz lvz 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (W2_final m c) (W2_rest m c)
    rw [Pipeline.unscopedBufs_held] at hjoin
    rw [show (rdats m 0 c).arraysAt (Pipeline.pin (pcfgs (F := F)) adm 0).N = (pdats m 0 c).arrays ((pdats m 0 c).arrAt · cfg0.N)
      from (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Call 1 as a segment: entered with every unscoped buffer at `W3`, left with them at `W4`. Its windows' arrays are
    split out of the unscoped buffers at entry and put back at their final contents at exit (what the arrays may hold
    then is exactly what the call's data names); the generator register goes into the call's invariant and comes back;
    nothing is owed; the kernel has no semaphore of its own. -/
def reg1 : Pipeline.RDat.RegionSeg (pcfgs (F := F)) adm (rdats m) () defs₀ 𝒱n Lz lvz 1 where
  win := launch1.win.to₀
  block_pos := launch1.block_pos
  stage_whole := launch1.stage_whole
  K := PEmpty
  osem k := k.elim
  ho := Pipeline.OwnSemFacts.none _
  hbody c := (body1_obligation (U3 m) c).toR
  hwaits := Pipeline.RDat.hwaits_of_owed_zero _ _ _ _ Lz lvz 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (W4_final m c) (W4_rest m c)
    rw [Pipeline.unscopedBufs_held] at hjoin
    rw [show (rdats m 1 c).arraysAt (Pipeline.pin (pcfgs (F := F)) adm 1).N = (pdats m 1 c).arrays ((pdats m 1 c).arrAt · cfg1.N)
      from (pdats m 1 c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The last call and the reshape after it, under contents not named -/

/-- The last call's arrays, each at some contents it may hold at the end, are the arrays at one family of such contents. -/
theorem arraysAt_choose (c : Dev nD) :
    (rdats m 2 c).arraysAt cfg2.N ⊢ iprop(∃ Fs : Arrs2 (F := F) c, ⌜Ends2 m c Fs⌝ ∗ (rdats m 2 c).arrays Fs) := by
  classical
  unfold RDat.arraysAt
  iintro Ha
  ihave Ha' := (BI.bigSep_exists_pi Finset.univ (fun (w : Fin cfg2.W) (G : Buf (Elt F) ((spec2 w).arr.view.loc (c.tc : Thread nD τ))) =>
      iprop(⌜(rdats m 2 c).ArrAt w cfg2.N G⌝
        ∗ (cfg2.win w).arr.view.loc (c.tc : Thread nD τ) ↦[(cfg2.win w).arr.view.set]{(rdats m 2 c).share w} G))) $$ Ha
  icases Ha' with ⟨%Fs, Ha⟩
  ihave Ha2 := (BI.bigSep_pure_sep Finset.univ (fun w => (rdats m 2 c).ArrAt w cfg2.N (Fs w))
      (fun w => (cfg2.win w).arr.view.loc (c.tc : Thread nD τ) ↦[(cfg2.win w).arr.view.set]{(rdats m 2 c).share w} Fs w)) $$ Ha
  icases Ha2 with ⟨%hFs, Ha⟩
  iexists Fs
  isplitr; · ipureintro; exact fun w => hFs w (Finset.mem_univ w)
  unfold RDat.arrays
  iexact Ha

/-- The thread state when the last call has returned: the call's arrays at something they may hold then, every other
    unscoped buffer as the call was entered; -/
def T6 (c : Dev nD) : sProp 𝕄 :=
  iprop(∃ Fs : Arrs2 (F := F) c, ⌜Ends2 m c Fs⌝ ∗ StableHlo.held (c : Thread nD τ) (Pipeline.ucRefs τ sig) (W6 m c Fs) ∗ Rest c)
/-- and after the last reshape. -/
def T7 (c : Dev nD) : sProp 𝕄 :=
  iprop(∃ Fs : Arrs2 (F := F) c, ⌜Ends2 m c Fs⌝ ∗ StableHlo.held (c : Thread nD τ) (Pipeline.ucRefs τ sig) (W7 m c Fs) ∗ Rest c)

set_option backward.isDefEq.respectTransparency.types false in
/-- The last call as a segment: entered with every unscoped buffer at `W5`, left in the state `T6`. Its body obligation is
    the one with the result window forgotten; at exit the arrays come back at some contents they may hold, and those are
    put back among the unscoped buffers under the existential. -/
def reg2 : Pipeline.RDat.RegionSeg (pcfgs (F := F)) adm (rdats m) () defs₀ 𝒱n Lz lvz 2 where
  win := launch2.win.to₀
  block_pos := launch2.block_pos
  stage_whole := launch2.stage_whole
  K := PEmpty
  osem k := k.elim
  ho := Pipeline.OwnSemFacts.none _
  hbody c := (body_obligation2_fgt (U5 m) c).toRForget
  hwaits := Pipeline.RDat.hwaits_of_owed_zero _ _ _ _ Lz lvz 2 fun _ _ => rfl
  pre c := iprop(StableHlo.held (c : Thread nD τ) (Pipeline.ucRefs τ sig) (W5 m c) ∗ Rest c)
  post c := T6 m c
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_choose m c) $$ Ha
    icases Ha' with ⟨%Fs, %hFs, Ha⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c Fs) Fs (fun w => (W6_arr m c Fs w).symm) (W6_rest m c Fs)
    rw [Pipeline.unscopedBufs_held] at hjoin
    imodintro
    unfold T6
    iexists Fs
    isplitr; · ipureintro; exact hFs
    isplitl [Ha Hrest]
    · iapply hjoin
      isplitl [Ha]
      · iapply (show (rdats m 2 c).arrays Fs ⊢ (pdats m 2 c).arrays Fs from .rfl); iexact Ha
      iexact Hrest
    isplitl [HY]; · iexact HY
    unfold Pipeline.RDat.owesAt Pipeline.owesWithin
    icases HO with ⟨%W, -, HO⟩; iexists W; iexact HO

set_option backward.isDefEq.respectTransparency.types false in
/-- The last reshape as a segment under the unknown: whatever the last call's arrays hold, the reshape runs from the
    buffers at those contents to the buffers at its result over them. -/
def host3 : Pipeline.HostSeg (Name := ℕ) (U := UR sig nD τ) (pcfgs (F := F)) defs₀ 𝒱n Lz lvz where
  prog := StableHlo.seq hostOps3
  pre := T6 m
  post := T7 m
  run c {β} k K := by
    unfold T6 T7
    iintro ⟨Hk, Hbd, ⟨%Fs, %hFs, Hh, HR⟩, Hla⟩
    have hrun := (hostSeg hostOps3 hostOps3_sub hostOps3_fresh (fun _ => W6 m c Fs)).run c k K
    dsimp only [hostSeg, Pipeline.HostSeg.ofOps] at hrun
    iapply hrun
    isplitl [Hk]
    · iintro ⟨Hbd, Hh, HR⟩
      iapply Hk
      isplitl [Hbd]; · iexact Hbd
      iexists Fs; isplitr; · ipureintro; exact hFs
      isplitl [Hh]; · iexact Hh
      iexact HR
    isplitl [Hbd]; · iexact Hbd
    isplitl [Hh HR]
    · isplitl [Hh]; · iexact Hh
      iexact HR
    iexact Hla

/-! ## @main as segments, and the launch -/

/-- @main's seven segments in order. -/
abbrev allSegs : List (Pipeline.RDat.Seg (pcfgs (F := F)) adm (rdats m) () defs₀ 𝒱n Lz lvz) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .host (host3 m) ]
/-- @main is the run of the segments. -/
theorem main_is_segs (c : Dev nD) : main (F := F) c = Pipeline.RDat.Seg.run (allSegs m) := (main_chain c).trans (by chain_rfl)

set_option backward.isDefEq.respectTransparency.types false in
/-- THE FRAME, at any `F`: from any memory with zero counters every weakly fair execution of @main on the TensorCores
    terminates, nothing faulting, and every final state holds each argument array at what it held at launch. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m) () cellOf_inj emb₁ defs₀ 𝒱n Lz lvz m ρ main (allSegs m)
    (fun c Q => by rw [main_is_segs m c])
    (by simp only [allSegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => iprop(∃ Fs : Arrs2 (F := F) c, ⌜Ends2 m c Fs⌝
        ∗ StableHlo.held (c : Thread nD τ) (Pipeline.ucRefs τ sig) (W7 m c Fs) ∗ ∃ r, prngReg c r))
    (hch := ⟨fun _ => .rfl, fun _ => .rfl, fun _ => .rfl, fun _ => .rfl, fun _ => .rfl, fun _ => .rfl, fun _ => .rfl, fun c => by
      show T7 m c ⊢ _
      unfold T7
      iintro ⟨%Fs, %hFs, Hh, Hp, HO⟩
      isplitl [Hh Hp]
      · iexists Fs; isplitr; · ipureintro; exact hFs
        isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => by
      iintro ⟨⟨%Fs, %hFs, Hh, -⟩, HSI⟩
      unfold StableHlo.held
      ihave H := (pointsTo_read_all (Pipeline.ucRefs τ sig) (fun b => (((c : Thread nD τ)).1, b)) (W7 m c Fs) s') $$ [Hh HSI]
      · isplitl [Hh] <;> iassumption
      icases H with ⟨%h, HSI⟩
      imodintro
      isplitr
      · ipureintro
        exact ⟨(h _ (mem_unscoped main_arg0 (by decide))).trans (W7_main_arg0 m c Fs hFs),
          (h _ (mem_unscoped main_arg1 (by decide))).trans (W7_main_arg1 m c Fs hFs),
          (h _ (mem_unscoped main_arg2 (by decide))).trans (W7_main_arg2 m c Fs hFs),
          (h _ (mem_unscoped main_arg3 (by decide))).trans (W7_main_arg3 m c Fs hFs),
          (h _ (mem_unscoped main_arg4 (by decide))).trans (W7_main_arg4 m c Fs hFs),
          (h _ (mem_unscoped main_arg5 (by decide))).trans (W7_main_arg5 m c Fs hFs),
          (h _ (mem_unscoped main_arg6 (by decide))).trans (W7_main_arg6 m c Fs hFs)⟩
      iexact HSI)
    (hQ := fun s h c => h c)

end Cert.Kernel.Hand

end
-- ==== Proof.KI.Region0.lean ====
/-
  The pooling call (the first pallas_call): a 1 x 1 convolution from 512 channels to 8, over batch tiles of 8 rows.
  At each of the 16 grid points the body reads the weight (8 x 512) and the bias (8 x 1) once and, for each of the
  8 batch rows of the tile, the row's feature slab (512 x 225); it stores W · slab + bias into the row's slab
  (8 x 225) of the result's buffer: eight stores that tile the buffer along its leading axis.
  This module states what the body leaves in the result's staging buffer as a function of the three blocks it
  read, proves the body's triple, and packages the call's proof data at an arbitrary entry valuation `V`.
-/
import proofs.«105144_g2000002570731441_pallasbulk_209_2_alg».proof.Proof.Gen.KernelIdeal.Launch
import proofs.«105144_g2000002570731441_pallasbulk_209_2_alg».proof.Proof.Gen.KernelIdeal.Skeleton
import proofs.«105144_g2000002570731441_pallasbulk_209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pooling call: blocks, the body's result, the body's triple -/

/-- Window `w`'s block at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangles of the weight's and the bias's buffers. -/
abbrev whole0_w : Rect S8x512 := Rect.unit (s := S8x512) ![0, 0] S8x512.size inb_S8x512_S8x512_0_0
abbrev whole0_b : Rect S8x1 := Rect.unit (s := S8x1) ![0, 0] S8x1.size inb_S8x1_S8x1_0_0
/-- Batch row `k` of the feature tile: a 1 x 512 x 225 slab; -/
abbrev xslab0 : Rect S8x512x225 := Rect.unit (s := S8x512x225) ![0, 0, 0] S1x512x225.size inb_S8x512x225_S1x512x225_0_0_0
abbrev xslab1 : Rect S8x512x225 := Rect.unit (s := S8x512x225) ![1, 0, 0] S1x512x225.size inb_S8x512x225_S1x512x225_1_0_0
abbrev xslab2 : Rect S8x512x225 := Rect.unit (s := S8x512x225) ![2, 0, 0] S1x512x225.size inb_S8x512x225_S1x512x225_2_0_0
abbrev xslab3 : Rect S8x512x225 := Rect.unit (s := S8x512x225) ![3, 0, 0] S1x512x225.size inb_S8x512x225_S1x512x225_3_0_0
abbrev xslab4 : Rect S8x512x225 := Rect.unit (s := S8x512x225) ![4, 0, 0] S1x512x225.size inb_S8x512x225_S1x512x225_4_0_0
abbrev xslab5 : Rect S8x512x225 := Rect.unit (s := S8x512x225) ![5, 0, 0] S1x512x225.size inb_S8x512x225_S1x512x225_5_0_0
abbrev xslab6 : Rect S8x512x225 := Rect.unit (s := S8x512x225) ![6, 0, 0] S1x512x225.size inb_S8x512x225_S1x512x225_6_0_0
abbrev xslab7 : Rect S8x512x225 := Rect.unit (s := S8x512x225) ![7, 0, 0] S1x512x225.size inb_S8x512x225_S1x512x225_7_0_0
/-- and of the result tile: a 1 x 8 x 225 slab. -/
abbrev oslab0 : Rect S8x8x225 := Rect.unit (s := S8x8x225) ![0, 0, 0] S1x8x225.size inb_S8x8x225_S1x8x225_0_0_0
abbrev oslab1 : Rect S8x8x225 := Rect.unit (s := S8x8x225) ![1, 0, 0] S1x8x225.size inb_S8x8x225_S1x8x225_1_0_0
abbrev oslab2 : Rect S8x8x225 := Rect.unit (s := S8x8x225) ![2, 0, 0] S1x8x225.size inb_S8x8x225_S1x8x225_2_0_0
abbrev oslab3 : Rect S8x8x225 := Rect.unit (s := S8x8x225) ![3, 0, 0] S1x8x225.size inb_S8x8x225_S1x8x225_3_0_0
abbrev oslab4 : Rect S8x8x225 := Rect.unit (s := S8x8x225) ![4, 0, 0] S1x8x225.size inb_S8x8x225_S1x8x225_4_0_0
abbrev oslab5 : Rect S8x8x225 := Rect.unit (s := S8x8x225) ![5, 0, 0] S1x8x225.size inb_S8x8x225_S1x8x225_5_0_0
abbrev oslab6 : Rect S8x8x225 := Rect.unit (s := S8x8x225) ![6, 0, 0] S1x8x225.size inb_S8x8x225_S1x8x225_6_0_0
abbrev oslab7 : Rect S8x8x225 := Rect.unit (s := S8x8x225) ![7, 0, 0] S1x8x225.size inb_S8x8x225_S1x8x225_7_0_0

/-- The result tile the body stores, from the feature tile `x`, the weight `w` and the bias `b`: row `k`'s slab is
    W · x[k] + bias, the eight stores listed last first (the weight and bias pass through the body's two format
    changes, which the later rows share). -/
def pool0 (x : Vec F S8x512x225 .f32) (w : Vec F S8x512 .f32) (b : Vec F S8x1 .f32) : Vec F S8x8x225 .bf16 :=
  View.canon [
    ⟨oslab7, k0_pay2 (k0_pay3 (View.ld w whole0_w)) (k0_pay4 (View.ld b whole0_b)) (View.ld x (xslab7))⟩,
    ⟨oslab6, k0_pay1 (k0_pay3 (View.ld w whole0_w)) (k0_pay4 (View.ld b whole0_b)) (View.ld x (xslab6))⟩,
    ⟨oslab5, k0_pay11 (k0_pay3 (View.ld w whole0_w)) (k0_pay4 (View.ld b whole0_b)) (View.ld x (xslab5))⟩,
    ⟨oslab4, k0_pay10 (k0_pay3 (View.ld w whole0_w)) (k0_pay4 (View.ld b whole0_b)) (View.ld x (xslab4))⟩,
    ⟨oslab3, k0_pay9 (k0_pay3 (View.ld w whole0_w)) (k0_pay4 (View.ld b whole0_b)) (View.ld x (xslab3))⟩,
    ⟨oslab2, k0_pay8 (k0_pay7 (View.ld w whole0_w) (View.ld b whole0_b) (View.ld x (xslab2)))⟩,
    ⟨oslab1, k0_pay6 (View.ld w whole0_w) (View.ld b whole0_b) (View.ld x (xslab1))⟩,
    ⟨oslab0, k0_pay5 (View.ld w whole0_w) (View.ld b whole0_b) (View.ld x (xslab0))⟩]

/-- The eight slabs tile the buffer along its leading axis. -/
theorem pool0_cover (p7 p6 p5 p4 p3 p2 p1 p0 : Vec F S1x8x225 .bf16) (y : S8x8x225.Idx) :
    ∃ pc ∈ ([⟨oslab7, p7⟩, ⟨oslab6, p6⟩, ⟨oslab5, p5⟩, ⟨oslab4, p4⟩, ⟨oslab3, p3⟩, ⟨oslab2, p2⟩, ⟨oslab1, p1⟩, ⟨oslab0, p0⟩] :
        List (View.Piece (Elt F) S8x8x225 .bf16)), y ∈ pc.1.set :=
  View.cover_of_tiled [⟨oslab7, p7⟩, ⟨oslab6, p6⟩, ⟨oslab5, p5⟩, ⟨oslab4, p4⟩, ⟨oslab3, p3⟩, ⟨oslab2, p2⟩, ⟨oslab1, p1⟩, ⟨oslab0, p0⟩]
    S1x8x225.size (by rfl) y

set_option maxHeartbeats 4000000 in
/-- The body on whole staging buffers: the three inputs are read and left as they were, the result's buffer ends at `pool0`. -/
theorem body0_triple (c : Dev nD) (E : Set ℕ) (i : grid0.Coords)
    (a1 : Memref sig .tc .vmem S8x512x225 .f32) (h1 : a1.IsWhole) (a2 : Memref sig .tc .vmem S8x512 .f32) (h2 : a2.IsWhole)
    (a3 : Memref sig .tc .vmem S8x1 .f32) (h3 : a3.IsWhole) (a4 : Memref sig .tc .vmem S8x8x225 .bf16) (h4 : a4.IsWhole)
    (x : Vec F S8x512x225 .f32) (w : Vec F S8x512 .f32) (b : Vec F S8x1 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (pool0 x w b)) -∗ K ⟨⟩))
      ⊢ wp frame (wpE (defs₀ (F := F)) Variants.none c none) E (cc0__conv_kernel i a1 h1 a2 h2 a3 h3 a4 h4) K := by
  simp only [cc0__conv_kernel_eq_skeleton]; unfold cc0__conv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (pool0_cover _ _ _ _ _ _ _ _)

/-! ## The call's proof data -/

/-- The proof data of the pooling call on core `c`: the arrays as the call finds them; after the body at point `t` each
    input's buffer still at its block and the result's buffer at `pool0` of the three blocks; the invariant is the scoped
    rest and the generator register, untouched; nothing is owed; every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => pool0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = pool0 (blk0 V c 0 t) (blk0 V c 1 t) (blk0 V c 2 t) := by dsimp only [dat0]

/-- Each input's current staging buffer holds its block at every point, whether the point fetched it or an earlier one did
    (the block index has not moved since). -/
theorem found0_0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [dat0_after2]; unfold Dat.blockOf blk0; rw [dat0_A]; try rfl) t d).trans
    (by unfold Dat.fetched Dat.blockOf blk0; rw [dat0_A]; try rfl)

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body0_obligation (c : Dev nD) : BodyObligation (dat0 (F := F) V c) (defs₀ (F := F)) Variants.none () Set.univ := fun t => by
  rw [bigSep_W0, bigSep_W0]
  exact body0_at V c t

end Cert.KernelIdeal.Hand

end
-- ==== Proof.KI.Region1.lean ====
/-
  The hidden layer's call (the second pallas_call): h = relu(xf · W1 + b1), computed in four column tiles of 512.
  At each grid point the body reads the whole activation matrix (128 x 1800, resident), one column tile of the
  weight (1800 x 512) and of the bias (1 x 512), and stores the tile of the result (128 x 512) whole.
  This module states what the body leaves in the result's staging buffer as a function of the three blocks it
  read, proves the body's triple, and packages the call's proof data at an arbitrary entry valuation `V`.
-/
import proofs.«105144_g2000002570731441_pallasbulk_209_2_alg».proof.Proof.Gen.KernelIdeal.Launch
import proofs.«105144_g2000002570731441_pallasbulk_209_2_alg».proof.Proof.Gen.KernelIdeal.Skeleton
import proofs.«105144_g2000002570731441_pallasbulk_209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The hidden layer's call: blocks, the body's result, the body's triple -/

/-- Window `w`'s block at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole rectangle of each staging buffer. -/
abbrev whole1_x : Rect S128x1800 := Rect.unit (s := S128x1800) ![0, 0] S128x1800.size inb_S128x1800_S128x1800_0_0
abbrev whole1_w : Rect S1800x512 := Rect.unit (s := S1800x512) ![0, 0] S1800x512.size inb_S1800x512_S1800x512_0_0
abbrev whole1_b : Rect S1x512 := Rect.unit (s := S1x512) ![0, 0] S1x512.size inb_S1x512_S1x512_0_0
abbrev whole1_o : Rect S128x512 := Rect.unit (s := S128x512) ![0, 0] S128x512.size inb_S128x512_S128x512_0_0

/-- The result tile the body stores, from the activation block `x`, the weight tile `w` and the bias tile `b`:
    one whole store of relu(x · w + b). -/
def hid1 (x : Vec F S128x1800 .bf16) (w : Vec F S1800x512 .f32) (b : Vec F S1x512 .f32) : Vec F S128x512 .bf16 :=
  View.canon [⟨whole1_o, k1_pay1 (View.ld w whole1_w) (View.ld x whole1_x) (View.ld b whole1_b)⟩]

/-- The one store fills the buffer. -/
theorem hid1_cover (p : Vec F S128x512 .bf16) (y : S128x512.Idx) :
    ∃ pc ∈ ([⟨whole1_o, p⟩] : List (View.Piece (Elt F) S128x512 .bf16)), y ∈ pc.1.set :=
  View.cover_of_tiled [⟨whole1_o, p⟩] S128x512.size (by rfl) y

set_option maxHeartbeats 1000000 in
/-- The body on whole staging buffers: the three inputs are read and left as they were, the result's buffer ends at `hid1`. -/
theorem body1_triple (c : Dev nD) (E : Set ℕ) (i : grid1.Coords)
    (a1 : Memref sig .tc .vmem S128x1800 .bf16) (h1 : a1.IsWhole) (a2 : Memref sig .tc .vmem S1800x512 .f32) (h2 : a2.IsWhole)
    (a3 : Memref sig .tc .vmem S1x512 .f32) (h3 : a3.IsWhole) (a4 : Memref sig .tc .vmem S128x512 .bf16) (h4 : a4.IsWhole)
    (x : Vec F S128x1800 .bf16) (w : Vec F S1800x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (hid1 x w b)) -∗ K ⟨⟩))
      ⊢ wp frame (wpE (defs₀ (F := F)) Variants.none c none) E (cc1__linear_kernel i a1 h1 a2 h2 a3 h3 a4 h4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hid1_cover _)

/-! ## The call's proof data -/

/-- The proof data of the hidden layer's call on core `c`: the arrays as the call finds them; after the body at point `t`
    each input's buffer still at its block and the result's buffer at `hid1` of the three blocks; the invariant is the
    scoped rest and the generator register, untouched; nothing is owed; every array is held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hid1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = hid1 (blk1 V c 0 t) (blk1 V c 1 t) (blk1 V c 2 t) := by dsimp only [dat1]

/-- Each input's current staging buffer holds its block at every point, whether the point fetched it or an earlier one did
    (the block index has not moved since). -/
theorem found1_0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body1_obligation (c : Dev nD) : BodyObligation (dat1 (F := F) V c) (defs₀ (F := F)) Variants.none () Set.univ := fun t => by
  rw [bigSep_W1, bigSep_W1]
  exact body1_at V c t

end Cert.KernelIdeal.Hand

end
-- ==== Proof.KI.Region2.lean ====
/-
  REGION 2 of @main: the third pallas_call, `cc2__linear_kernel` — `y = h · w + b` over a grid of six points, the
  resident operand `h` (128 × 2048, one block, fetched once), the weights `w` (2048 × 1480 in blocks of 256 columns),
  the bias `b` (1 × 1480 likewise) and the result (128 × 1480 likewise). Six blocks of 256 columns are 1536 > 1480:
  the last point's blocks of the weights, the bias and the result overhang their arrays by 56 columns, their transfers
  are cut at the array's end, and what the weights' and the bias's buffers hold past it after the cut fetch is
  whatever the overwrite before the fetch left. The three windows are loose: the body obligation states their buffers
  on the part inside the array only.

  Stated at the TensorCore's buffer contents `V` when the region is entered, for any float instance:
  the proof data `dat2` (after the body the resident operand's buffer holds the operand, the weights' and the bias's
  their blocks filled out past the array's end with the zero word, the result's the payload of those three);
  `body_obligation2_fgt`, the body obligation with the result's window forgotten, at any instance;
  `body_obligation2`, the body obligation with nothing forgotten, under `PayLocal2`: element `(i, j)` of the payload
  reads of the weights and the bias their column `j` only. That is what makes the result's columns inside the array
  independent of the words past the end of the other two buffers; it is a property of the instance's matrix product
  (an instance may define the product of the whole operands), so it is a hypothesis here.
  Then what each point writes back of the result (`flushed2_3`), and that the three inputs' arrays are never written
  (`arrAt2_in`).
-/
import proofs.«105144_g2000002570731441_pallasbulk_209_2_alg».proof.Proof.Gen.KernelIdeal.Launch
import proofs.«105144_g2000002570731441_pallasbulk_209_2_alg».proof.Proof.Gen.KernelIdeal.Skeleton
import proofs.«105144_g2000002570731441_pallasbulk_209_2_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: the block's part inside the
    array (for the last point of windows 1, 2, 3 the first 200 of its 256 columns). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The word a block cut at the array's end is filled out with past that end: the zero word. Nothing reads it. -/
def pad2 : Elt F .f32 := Scalar.ofBits .f32 0#32

/-- The weights' block at point `t` as a whole staging block: its part inside the array, filled out. -/
def wblk2 (c : Dev nD) (t : Fin cfg2.N) : Vec F S2048x256 .f32 :=
  win2_1.fill (grid2.coords t) (fun _ => pad2) (blk2 V c 1 t)

/-- The bias's block likewise. -/
def bblk2 (c : Dev nD) (t : Fin cfg2.N) : Vec F S1x256 .f32 :=
  win2_2.fill (grid2.coords t) (fun _ => pad2) (blk2 V c 2 t)

/-- The proof data of pipeline 2 on core `c`: the arrays as the region finds them (`V`); after the body at point `t` the
    resident operand's buffer at the operand, the weights' and the bias's at their blocks filled out, the result's at
    the payload of the three; the invariant the scoped rest and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => wblk2 V c t
    | ⟨2, _⟩ => bblk2 V c t
    | ⟨3, _⟩ => k2_pay1 (wblk2 V c t) (blk2 V c 0 t) (bblk2 V c t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = blk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = k2_pay1 (wblk2 V c t) (blk2 V c 0 t) (bblk2 V c t) := by dsimp only [dat2]

abbrev r2_0 : Rect S128x2048 := Rect.unit (s := S128x2048) ![0, 0] S128x2048.size inb_S128x2048_S128x2048_0_0
abbrev r2_1 : Rect S2048x256 := Rect.unit (s := S2048x256) ![0, 0] S2048x256.size inb_S2048x256_S2048x256_0_0
abbrev r2_2 : Rect S1x256 := Rect.unit (s := S1x256) ![0, 0] S1x256.size inb_S1x256_S1x256_0_0
abbrev r2_3 : Rect S128x256 := Rect.unit (s := S128x256) ![0, 0] S128x256.size inb_S128x256_S128x256_0_0

theorem hz2 : (![0, 0] : Fin 2 → Nat) = fun _ => 0 := funext fun a => by fin_cases a <;> rfl

theorem cover2_3 (p : Vec F S128x256 .f32) (y : S128x256.Idx) :
    ∃ pc ∈ ([⟨r2_3, p⟩] : List (View.Piece (Elt F) S128x256 .f32)), y ∈ pc.1.set :=
  ⟨⟨r2_3, p⟩, List.mem_singleton_self _, View.mem_set_unit_zero hz2 inb_S128x256_S128x256_0_0 y⟩

theorem canon2_3 (p : Vec F S128x256 .f32) :
    View.canon ([⟨r2_3, p⟩] : List (View.Piece (Elt F) S128x256 .f32)) = p :=
  View.canon_unit_zero hz2 inb_S128x256_S128x256_0_0 p

theorem read_store2 {κ : Kind} {sp : Space} (v : View sig κ sp S128x256 .f32) (f : v.ty.Contents (Elt F)) (p : Vec F S128x256 .f32) :
    v.read (Elt F) (v.writes (Elt F) f [⟨r2_3, p⟩]) = p :=
  (View.read_writes_eq_canon v f _ (cover2_3 p)).trans (canon2_3 p)

theorem readAt2_0 {κ : Kind} {sp : Space} (v : View sig κ sp S128x2048 .bf16) (f : v.ty.Contents (Elt F)) :
    v.readAt (Elt F) r2_0.toLoadRect f = v.read (Elt F) f := View.ld_unit_zero hz2 inb_S128x2048_S128x2048_0_0 _
theorem readAt2_1 {κ : Kind} {sp : Space} (v : View sig κ sp S2048x256 .f32) (f : v.ty.Contents (Elt F)) :
    v.readAt (Elt F) r2_1.toLoadRect f = v.read (Elt F) f := View.ld_unit_zero hz2 inb_S2048x256_S2048x256_0_0 _
theorem readAt2_2 {κ : Kind} {sp : Space} (v : View sig κ sp S1x256 .f32) (f : v.ty.Contents (Elt F)) :
    v.readAt (Elt F) r2_2.toLoadRect f = v.read (Elt F) f := View.ld_unit_zero hz2 inb_S1x256_S1x256_0_0 _

/-! ## The body's triple -/

set_option maxHeartbeats 1000000 in
/-- The kernel body on whole staging memrefs: the three inputs' at contents `x0`, `x1`, `x2`, the result's at anything.
    It loads the three whole, loads the result's buffer (a value nothing reads) and stores the payload over all of it:
    the inputs' buffers are left as found and the result's holds the payload of what the inputs' held. -/
theorem sound_kernel2 (c : Dev nD) (E : Set ℕ) (i : grid2.Coords)
    (arg1 : Memref sig .tc .vmem S128x2048 .bf16) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S128x256 .f32) (harg4 : arg4.IsWhole)
    (x0 : Vec F S128x2048 .bf16) (x1 : Vec F S2048x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x1 x0 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store2 _ _ _).trans ?_
  rw [readAt2_0, readAt2_1, readAt2_2]

/-! ## What the body finds in the inputs' buffers -/

/-- The resident operand's buffer holds the whole operand at every point: fetched at the first, kept since (its block
    index never moves, and the body leaves the buffer as found). -/
theorem before2_0 (c : Dev nD) (t : Fin cfg2.N) (d) : (dat2 V c).before 0 t d = blk2 V c 0 t :=
  ((dat2 V c).before_in_eq_fetched 0 rfl (fun _ => rfl) (fun _ _ _ => rfl)
    (fun u => by rw [after2_0]; unfold Dat.blockOf blk2; rw [A_eq2]; try rfl) t d).trans
    (by unfold Dat.fetched Dat.blockOf blk2; rw [A_eq2]; try rfl)

/-- The weights' buffer, fetched at every point, holds the block's part inside the array and `d` past it. -/
theorem before2_1 (c : Dev nD) (t : Fin cfg2.N) (d) :
    (dat2 V c).before 1 t d = win2_1.fill (grid2.coords t) d (blk2 V c 1 t) := by
  rw [(dat2 V c).before_fetched 1 t (fetch2_1 t) d]; unfold Dat.fetched Dat.blockOf blk2; rw [A_eq2]; try rfl

/-- The bias's likewise. -/
theorem before2_2 (c : Dev nD) (t : Fin cfg2.N) (d) :
    (dat2 V c).before 2 t d = win2_2.fill (grid2.coords t) d (blk2 V c 2 t) := by
  rw [(dat2 V c).before_fetched 2 t (fetch2_2 t) d]; unfold Dat.fetched Dat.blockOf blk2; rw [A_eq2]; try rfl

/-! ## The body at a point -/

/-- The body at any point, the result's buffer handed over at anything: the inputs' buffers hold their blocks (`before2_W`: windows 1 and 2 filled out past the
    array's end with whatever the cut fetches left, `d1`, `d2`), so the body's triple applies; the invariant and the
    core's `owes` pass through unread. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ X, owns (c : Thread nD τ) (st2_3 t) fullShare X))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare (blk2 V c 0 t)
            ∗ ∃ d1 d2, iprop(owns (c : Thread nD τ) (st2_1 t) fullShare (win2_1.fill (grid2.coords t) d1 (blk2 V c 1 t))
                ∗ owns (c : Thread nD τ) (st2_2 t) fullShare (win2_2.fill (grid2.coords t) d2 (blk2 V c 2 t))
                ∗ owns (c : Thread nD τ) (st2_3 t) fullShare
                    (k2_pay1 (win2_1.fill (grid2.coords t) d1 (blk2 V c 1 t)) (blk2 V c 0 t)
                      (win2_2.fill (grid2.coords t) d2 (blk2 V c 2 t)))))) := by
  simp only [before2_0, before2_1, before2_2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  iapply (sound_kernel2 c Set.univ _ _ _ _ _ _ _ _ _ (blk2 V c 0 t) (win2_1.fill (grid2.coords t) d1 (blk2 V c 1 t))
    (win2_2.fill (grid2.coords t) d2 (blk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  iexists d1; iexists d2
  isplitl [H1]; · iexact H1
  isplitl [H2]; · iexact H2
  iexact H3

/-! ## The body obligation -/

/-- The result's window: the one a certificate that does not read the result forgets. -/
abbrev fgt2 : Fin cfg2.W → Bool :=
  fun | 0 => false | 1 => false | 2 => false | 3 => true | ⟨_ + 4, h⟩ => absurd h (Nat.not_lt.2 (Nat.le_add_left _ _))

/-- What the weights' and the bias's buffers are left holding is, on the part inside the array, the block: all a
    loose window's obligation states of them. -/
theorem leaves2_1 (c : Dev nD) (t : Fin cfg2.N) (d1 : Vec F S2048x256 .f32) :
    win2_1.fill (grid2.coords t) d1 (win2_1.cut (grid2.coords t) ((dat2 V c).after 1 t))
      = win2_1.fill (grid2.coords t) d1 (blk2 V c 1 t) := by
  rw [after2_1]; unfold wblk2; rw [win2_1.cut_fill]
theorem leaves2_2 (c : Dev nD) (t : Fin cfg2.N) (d2 : Vec F S1x256 .f32) :
    win2_2.fill (grid2.coords t) d2 (win2_2.cut (grid2.coords t) ((dat2 V c).after 2 t))
      = win2_2.fill (grid2.coords t) d2 (blk2 V c 2 t) := by
  rw [after2_2]; unfold bblk2; rw [win2_2.cut_fill]

/-- The body obligation with the result's window forgotten, at any float instance: the resident operand's buffer is
    left holding the operand, the weights' and the bias's their blocks on the part inside the array, the result's
    anything. -/
theorem body_obligation2_fgt (c : Dev nD) :
    BodyObligationLoose (dat2 (F := F) V c) (defs₀ (F := F)) Variants.none () Set.univ fgt2 := fun t => by
  rw [bigSep_W2, bigSep_W2]
  simp only
  refine (sound_body2 V c t).trans (wp_mono _ _ _ fun _ => ?_)
  iintro ⟨HΦ, Ho, H0, ⟨%d1, %d2, H1, H2, H3⟩⟩
  isplitl [HΦ]; · iexact HΦ
  isplitl [Ho]; · iexact Ho
  isplitl [H0]; · rw [after2_0]; iexact H0
  isplitl [H1]
  · iexists d1
    change _ ⊢ owns (c : Thread nD τ) (st2_1 t) fullShare (win2_1.fill (grid2.coords t) d1 (win2_1.cut (grid2.coords t) ((dat2 V c).after 1 t)))
    rw [leaves2_1]
  isplitl [H2]
  · iexists d2
    change _ ⊢ owns (c : Thread nD τ) (st2_2 t) fullShare (win2_2.fill (grid2.coords t) d2 (win2_2.cut (grid2.coords t) ((dat2 V c).after 2 t)))
    rw [leaves2_2]
  · iexists _; iexact H3

/-! ## The result's block, where the payload is local to its column -/

/-- COLUMN LOCALITY of the payload: its element `(i, j)` reads of the weights and of the bias their column `j` and
    nothing else. It holds where an element of the matrix product is a function of its own row and column of the
    operands (the exact product is); a float instance whose product reads the whole right operand need not have it. -/
def PayLocal2 : Prop :=
  ∀ (v0 v0' : Vec F S2048x256 .f32) (v2 : Vec F S128x2048 .bf16) (v5 v5' : Vec F S1x256 .f32) (i : Fin 128) (j : Fin 256),
    (∀ k : Fin 2048, v0 (ix2 k j) = v0' (ix2 k j)) → v5 (ix2 (0 : Fin 1) j) = v5' (ix2 (0 : Fin 1) j) →
      k2_pay1 v0 v2 v5 (ix2 i j) = k2_pay1 v0' v2 v5' (ix2 i j)

/-- Under it, the part of the result's block inside the array does not depend on what the weights' and the bias's
    buffers hold past the array's end: a column of the result inside the array reads the same column of the weights
    and of the bias, which is inside their arrays (the three windows are cut at the same column). -/
theorem cut_pay2 (hloc : PayLocal2 (F := F)) (i : grid2.Coords) (x0 : Vec F S128x2048 .bf16)
    (d1 d1' : Vec F S2048x256 .f32) (g1 : (win2_1.xblock i).Idx → Elt F .f32)
    (d2 d2' : Vec F S1x256 .f32) (g2 : (win2_2.xblock i).Idx → Elt F .f32) :
    win2_3.cut i (k2_pay1 (win2_1.fill i d1 g1) x0 (win2_2.fill i d2 g2))
      = win2_3.cut i (k2_pay1 (win2_1.fill i d1' g1) x0 (win2_2.fill i d2' g2)) := by
  funext j
  have hj : (j 1).val < win2_3.xsize i 1 := (j 1).isLt
  show k2_pay1 _ _ _ (win2_3.xinj i j) = k2_pay1 _ _ _ (win2_3.xinj i j)
  rw [eq_ix2 (n0 := 128) (n1 := 256) (win2_3.xinj i j)]
  refine hloc _ _ _ _ _ _ _ (fun k => ?_) ?_
  · have hm : win2_1.moved i (ix2 k ((win2_3.xinj i j) 1)) = true :=
      (win2_1.moved_iff i _).mpr fun a => by
        match a with
        | ⟨0, _⟩ => exact k.isLt
        | ⟨1, _⟩ => exact hj
    unfold Window.fill; rw [dif_pos hm, dif_pos hm]
  · have hm : win2_2.moved i (ix2 (0 : Fin 1) ((win2_3.xinj i j) 1)) = true :=
      (win2_2.moved_iff i _).mpr fun a => by
        match a with
        | ⟨0, _⟩ => exact Nat.zero_lt_one
        | ⟨1, _⟩ => exact hj
    unfold Window.fill; rw [dif_pos hm, dif_pos hm]

/-- So what the body leaves in the result's buffer is, on the part inside the array, the payload of the blocks
    filled out with the zero word. -/
theorem leaves2_3 (hloc : PayLocal2 (F := F)) (c : Dev nD) (t : Fin cfg2.N) (d1 : Vec F S2048x256 .f32) (d2 : Vec F S1x256 .f32) :
    win2_3.fill (grid2.coords t)
        (k2_pay1 (win2_1.fill (grid2.coords t) d1 (blk2 V c 1 t)) (blk2 V c 0 t) (win2_2.fill (grid2.coords t) d2 (blk2 V c 2 t)))
        (win2_3.cut (grid2.coords t) ((dat2 V c).after 3 t))
      = k2_pay1 (win2_1.fill (grid2.coords t) d1 (blk2 V c 1 t)) (blk2 V c 0 t) (win2_2.fill (grid2.coords t) d2 (blk2 V c 2 t)) := by
  rw [after2_3]; unfold wblk2 bblk2
  exact win2_3.fill_congr_cut _ (cut_pay2 hloc _ _ _ _ _ _ _ _)

/-- The result's buffer as its loose obligation states it. -/
theorem post2_3 (hloc : PayLocal2 (F := F)) (c : Dev nD) (t : Fin cfg2.N) (d1 : Vec F S2048x256 .f32) (d2 : Vec F S1x256 .f32) :
    owns (c : Thread nD τ) (st2_3 t) fullShare
        (k2_pay1 (win2_1.fill (grid2.coords t) d1 (blk2 V c 1 t)) (blk2 V c 0 t) (win2_2.fill (grid2.coords t) d2 (blk2 V c 2 t)))
      ⊢ (iprop(∃ d, owns (c : Thread nD τ) (st2_3 t) fullShare
          (win2_3.fill (grid2.coords t) d (win2_3.cut (grid2.coords t) ((dat2 V c).after 3 t)))) : sProp 𝕄) := by
  iintro H; iexists _; rw [leaves2_3 V hloc c t d1 d2]; iexact H

/-- The body obligation, nothing forgotten, at a float instance whose payload is local to its column. -/
theorem body_obligation2 (hloc : PayLocal2 (F := F)) (c : Dev nD) :
    BodyObligationLoose (dat2 (F := F) V c) (defs₀ (F := F)) Variants.none () Set.univ := fun t => by
  rw [bigSep_W2, bigSep_W2]
  simp only
  refine (sep_mono .rfl (sep_mono .rfl (sep_mono .rfl (sep_mono .rfl (sep_mono .rfl ?_))))).trans
    ((sound_body2 V c t).trans (wp_mono _ _ _ fun _ => ?_))
  · iintro ⟨%d, H⟩; iexists _; iexact H
  iintro ⟨HΦ, Ho, H0, ⟨%d1, %d2, H1, H2, H3⟩⟩
  isplitl [HΦ]; · iexact HΦ
  isplitl [Ho]; · iexact Ho
  isplitl [H0]; · rw [after2_0]; iexact H0
  isplitl [H1]
  · iexists d1
    change _ ⊢ owns (c : Thread nD τ) (st2_1 t) fullShare (win2_1.fill (grid2.coords t) d1 (win2_1.cut (grid2.coords t) ((dat2 V c).after 1 t)))
    rw [leaves2_1]
  isplitl [H2]
  · iexists d2
    change _ ⊢ owns (c : Thread nD τ) (st2_2 t) fullShare (win2_2.fill (grid2.coords t) d2 (win2_2.cut (grid2.coords t) ((dat2 V c).after 2 t)))
    rw [leaves2_2]
  · iapply (post2_3 V hloc c t d1 d2); iexact H3

/-! ## What the region writes, and what it leaves alone -/

/-- What point `t` writes back of the result: the part inside the array of the payload of the three blocks (the
    weights' and the bias's filled out with the zero word). -/
theorem flushed2_3 (c : Dev nD) (t : Fin cfg2.N) :
    (dat2 V c).flushed 3 t = win2_3.cut (grid2.coords t) (k2_pay1 (wblk2 V c t) (blk2 V c 0 t) (bblk2 V c t)) := by
  unfold Dat.flushed; rw [after2_3]; try rfl

/-- Under column locality, with the weights' and the bias's buffers filled out with anything. -/
theorem flushed2_3_of (hloc : PayLocal2 (F := F)) (c : Dev nD) (t : Fin cfg2.N) (d1 : Vec F S2048x256 .f32) (d2 : Vec F S1x256 .f32) :
    (dat2 V c).flushed 3 t
      = win2_3.cut (grid2.coords t)
          (k2_pay1 (win2_1.fill (grid2.coords t) d1 (blk2 V c 1 t)) (blk2 V c 0 t) (win2_2.fill (grid2.coords t) d2 (blk2 V c 2 t))) := by
  rw [flushed2_3]; unfold wblk2 bblk2
  exact cut_pay2 hloc _ _ _ _ _ _ _ _

/-- The inputs' arrays are never written: at every point they hold what the region found. -/
theorem arrAt2_in (c : Dev nD) (w : Fin cfg2.W) (hw : (cfg2.win w).isOut = false) (n : Nat) :
    (dat2 V c).arrAt w n = V c (Pipeline.arrRef spec2 w) :=
  ((dat2 V c).arrAt_in w hw n).trans (A_eq2 V c w)
theorem arrAt2_0 (c : Dev nD) (n : Nat) : (dat2 V c).arrAt 0 n = V c (Pipeline.arrRef spec2 0) := arrAt2_in V c 0 rfl n
theorem arrAt2_1 (c : Dev nD) (n : Nat) : (dat2 V c).arrAt 1 n = V c (Pipeline.arrRef spec2 1) := arrAt2_in V c 1 rfl n
theorem arrAt2_2 (c : Dev nD) (n : Nat) : (dat2 V c).arrAt 2 n = V c (Pipeline.arrRef spec2 2) := arrAt2_in V c 2 rfl n

end Cert.KernelIdeal.Hand
end
-- ==== Proof.KI.Run.lean ====
/-
  The whole program's run: @main is four stretches of host operations (reshapes) around the three calls. This module
  names the contents of every unscoped buffer at each of the eight boundaries between those seven items, starting from the
  launch memory, makes each call a segment entered from one boundary's contents and left at the next, and launches the
  seven segments: every weakly fair execution terminates without a fault, and at the end every unscoped buffer holds the
  last boundary's contents — in particular each argument array what it held at launch.
-/
import proofs.«105144_g2000002570731441_pallasbulk_209_2_alg».proof.Proof.Gen.KernelIdeal.Regions
import proofs.«105144_g2000002570731441_pallasbulk_209_2_alg».proof.Proof.KI.Region0
import proofs.«105144_g2000002570731441_pallasbulk_209_2_alg».proof.Proof.KI.Region1
import proofs.«105144_g2000002570731441_pallasbulk_209_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- When call 0 returns: its windows' arrays at what the pipeline leaves (the inputs as entered, the result's write-backs
    folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m c b
theorem W2_final (c : Dev nD) (w : Fin cfg0.W) : (dat0 (U1 m) c).arrAt w cfg0.N = U2 m c (Pipeline.arrRef spec0 w) :=
  (W2_arr m c w).symm
theorem W2_rest (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host operations `hostOps1`. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- When call 1 returns: its windows' arrays at what the pipeline leaves (the inputs as entered, the result's write-backs
    folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m c b
theorem W4_final (c : Dev nD) (w : Fin cfg1.W) : (dat1 (U3 m) c).arrAt w cfg1.N = U4 m c (Pipeline.arrRef spec1 w) :=
  (W4_arr m c w).symm
theorem W4_rest (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the host operations `hostOps2`. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- When call 2 returns: its windows' arrays at what the pipeline leaves (the inputs as entered, the result's write-backs
    folded), every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m c b
theorem W6_final (c : Dev nD) (w : Fin cfg2.W) : (dat2 (U5 m) c).arrAt w cfg2.N = U6 m c (Pipeline.arrRef spec2 w) :=
  (W6_arr m c w).symm
theorem W6_rest (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last host operations: the end. -/
abbrev W7 : Dev nD → Valuation τ sig (Elt F) := fun c => StableHlo.after hostOps3 (W6 m c)

/-! ## The arguments end as launched -/

/-- `main_arg0` reaches the end as launched: no host operation writes it, and a call reads it through an input window or not at all. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host operation writes it, and a call reads it through an input window or not at all. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (U1 m) c).arrAt_in 1 rfl _).trans (dat0_A (U1 m) c 1))
    _ = W0 m c (Proc.devRef .tc main_arg1) := StableHlo.after_of_writes_sub hostOps0 _ hostOps0_writes (by decide)
    _ = m ((c : Thread nD τ).loc main_arg1) := rfl

/-- `main_arg2` reaches the end as launched: no host operation writes it, and a call reads it through an input window or not at all. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it, and a call reads it through an input window or not at all. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := (W4_arr m c 1).trans (((dat1 (U3 m) c).arrAt_in 1 rfl _).trans (dat1_A (U3 m) c 1))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it, and a call reads it through an input window or not at all. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it, and a call reads it through an input window or not at all. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := (W6_arr m c 1).trans (((dat2 (U5 m) c).arrAt_in 1 rfl _).trans (A_eq2 (U5 m) c 1))
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it, and a call reads it through an input window or not at all. -/
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and what rides along -/

/- The last call's blocks overhang the array's 1480 columns at its last grid point; that the stored columns inside the array do
    not depend on the buffer columns past the array's end is a property of the instance's matrix product, taken here as a
    hypothesis (it holds on the extended reals, where the product is a sum over the contracted axis). -/
variable (hloc : PayLocal2 (F := F))

/-- Every call's proof data, each at its own entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state, and its dues, none. -/
abbrev Rest (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- Call 0 as a segment: entered with every unscoped buffer at `W1`, left with them at `W2`. Its windows' arrays are
    split out of the unscoped buffers at entry and put back at their final contents at exit; the generator register goes
    into the call's invariant and comes back; nothing is owed; the kernel has no semaphore of its own. -/
def reg0 : Pipeline.RegionSeg (pcfgs (F := F)) adm (pdats m) () defs₀ 𝒱n Lz lvz 0 where
  win := launch0.win.to₀
  block_pos := launch0.block_pos
  stage_whole := launch0.stage_whole
  K := PEmpty
  osem k := k.elim
  ho := Pipeline.OwnSemFacts.none _
  hbody c := (body0_obligation (U1 m) c).loose
  hwaits := Pipeline.hwaits_of_owed_zero _ _ _ _ Lz lvz 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (W2_final m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its windows' arrays are
    split out of the unscoped buffers at entry and put back at their final contents at exit; the generator register goes
    into the call's invariant and comes back; nothing is owed; the kernel has no semaphore of its own. -/
def reg1 : Pipeline.RegionSeg (pcfgs (F := F)) adm (pdats m) () defs₀ 𝒱n Lz lvz 1 where
  win := launch1.win.to₀
  block_pos := launch1.block_pos
  stage_whole := launch1.stage_whole
  K := PEmpty
  osem k := k.elim
  ho := Pipeline.OwnSemFacts.none _
  hbody c := (body1_obligation (U3 m) c).loose
  hwaits := Pipeline.hwaits_of_owed_zero _ _ _ _ Lz lvz 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (W4_final m c) (W4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its windows' arrays are
    split out of the unscoped buffers at entry and put back at their final contents at exit; the generator register goes
    into the call's invariant and comes back; nothing is owed; the kernel has no semaphore of its own. -/
def reg2 : Pipeline.RegionSeg (pcfgs (F := F)) adm (pdats m) () defs₀ 𝒱n Lz lvz 2 where
  win := launch2.win.to₀
  block_pos := launch2.block_pos
  stage_whole := launch2.stage_whole
  K := PEmpty
  osem k := k.elim
  ho := Pipeline.OwnSemFacts.none _
  hbody c := body_obligation2 (U5 m) hloc c
  hwaits := Pipeline.hwaits_of_owed_zero _ _ _ _ Lz lvz 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (W6_final m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev allSegs : List (Pipeline.Seg (pcfgs (F := F)) adm (pdats m) () defs₀ 𝒱n Lz lvz) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m hloc),
    .host (hostSeg hostOps3 hostOps3_sub hostOps3_fresh (W6 m)) ]
/-- @main is the run of the segments. -/
theorem main_is_segs (c : Dev nD) : main (F := F) c = Pipeline.Seg.run (allSegs m hloc) := (main_chain c).trans (by chain_rfl)

set_option backward.isDefEq.respectTransparency.types false in
include hloc in
/-- THE RUN, at any `F`: from any memory with zero counters every weakly fair execution of @main on the TensorCores
    terminates, nothing faulting, and every final state holds each unscoped buffer at the last boundary's contents `W7`. -/
theorem run_buffers (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱n Lz lvz m ρ main (allSegs m hloc)
    (fun c Q => by rw [main_is_segs m hloc c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rest c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

include hloc in
/-- The run with the result named and the arguments unchanged: what both the frame claim and the value claim read off. -/
theorem run_named (ρ : Dev nD → PrngReg) : θ_run defs (onTc (τ := τ) (main (F := F))) ⟨m, fun _ => 0, ρ⟩ (fun r => ∀ c : Dev nD,
      r.2.mem ((c.tc : Thread nD τ).loc main_v0) = W7 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_unscoped main_v0 (by decide)),
    (h c _ (mem_unscoped main_arg0 (by decide))).trans (W7_main_arg0 m c),
    (h c _ (mem_unscoped main_arg1 (by decide))).trans (W7_main_arg1 m c),
    (h c _ (mem_unscoped main_arg2 (by decide))).trans (W7_main_arg2 m c),
    (h c _ (mem_unscoped main_arg3 (by decide))).trans (W7_main_arg3 m c),
    (h c _ (mem_unscoped main_arg4 (by decide))).trans (W7_main_arg4 m c),
    (h c _ (mem_unscoped main_arg5 (by decide))).trans (W7_main_arg5 m c),
    (h c _ (mem_unscoped main_arg6 (by decide))).trans (W7_main_arg6 m c)⟩) (run_buffers m hloc ρ)

end Cert.KernelIdeal.Hand

end
-- ==== Proof.Val.KIPay.lean ====
/-
  The arithmetic of the idealized kernel's bodies, read at one index on the extended reals: every store's value is a
  row against a column plus a bias (the convolution's eight per-image products, the two dense layers), the hidden
  layer's clamped below by the zero word. A change of float format is the identity there, so the bf16 operands are
  the operands themselves.
-/
import proofs.«105144_g2000002570731441_pallasbulk_209_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal

/-! ## A plain matrix product read at an index -/

section Plain
variable {m n r : Nat}

/-- Row axis of the left factor: the output's row. -/
theorem lhs_row (D : DotDims ⟨2, ![m, n]⟩ ⟨2, ![n, r]⟩ ⟨2, ![m, r]⟩)
    (hlb : D.lhsBatch = []) (hln : D.lhsNonContracting = [0])
    (j : (⟨2, ![m, r]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- Column axis of the right factor: the output's column. -/
theorem rhs_col (D : DotDims ⟨2, ![m, n]⟩ ⟨2, ![n, r]⟩ ⟨2, ![m, r]⟩)
    (hlb : D.lhsBatch = []) (hrb : D.rhsBatch = []) (hln : D.lhsNonContracting = [0]) (hrn : D.rhsNonContracting = [1])
    (j : (⟨2, ![m, r]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A product of an [m, n] by an [n, r] matrix into the zero accumulator (rows of the left factor against columns of
    the right one, one contracted axis, no batch axis), read at (p, q), is the sum over the contracted axis. -/
theorem matmul_plain_apply (D : DotDims ⟨2, ![m, n]⟩ ⟨2, ![n, r]⟩ ⟨2, ![m, r]⟩)
    (hlc : D.lhsContracting = [1]) (hrc : D.rhsContracting = [0])
    (hln : D.lhsNonContracting = [0]) (hrn : D.rhsNonContracting = [1])
    (hlb : D.lhsBatch = []) (hrb : D.rhsBatch = [])
    {φ₁ φ₂ : FTy} (a : FVec Ideal ⟨2, ![m, n]⟩ φ₁) (b : FVec Ideal ⟨2, ![n, r]⟩ φ₂) (p : Fin m) (q : Fin r) :
    matmul D none a b (constant (F := Ideal) ⟨2, ![m, r]⟩ .f32 0x00000000#32) (ix2 p q)
      = ∑ k : Fin n, a (ix2 p k) * b (ix2 k q) := by
  have hr : D.contr.rank = 1 := by rw [D.rank_contr, hlc]; rfl
  have hs : D.contr.size ⟨0, by omega⟩ = n := by
    rw [D.size_contr 0 (by rw [hlc]; exact Nat.one_pos)]
    simp [hlc]
  refine (Ideal.matmul_constant_zero_apply D none a b (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k :=
    funext fun c => Fin.ext (by
      match c with
      | ⟨0, _⟩ => exact lhs_row D hlb hln _ _
      | ⟨1, _⟩ => exact (D.lhsIdx_val_of_single hlc _ _).trans hk)
  have er : D.rhsIdx (ix2 p q) ((contrEquiv1 D n hr hs).symm k) = ix2 k q :=
    funext fun c => Fin.ext (by
      match c with
      | ⟨0, _⟩ => exact (D.rhsIdx_val_of_single hrc _ _).trans hk
      | ⟨1, _⟩ => exact rhs_col D hlb hrb hln hrn _ _)
  rw [el, er]

end Plain

/-! ## A column laid along every column position -/

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The convolution's bodies -/

/-- The weights enter the products unchanged (a change of format is the identity on the extended reals). -/
theorem k0_pay3_eq (v0 : Vec Ideal S8x512 .f32) : Gen.k0_pay3 (F := Ideal) v0 = v0 := rfl

/-- The bias column enters unchanged. -/
theorem k0_pay4_eq (v2 : Vec Ideal S8x1 .f32) : Gen.k0_pay4 (F := Ideal) v2 = v2 := by
  unfold Gen.k0_pay4
  exact shapeCast_self _ _

/-! One image's convolution at output channel `o` and position `s`: the channel's weights against the image's column
    at the position, plus the channel's bias. Images 0, 1 (and 2, below) take the weights and the bias as loaded;
    images 3 to 7 take them as carried values. -/

theorem k0_pay5_apply (v0 : Vec Ideal S8x512 .f32) (v2 : Vec Ideal S8x1 .f32) (v4 : Vec Ideal S1x512x225 .f32)
    (o : Fin 8) (s : Fin 225) :
    Gen.k0_pay5 (F := Ideal) v0 v2 v4 (ix3 (0 : Fin 1) o s)
      = (∑ k : Fin 512, (v0 (ix2 o k) : EReal) * (v4 (ix3 (0 : Fin 1) k s) : EReal)) + (v2 (ix2 o (0 : Fin 1)) : EReal) := by
  unfold Gen.k0_pay5
  simp only [k0_pay3_eq, k0_pay4_eq]
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

theorem k0_pay6_apply (v0 : Vec Ideal S8x512 .f32) (v2 : Vec Ideal S8x1 .f32) (v14 : Vec Ideal S1x512x225 .f32)
    (o : Fin 8) (s : Fin 225) :
    Gen.k0_pay6 (F := Ideal) v0 v2 v14 (ix3 (0 : Fin 1) o s)
      = (∑ k : Fin 512, (v0 (ix2 o k) : EReal) * (v14 (ix3 (0 : Fin 1) k s) : EReal)) + (v2 (ix2 o (0 : Fin 1)) : EReal) := by
  unfold Gen.k0_pay6
  simp only [k0_pay3_eq, k0_pay4_eq]
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

/-- Image 2's value before its leading unit axis is added. -/
theorem k0_pay7_apply (v0 : Vec Ideal S8x512 .f32) (v2 : Vec Ideal S8x1 .f32) (v24 : Vec Ideal S1x512x225 .f32)
    (o : Fin 8) (s : Fin 225) :
    Gen.k0_pay7 (F := Ideal) v0 v2 v24 (ix2 o s)
      = (∑ k : Fin 512, (v0 (ix2 o k) : EReal) * (v24 (ix3 (0 : Fin 1) k s) : EReal)) + (v2 (ix2 o (0 : Fin 1)) : EReal) := by
  unfold Gen.k0_pay7
  simp only [k0_pay3_eq, k0_pay4_eq]
  rw [truncf_apply, addf_apply, broadcastTo_a1_ab_apply,
    matmul_plain_apply dot_S8x512_S512x225_S8x225_1_0_0_1_n_n rfl rfl rfl rfl rfl rfl]
  simp only [truncf_apply, shapeCast_1ab_ab_apply]

/-- The leading unit axis added: the same entries. -/
theorem k0_pay8_apply (v30 : FVec Ideal S8x225 .bf16) (o : Fin 8) (s : Fin 225) :
    Gen.k0_pay8 (F := Ideal) v30 (ix3 (0 : Fin 1) o s) = v30 (ix2 o s) := by
  unfold Gen.k0_pay8
  exact shapeCast_ab_1ab_apply _ _ _ _ _

theorem k0_pay9_apply (v1 : FVec Ideal S8x512 .bf16) (v3 : FVec Ideal S8x1 .f32) (v34 : Vec Ideal S1x512x225 .f32)
    (o : Fin 8) (s : Fin 225) :
    Gen.k0_pay9 (F := Ideal) v1 v3 v34 (ix3 (0 : Fin 1) o s)
      = (∑ k : Fin 512, (v1 (ix2 o k) : EReal) * (v34 (ix3 (0 : Fin 1) k s) : EReal)) + (v3 (ix2 o (0 : Fin 1)) : EReal) := by
  unfold Gen.k0_pay9
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

theorem k0_pay10_apply (v1 : FVec Ideal S8x512 .bf16) (v3 : FVec Ideal S8x1 .f32) (v44 : Vec Ideal S1x512x225 .f32)
    (o : Fin 8) (s : Fin 225) :
    Gen.k0_pay10 (F := Ideal) v1 v3 v44 (ix3 (0 : Fin 1) o s)
      = (∑ k : Fin 512, (v1 (ix2 o k) : EReal) * (v44 (ix3 (0 : Fin 1) k s) : EReal)) + (v3 (ix2 o (0 : Fin 1)) : EReal) := by
  unfold Gen.k0_pay10
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

theorem k0_pay11_apply (v1 : FVec Ideal S8x512 .bf16) (v3 : FVec Ideal S8x1 .f32) (v54 : Vec Ideal S1x512x225 .f32)
    (o : Fin 8) (s : Fin 225) :
    Gen.k0_pay11 (F := Ideal) v1 v3 v54 (ix3 (0 : Fin 1) o s)
      = (∑ k : Fin 512, (v1 (ix2 o k) : EReal) * (v54 (ix3 (0 : Fin 1) k s) : EReal)) + (v3 (ix2 o (0 : Fin 1)) : EReal) := by
  unfold Gen.k0_pay11
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

theorem k0_pay1_apply (v1 : FVec Ideal S8x512 .bf16) (v3 : FVec Ideal S8x1 .f32) (v64 : Vec Ideal S1x512x225 .f32)
    (o : Fin 8) (s : Fin 225) :
    Gen.k0_pay1 (F := Ideal) v1 v3 v64 (ix3 (0 : Fin 1) o s)
      = (∑ k : Fin 512, (v1 (ix2 o k) : EReal) * (v64 (ix3 (0 : Fin 1) k s) : EReal)) + (v3 (ix2 o (0 : Fin 1)) : EReal) := by
  unfold Gen.k0_pay1
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

theorem k0_pay2_apply (v1 : FVec Ideal S8x512 .bf16) (v3 : FVec Ideal S8x1 .f32) (v74 : Vec Ideal S1x512x225 .f32)
    (o : Fin 8) (s : Fin 225) :
    Gen.k0_pay2 (F := Ideal) v1 v3 v74 (ix3 (0 : Fin 1) o s)
      = (∑ k : Fin 512, (v1 (ix2 o k) : EReal) * (v74 (ix3 (0 : Fin 1) k s) : EReal)) + (v3 (ix2 o (0 : Fin 1)) : EReal) := by
  unfold Gen.k0_pay2
  rw [shapeCast_ab_1ab_apply, truncf_apply, addf_apply, broadcastTo_a1_ab_apply,
    matmul_plain_apply dot_S8x512_S512x225_S8x225_1_0_0_1_n_n rfl rfl rfl rfl rfl rfl]
  simp only [truncf_apply, shapeCast_1ab_ab_apply]

/-! ## The eight images of a block, each from the loaded weights, the loaded bias and its own slab

The value stored for image `t` of the block, whichever way the body routes the weights and the bias to it. -/

theorem k0_img0_apply (v0 : Vec Ideal S8x512 .f32) (v2 : Vec Ideal S8x1 .f32) (x : Vec Ideal S1x512x225 .f32)
    (o : Fin 8) (s : Fin 225) :
    Gen.k0_pay5 (F := Ideal) v0 v2 x (ix3 (0 : Fin 1) o s)
      = (∑ k : Fin 512, (v0 (ix2 o k) : EReal) * (x (ix3 (0 : Fin 1) k s) : EReal)) + (v2 (ix2 o (0 : Fin 1)) : EReal) :=
  k0_pay5_apply v0 v2 x o s

theorem k0_img1_apply (v0 : Vec Ideal S8x512 .f32) (v2 : Vec Ideal S8x1 .f32) (x : Vec Ideal S1x512x225 .f32)
    (o : Fin 8) (s : Fin 225) :
    Gen.k0_pay6 (F := Ideal) v0 v2 x (ix3 (0 : Fin 1) o s)
      = (∑ k : Fin 512, (v0 (ix2 o k) : EReal) * (x (ix3 (0 : Fin 1) k s) : EReal)) + (v2 (ix2 o (0 : Fin 1)) : EReal) :=
  k0_pay6_apply v0 v2 x o s

theorem k0_img2_apply (v0 : Vec Ideal S8x512 .f32) (v2 : Vec Ideal S8x1 .f32) (x : Vec Ideal S1x512x225 .f32)
    (o : Fin 8) (s : Fin 225) :
    Gen.k0_pay8 (F := Ideal) (Gen.k0_pay7 v0 v2 x) (ix3 (0 : Fin 1) o s)
      = (∑ k : Fin 512, (v0 (ix2 o k) : EReal) * (x (ix3 (0 : Fin 1) k s) : EReal)) + (v2 (ix2 o (0 : Fin 1)) : EReal) := by
  rw [k0_pay8_apply, k0_pay7_apply]

theorem k0_img3_apply (v0 : Vec Ideal S8x512 .f32) (v2 : Vec Ideal S8x1 .f32) (x : Vec Ideal S1x512x225 .f32)
    (o : Fin 8) (s : Fin 225) :
    Gen.k0_pay9 (F := Ideal) (Gen.k0_pay3 v0) (Gen.k0_pay4 v2) x (ix3 (0 : Fin 1) o s)
      = (∑ k : Fin 512, (v0 (ix2 o k) : EReal) * (x (ix3 (0 : Fin 1) k s) : EReal)) + (v2 (ix2 o (0 : Fin 1)) : EReal) := by
  rw [k0_pay9_apply, k0_pay3_eq, k0_pay4_eq]

theorem k0_img4_apply (v0 : Vec Ideal S8x512 .f32) (v2 : Vec Ideal S8x1 .f32) (x : Vec Ideal S1x512x225 .f32)
    (o : Fin 8) (s : Fin 225) :
    Gen.k0_pay10 (F := Ideal) (Gen.k0_pay3 v0) (Gen.k0_pay4 v2) x (ix3 (0 : Fin 1) o s)
      = (∑ k : Fin 512, (v0 (ix2 o k) : EReal) * (x (ix3 (0 : Fin 1) k s) : EReal)) + (v2 (ix2 o (0 : Fin 1)) : EReal) := by
  rw [k0_pay10_apply, k0_pay3_eq, k0_pay4_eq]

theorem k0_img5_apply (v0 : Vec Ideal S8x512 .f32) (v2 : Vec Ideal S8x1 .f32) (x : Vec Ideal S1x512x225 .f32)
    (o : Fin 8) (s : Fin 225) :
    Gen.k0_pay11 (F := Ideal) (Gen.k0_pay3 v0) (Gen.k0_pay4 v2) x (ix3 (0 : Fin 1) o s)
      = (∑ k : Fin 512, (v0 (ix2 o k) : EReal) * (x (ix3 (0 : Fin 1) k s) : EReal)) + (v2 (ix2 o (0 : Fin 1)) : EReal) := by
  rw [k0_pay11_apply, k0_pay3_eq, k0_pay4_eq]

theorem k0_img6_apply (v0 : Vec Ideal S8x512 .f32) (v2 : Vec Ideal S8x1 .f32) (x : Vec Ideal S1x512x225 .f32)
    (o : Fin 8) (s : Fin 225) :
    Gen.k0_pay1 (F := Ideal) (Gen.k0_pay3 v0) (Gen.k0_pay4 v2) x (ix3 (0 : Fin 1) o s)
      = (∑ k : Fin 512, (v0 (ix2 o k) : EReal) * (x (ix3 (0 : Fin 1) k s) : EReal)) + (v2 (ix2 o (0 : Fin 1)) : EReal) := by
  rw [k0_pay1_apply, k0_pay3_eq, k0_pay4_eq]

theorem k0_img7_apply (v0 : Vec Ideal S8x512 .f32) (v2 : Vec Ideal S8x1 .f32) (x : Vec Ideal S1x512x225 .f32)
    (o : Fin 8) (s : Fin 225) :
    Gen.k0_pay2 (F := Ideal) (Gen.k0_pay3 v0) (Gen.k0_pay4 v2) x (ix3 (0 : Fin 1) o s)
      = (∑ k : Fin 512, (v0 (ix2 o k) : EReal) * (x (ix3 (0 : Fin 1) k s) : EReal)) + (v2 (ix2 o (0 : Fin 1)) : EReal) := by
  rw [k0_pay2_apply, k0_pay3_eq, k0_pay4_eq]

/-! ## The two dense layers' bodies -/

/-- The hidden layer's body at (p, q): the row of the activations against the column of the weights, plus the bias of
    the column, clamped below by the zero word. -/
theorem k1_pay1_apply (v0 : Vec Ideal S1800x512 .f32) (v2 : Vec Ideal S128x1800 .bf16) (v5 : Vec Ideal S1x512 .f32)
    (p : Fin 128) (q : Fin 512) :
    Gen.k1_pay1 (F := Ideal) v0 v2 v5 (ix2 p q)
      = max ((∑ k : Fin 1800, (v2 (ix2 p k) : EReal) * (v0 (ix2 k q) : EReal)) + (v5 (ix2 (0 : Fin 1) q) : EReal))
          (Ideal.ofBits .f32 0x00000000#32) := by
  unfold Gen.k1_pay1
  simp only [shapeCast_self]
  rw [truncf_apply, maximumf_apply, addf_apply, broadcast_apply, broadcastTo_1b_ab_apply,
    matmul_plain_apply dot_S128x1800_S1800x512_S128x512_1_0_0_1_n_n rfl rfl rfl rfl rfl rfl]
  simp only [truncf_apply]
  rfl

/-- The output layer's body at (p, q): the row of the hidden activations against the column of the weights, plus the
    bias of the column. -/
theorem k2_pay1_apply (v0 : Vec Ideal S2048x256 .f32) (v2 : Vec Ideal S128x2048 .bf16) (v5 : Vec Ideal S1x256 .f32)
    (p : Fin 128) (q : Fin 256) :
    Gen.k2_pay1 (F := Ideal) v0 v2 v5 (ix2 p q)
      = (∑ k : Fin 2048, (v2 (ix2 p k) : EReal) * (v0 (ix2 k q) : EReal)) + (v5 (ix2 (0 : Fin 1) q) : EReal) := by
  unfold Gen.k2_pay1
  simp only [shapeCast_self]
  rw [addf_apply, broadcastTo_1b_ab_apply,
    matmul_plain_apply dot_S128x2048_S2048x256_S128x256_1_0_0_1_n_n rfl rfl rfl rfl rfl rfl]
  simp only [truncf_apply]

end Cert.KernelIdeal.Pay

end
-- ==== Proof.Val.Spec.lean ====
/-
  The three stages of the network as functions of one output index, on the extended reals: a 1x1 convolution (per
  image, an [8, 512] by [512, 225] product plus a bias per output channel), a dense layer clamped below by zero, and a
  dense layer. Each is one "row against column plus bias" term, `dense`; both programs' bodies are restated against
  these terms so that the two sides meet syntactically. The clamp keeps the zero word of the programs' own text.
-/
import Idealize.ShloMosaic.Lib.ValueIdx
import Idealize.ShloMosaic.PureOps.Ideal.Laws

noncomputable section

open scoped BigOperators
open Idealize.ShloMosaic Idealize.ShloMosaic.ValueIdx

namespace Cert.Spec

/-- A row against a column, plus a bias: `(∑ k, x k * w k) + b`. -/
def dense {K : ℕ} (x w : Fin K → EReal) (b : EReal) : EReal := (∑ k, x k * w k) + b

/-- The clamp below by the zero word (the programs' `maximumf` against a broadcast of that word). -/
def relu (z : EReal) : EReal := max z (Ideal.ofBits .f32 0x00000000#32)

theorem dense_def {K : ℕ} (x w : Fin K → EReal) (b : EReal) : dense x w b = (∑ k, x k * w k) + b := rfl

theorem relu_def (z : EReal) : relu z = max z (Ideal.ofBits .f32 0x00000000#32) := rfl

/-- The clamp is the clamp below by the real zero. -/
theorem relu_eq_max_zero (z : EReal) : relu z = max z 0 := by
  unfold relu; rw [Ideal.ofBits_zero_f32]

/-- The convolution at image `n`, output channel `o`, position `s`: the channel's weights against the image's column at
    the position, plus the channel's bias. `X` is [128, 512, 225], `W` is [8, 512], `B` is [8, 1]. -/
def conv (X : (⟨3, ![128, 512, 225]⟩ : Shape).Idx → EReal) (W : (⟨2, ![8, 512]⟩ : Shape).Idx → EReal)
    (B : (⟨2, ![8, 1]⟩ : Shape).Idx → EReal) (n : Fin 128) (o : Fin 8) (s : Fin 225) : EReal :=
  dense (fun k : Fin 512 => W (ix2 o k)) (fun k : Fin 512 => X (ix3 n k s)) (B (ix2 o (0 : Fin 1)))

/-- The hidden layer at row `p`, unit `q`: the row of `A` [128, 1800] against the column of `W` [1800, 2048], plus
    the bias `B` [1, 2048] of the unit, clamped below by zero. -/
def hidden (A : (⟨2, ![128, 1800]⟩ : Shape).Idx → EReal) (W : (⟨2, ![1800, 2048]⟩ : Shape).Idx → EReal)
    (B : (⟨2, ![1, 2048]⟩ : Shape).Idx → EReal) (p : Fin 128) (q : Fin 2048) : EReal :=
  relu (dense (fun k : Fin 1800 => A (ix2 p k)) (fun k : Fin 1800 => W (ix2 k q)) (B (ix2 (0 : Fin 1) q)))

/-- The output layer at row `p`, unit `q`: the row of `H` [128, 2048] against the column of `W` [2048, 1480], plus
    the bias `B` [1, 1480] of the unit. -/
def out (H : (⟨2, ![128, 2048]⟩ : Shape).Idx → EReal) (W : (⟨2, ![2048, 1480]⟩ : Shape).Idx → EReal)
    (B : (⟨2, ![1, 1480]⟩ : Shape).Idx → EReal) (p : Fin 128) (q : Fin 1480) : EReal :=
  dense (fun k : Fin 2048 => H (ix2 p k)) (fun k : Fin 2048 => W (ix2 k q)) (B (ix2 (0 : Fin 1) q))

end Cert.Spec

end
-- ==== Proof.KI.Value0.lean ====
/-
  The pooled array after the first call, at the exact instance: every entry (n, o, s) is
  Σ_k W[o, k] · x[n, k, s] + b[o, 0] of the three arrays the call reads. The body's eight stores are the eight batch rows
  of one function of the tile's index; each grid point writes batch tile `t` (rows 8t .. 8t+7) of the pooled array, and
  the sixteen tiles cover the 128 rows.
-/
import proofs.«105144_g2000002570731441_pallasbulk_209_2_alg».proof.Proof.KI.Region0
import proofs.«105144_g2000002570731441_pallasbulk_209_2_alg».proof.Proof.Val.KIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The pooled array as one function of the feature, weight and bias arrays. -/
def poolOf (X : S128x512x225.Idx → EReal) (W : S8x512.Idx → EReal) (B : S8x1.Idx → EReal) : S128x8x225.Idx → EReal :=
  fun i => Cert.Spec.conv X W B (i 0) (i 1) (i 2)

/-- One tile's entry: batch row `u` of the tile, output channel `o`, position `s`. -/
def tileAt (x : Vec Ideal S8x512x225 .f32) (w : Vec Ideal S8x512 .f32) (b : Vec Ideal S8x1 .f32) (u : Fin 8) (o : Fin 8) (s : Fin 225) : EReal :=
  (∑ k : Fin 512, (w (ix2 o k) : EReal) * (x (ix3 u k s) : EReal)) + (b (ix2 o (0 : Fin 1)) : EReal)

/-- The tile as a function of its index. -/
def tileOf (x : Vec Ideal S8x512x225 .f32) (w : Vec Ideal S8x512 .f32) (b : Vec Ideal S8x1 .f32) : S8x8x225.Idx → EReal :=
  fun y => tileAt x w b (y 0) (y 1) (y 2)

theorem zero2 : (![0, 0] : Fin 2 → Nat) = fun _ => 0 := funext fun a => by fin_cases a <;> rfl

/-- Batch row 0's store is row 0 of the tile. -/
theorem slab0_eq (x : Vec Ideal S8x512x225 .f32) (w : Vec Ideal S8x512 .f32) (b : Vec Ideal S8x1 .f32) (y : S1x8x225.Idx) :
    k0_pay5 (View.ld w whole0_w) (View.ld b whole0_b) (View.ld x xslab0) y = tileOf x w b (oslab0.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img0_apply _ _ _ o s).trans ?_
  have hx : ∀ k : Fin 512, View.ld x xslab0 (ix3 (0 : Fin 1) k s) = x (ix3 (0 : Fin 8) k s) := fun k => by
    show x (xslab0.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab0.emb (ix3 (0 : Fin 1) o s) = ix3 (0 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 1's store is row 1 of the tile. -/
theorem slab1_eq (x : Vec Ideal S8x512x225 .f32) (w : Vec Ideal S8x512 .f32) (b : Vec Ideal S8x1 .f32) (y : S1x8x225.Idx) :
    k0_pay6 (View.ld w whole0_w) (View.ld b whole0_b) (View.ld x xslab1) y = tileOf x w b (oslab1.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img1_apply _ _ _ o s).trans ?_
  have hx : ∀ k : Fin 512, View.ld x xslab1 (ix3 (0 : Fin 1) k s) = x (ix3 (1 : Fin 8) k s) := fun k => by
    show x (xslab1.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab1.emb (ix3 (0 : Fin 1) o s) = ix3 (1 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 2's store is row 2 of the tile. -/
theorem slab2_eq (x : Vec Ideal S8x512x225 .f32) (w : Vec Ideal S8x512 .f32) (b : Vec Ideal S8x1 .f32) (y : S1x8x225.Idx) :
    k0_pay8 (k0_pay7 (View.ld w whole0_w) (View.ld b whole0_b) (View.ld x xslab2)) y = tileOf x w b (oslab2.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img2_apply _ _ _ o s).trans ?_
  have hx : ∀ k : Fin 512, View.ld x xslab2 (ix3 (0 : Fin 1) k s) = x (ix3 (2 : Fin 8) k s) := fun k => by
    show x (xslab2.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab2.emb (ix3 (0 : Fin 1) o s) = ix3 (2 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 3's store is row 3 of the tile. -/
theorem slab3_eq (x : Vec Ideal S8x512x225 .f32) (w : Vec Ideal S8x512 .f32) (b : Vec Ideal S8x1 .f32) (y : S1x8x225.Idx) :
    k0_pay9 (k0_pay3 (View.ld w whole0_w)) (k0_pay4 (View.ld b whole0_b)) (View.ld x xslab3) y = tileOf x w b (oslab3.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img3_apply _ _ _ o s).trans ?_
  have hx : ∀ k : Fin 512, View.ld x xslab3 (ix3 (0 : Fin 1) k s) = x (ix3 (3 : Fin 8) k s) := fun k => by
    show x (xslab3.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab3.emb (ix3 (0 : Fin 1) o s) = ix3 (3 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 4's store is row 4 of the tile. -/
theorem slab4_eq (x : Vec Ideal S8x512x225 .f32) (w : Vec Ideal S8x512 .f32) (b : Vec Ideal S8x1 .f32) (y : S1x8x225.Idx) :
    k0_pay10 (k0_pay3 (View.ld w whole0_w)) (k0_pay4 (View.ld b whole0_b)) (View.ld x xslab4) y = tileOf x w b (oslab4.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img4_apply _ _ _ o s).trans ?_
  have hx : ∀ k : Fin 512, View.ld x xslab4 (ix3 (0 : Fin 1) k s) = x (ix3 (4 : Fin 8) k s) := fun k => by
    show x (xslab4.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab4.emb (ix3 (0 : Fin 1) o s) = ix3 (4 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 5's store is row 5 of the tile. -/
theorem slab5_eq (x : Vec Ideal S8x512x225 .f32) (w : Vec Ideal S8x512 .f32) (b : Vec Ideal S8x1 .f32) (y : S1x8x225.Idx) :
    k0_pay11 (k0_pay3 (View.ld w whole0_w)) (k0_pay4 (View.ld b whole0_b)) (View.ld x xslab5) y = tileOf x w b (oslab5.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img5_apply _ _ _ o s).trans ?_
  have hx : ∀ k : Fin 512, View.ld x xslab5 (ix3 (0 : Fin 1) k s) = x (ix3 (5 : Fin 8) k s) := fun k => by
    show x (xslab5.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab5.emb (ix3 (0 : Fin 1) o s) = ix3 (5 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 6's store is row 6 of the tile. -/
theorem slab6_eq (x : Vec Ideal S8x512x225 .f32) (w : Vec Ideal S8x512 .f32) (b : Vec Ideal S8x1 .f32) (y : S1x8x225.Idx) :
    k0_pay1 (k0_pay3 (View.ld w whole0_w)) (k0_pay4 (View.ld b whole0_b)) (View.ld x xslab6) y = tileOf x w b (oslab6.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img6_apply _ _ _ o s).trans ?_
  have hx : ∀ k : Fin 512, View.ld x xslab6 (ix3 (0 : Fin 1) k s) = x (ix3 (6 : Fin 8) k s) := fun k => by
    show x (xslab6.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab6.emb (ix3 (0 : Fin 1) o s) = ix3 (6 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- Batch row 7's store is row 7 of the tile. -/
theorem slab7_eq (x : Vec Ideal S8x512x225 .f32) (w : Vec Ideal S8x512 .f32) (b : Vec Ideal S8x1 .f32) (y : S1x8x225.Idx) :
    k0_pay2 (k0_pay3 (View.ld w whole0_w)) (k0_pay4 (View.ld b whole0_b)) (View.ld x xslab7) y = tileOf x w b (oslab7.emb y) := by
  obtain ⟨u, o, s, rfl⟩ : ∃ (u : Fin 1) (o : Fin 8) (s : Fin 225), y = ix3 u o s := ⟨y 0, y 1, y 2, eq_ix3 y⟩
  obtain rfl : u = 0 := Subsingleton.elim _ _
  refine (Cert.KernelIdeal.Pay.k0_img7_apply _ _ _ o s).trans ?_
  have hx : ∀ k : Fin 512, View.ld x xslab7 (ix3 (0 : Fin 1) k s) = x (ix3 (7 : Fin 8) k s) := fun k => by
    show x (xslab7.emb (ix3 (0 : Fin 1) k s)) = _
    refine congrArg _ (funext fun a => Fin.ext ?_)
    match a with
    | ⟨0, _⟩ => rfl
    | ⟨1, _⟩ => show 0 + 1 * k.val = k.val; omega
    | ⟨2, _⟩ => show 0 + 1 * s.val = s.val; omega
  have ho : oslab7.emb (ix3 (0 : Fin 1) o s) = ix3 (7 : Fin 8) o s := by
    funext a; apply Fin.ext
    match a with
    | ⟨0, _⟩ => rfl
    | ⟨1, _⟩ => show 0 + 1 * o.val = o.val; omega
    | ⟨2, _⟩ => show 0 + 1 * s.val = s.val; omega
  rw [ho, View.ld_unit_zero (S := S8x512) zero2, View.ld_unit_zero (S := S8x1) zero2, Finset.sum_congr rfl (fun k _ => by rw [hx k])]
  rfl

/-- The eight stores are the eight batch rows of one function of the tile's index. -/
theorem pool0_eq (x : Vec Ideal S8x512x225 .f32) (w : Vec Ideal S8x512 .f32) (b : Vec Ideal S8x1 .f32) :
    pool0 x w b = tileOf x w b := by
  funext y
  unfold pool0
  refine View.canon_apply_of_pieces (Val := Elt Ideal) (S := S8x8x225) (e := .bf16) (tileOf x w b) _ ?_ y (pool0_cover _ _ _ _ _ _ _ _ y)
  intro p hp
  simp only [List.mem_cons, List.not_mem_nil, or_false] at hp
  rcases hp with rfl | rfl | rfl | rfl | rfl | rfl | rfl | rfl
  · exact slab7_eq x w b
  · exact slab6_eq x w b
  · exact slab5_eq x w b
  · exact slab4_eq x w b
  · exact slab3_eq x w b
  · exact slab2_eq x w b
  · exact slab1_eq x w b
  · exact slab0_eq x w b

/-- The printed index maps over the sixteen grid points: the feature's and the result's blocks sit at batch tile `t`; the
    weight's and the bias's blocks never move. -/
theorem tiles0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 ∧ t.val < 16 :=
  (by decide +kernel : ∀ t : Fin grid0.N, _)

/-- What grid point `t` writes back is batch tile `t` of `poolOf` of the arrays as the call finds them. -/
theorem pool_tile (c : Dev nD) (t : Fin cfg0.N) :
    (dat0 V c).flushed 3 t = ((cfg0.win 3).blk t).view.read (Elt Ideal)
      (poolOf (V c main_call0_v0) (V c main_arg1) (V c main_call0_v1)) := by
  show (cfg0.win 3).cut (grid0.coords t) ((dat0 V c).after 3 t) = _
  rw [dat0_after3, pool0_eq]
  obtain ⟨e00, e01, e02, e10, e11, e20, e21, e30, e31, e32, ht⟩ := tiles0 t
  funext j
  obtain ⟨u, o, s, rfl⟩ : ∃ (u : Fin 8) (o : Fin 8) (s : Fin 225), j = ix3 u o s := ⟨j 0, j 1, j 2, eq_ix3 j⟩
  have hN : t.val * 8 + u.val < 128 := by have := u.isLt; omega
  -- the tile's entry (u, o, s) sits at batch row 8 t + u of the array
  have hemb : ((cfg0.win 3).blk t).view.emb (ix3 u o s) = ix3 (⟨t.val * 8 + u.val, hN⟩ : Fin 128) o s := by
    funext a; apply Fin.ext
    match a with
    | ⟨0, _⟩ => show win0_3.index t (0 : Fin 3) * 8 + 1 * u.val = t.val * 8 + u.val; omega
    | ⟨1, _⟩ => show win0_3.index t (1 : Fin 3) * 8 + 1 * o.val = o.val; omega
    | ⟨2, _⟩ => show win0_3.index t (2 : Fin 3) * 225 + 1 * s.val = s.val; omega
  have r0 : ∀ k : Fin 512, blk0 V c 0 t (ix3 u k s) = V c main_call0_v0 (ix3 (⟨t.val * 8 + u.val, hN⟩ : Fin 128) k s) := fun k => by
    show V c main_call0_v0 (((cfg0.win 0).blk t).view.emb (ix3 u k s)) = _
    refine congrArg _ (funext fun a => Fin.ext ?_)
    match a with
    | ⟨0, _⟩ => show win0_0.index t (0 : Fin 3) * 8 + 1 * u.val = t.val * 8 + u.val; omega
    | ⟨1, _⟩ => show win0_0.index t (1 : Fin 3) * 512 + 1 * k.val = k.val; omega
    | ⟨2, _⟩ => show win0_0.index t (2 : Fin 3) * 225 + 1 * s.val = s.val; omega
  have r1 : ∀ k : Fin 512, blk0 V c 1 t (ix2 o k) = V c main_arg1 (ix2 o k) := fun k => by
    show V c main_arg1 (((cfg0.win 1).blk t).view.emb (ix2 o k)) = _
    refine congrArg _ (funext fun a => Fin.ext ?_)
    match a with
    | ⟨0, _⟩ => show win0_1.index t (0 : Fin 2) * 8 + 1 * o.val = o.val; omega
    | ⟨1, _⟩ => show win0_1.index t (1 : Fin 2) * 512 + 1 * k.val = k.val; omega
  have r2 : blk0 V c 2 t (ix2 o (0 : Fin 1)) = V c main_call0_v1 (ix2 o (0 : Fin 1)) := by
    show V c main_call0_v1 (((cfg0.win 2).blk t).view.emb (ix2 o (0 : Fin 1))) = _
    refine congrArg _ (funext fun a => Fin.ext ?_)
    match a with
    | ⟨0, _⟩ => show win0_2.index t (0 : Fin 2) * 8 + 1 * o.val = o.val; omega
    | ⟨1, _⟩ => show win0_2.index t (1 : Fin 2) * 1 + 1 * 0 = 0; omega
  rw [View.read_apply]
  show tileAt (blk0 V c 0 t) (blk0 V c 1 t) (blk0 V c 2 t) u o s
    = poolOf (V c main_call0_v0) (V c main_arg1) (V c main_call0_v1) (((cfg0.win 3).blk t).view.emb (ix3 u o s))
  rw [hemb]
  unfold tileAt
  rw [r2, Finset.sum_congr rfl (fun k _ => by rw [r0 k, r1 k])]
  rfl

/-- An index of the array is in point `t`'s tile iff each coordinate is in the tile's range on its axis. -/
theorem mem_tile0 (t : Fin cfg0.N) (i : S128x8x225.Idx) :
    i ∈ ((cfg0.win 3).blk t).view.set ↔ ∀ a : Fin 3, win0_3.index t a * S8x8x225.size a ≤ (i a).val ∧ (i a).val < win0_3.index t a * S8x8x225.size a + S8x8x225.size a := by
  show i ∈ ((View.whole main_call0_v2).slice (win0_3.rect t)).set ↔ _
  rw [View.set_slice_whole, Rect.mem_set_unit]
  exact Iff.rfl

/-- Batch row `n` lies in tile `n / 8`: the sixteen tiles cover the array. -/
theorem pool_cover (i : S128x8x225.Idx) :
    ∃ t : Fin cfg0.N, (cfg0.win 3).flush t = true ∧ i ∈ ((cfg0.win 3).blk t).view.set := by
  have h0 : (i 0).val < 128 := (i 0).isLt
  have h1 : (i 1).val < 8 := (i 1).isLt
  have h2 : (i 2).val < 225 := (i 2).isLt
  have hN : grid0.N = 16 := N_0
  have hlt : (i 0).val / 8 < grid0.N := by omega
  obtain ⟨e00, e01, e02, e10, e11, e20, e21, e30, e31, e32, ht⟩ := tiles0 ⟨(i 0).val / 8, hlt⟩
  refine ⟨⟨(i 0).val / 8, hlt⟩, flush0_3 _, ?_⟩
  rw [mem_tile0]
  intro a
  match a with
  | ⟨0, _⟩ =>
    show win0_3.index ⟨(i 0).val / 8, hlt⟩ (0 : Fin 3) * 8 ≤ (i 0).val ∧ (i 0).val < win0_3.index ⟨(i 0).val / 8, hlt⟩ (0 : Fin 3) * 8 + 8
    have e : win0_3.index ⟨(i 0).val / 8, hlt⟩ (0 : Fin 3) = (i 0).val / 8 := e30
    omega
  | ⟨1, _⟩ =>
    show win0_3.index ⟨(i 0).val / 8, hlt⟩ (1 : Fin 3) * 8 ≤ (i 1).val ∧ (i 1).val < win0_3.index ⟨(i 0).val / 8, hlt⟩ (1 : Fin 3) * 8 + 8
    omega
  | ⟨2, _⟩ =>
    show win0_3.index ⟨(i 0).val / 8, hlt⟩ (2 : Fin 3) * 225 ≤ (i 2).val ∧ (i 2).val < win0_3.index ⟨(i 0).val / 8, hlt⟩ (2 : Fin 3) * 225 + 225
    omega

/-- THE POOLED ARRAY after the call: `poolOf` of the three arrays the call reads. -/
theorem pool_array (c : Dev nD) :
    (dat0 V c).arrAt 3 cfg0.N = poolOf (V c main_call0_v0) (V c main_arg1) (V c main_call0_v1) :=
  (dat0 V c).arrAt_eq_of_cover 3 _ (fun t _ => pool_tile V c t) pool_cover

end Cert.KernelIdeal.Hand

end
-- ==== Proof.KI.Value1.lean ====
/-
  The hidden layer's array after its call, at the exact instance: every entry (p, q) is
  relu(Σ_k xf[p, k] · W1[k, q] + b1[0, q]) of the three arrays the call reads. Each grid point writes one column tile
  of 512 of that function (the payload read at an index, the tile's column offset added to the weight's and the bias's
  column), and the four tiles cover the 2048 columns.
-/
import proofs.«105144_g2000002570731441_pallasbulk_209_2_alg».proof.Proof.KI.Region1
import proofs.«105144_g2000002570731441_pallasbulk_209_2_alg».proof.Proof.Val.KIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The hidden layer as one function of the activation, weight and bias arrays. -/
def hiddenOf (A : S128x1800.Idx → EReal) (W : S1800x2048.Idx → EReal) (B : S1x2048.Idx → EReal) : S128x2048.Idx → EReal :=
  fun i => Cert.Spec.hidden A W B (i 0) (i 1)

theorem zero2 : (![0, 0] : Fin 2 → Nat) = fun _ => 0 := funext fun a => by fin_cases a <;> rfl

/-- The printed index maps over the four grid points: the activation's block never moves; the weight's, the bias's and
    the result's blocks sit at column tile `t`. -/
theorem tiles1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val ∧ t.val < 4 :=
  (by decide +kernel : ∀ t : Fin grid1.N, _)

/-- What grid point `t` writes back is column tile `t` of `hiddenOf` of the arrays as the call finds them. -/
theorem hidden_tile (c : Dev nD) (t : Fin cfg1.N) :
    (dat1 V c).flushed 3 t = ((cfg1.win 3).blk t).view.read (Elt Ideal)
      (hiddenOf (V c main_call0_v3) (V c main_arg3) (V c main_call0_v4)) := by
  show (cfg1.win 3).cut (grid1.coords t) ((dat1 V c).after 3 t) = _
  rw [dat1_after3]
  unfold hid1
  rw [View.canon_unit_zero zero2]
  simp only [View.ld_unit_zero (S := S128x1800) zero2, View.ld_unit_zero (S := S1800x512) zero2, View.ld_unit_zero (S := S1x512) zero2]
  obtain ⟨e00, e01, e10, e11, e20, e21, e30, e31, ht⟩ := tiles1 t
  funext j
  obtain ⟨p, q, rfl⟩ : ∃ (p : Fin 128) (q : Fin 512), j = ix2 p q := ⟨j 0, j 1, eq_ix2 j⟩
  refine (Cert.KernelIdeal.Pay.k1_pay1_apply _ _ _ p q).trans ?_
  have hQ : t.val * 512 + q.val < 2048 := by have := q.isLt; omega
  -- the block's entry (p, q) sits at row p, column 512 t + q of the array
  have hemb : ((cfg1.win 3).blk t).view.emb (ix2 p q) = ix2 p (⟨t.val * 512 + q.val, hQ⟩ : Fin 2048) := by
    funext a; apply Fin.ext
    match a with
    | ⟨0, _⟩ => show win1_3.index t (0 : Fin 2) * 128 + 1 * p.val = p.val; omega
    | ⟨1, _⟩ => show win1_3.index t (1 : Fin 2) * 512 + 1 * q.val = t.val * 512 + q.val; omega
  -- the activation's block is the whole array; the weight's and the bias's blocks are column tile t
  have r0 : ∀ k : Fin 1800, blk1 V c 0 t (ix2 p k) = V c main_call0_v3 (ix2 p k) := fun k => by
    show V c main_call0_v3 (((cfg1.win 0).blk t).view.emb (ix2 p k)) = _
    refine congrArg _ (funext fun a => Fin.ext ?_)
    match a with
    | ⟨0, _⟩ => show win1_0.index t (0 : Fin 2) * 128 + 1 * p.val = p.val; omega
    | ⟨1, _⟩ => show win1_0.index t (1 : Fin 2) * 1800 + 1 * k.val = k.val; omega
  have r1 : ∀ k : Fin 1800, blk1 V c 1 t (ix2 k q) = V c main_arg3 (ix2 k (⟨t.val * 512 + q.val, hQ⟩ : Fin 2048)) := fun k => by
    show V c main_arg3 (((cfg1.win 1).blk t).view.emb (ix2 k q)) = _
    refine congrArg _ (funext fun a => Fin.ext ?_)
    match a with
    | ⟨0, _⟩ => show win1_1.index t (0 : Fin 2) * 1800 + 1 * k.val = k.val; omega
    | ⟨1, _⟩ => show win1_1.index t (1 : Fin 2) * 512 + 1 * q.val = t.val * 512 + q.val; omega
  have r2 : blk1 V c 2 t (ix2 (0 : Fin 1) q) = V c main_call0_v4 (ix2 (0 : Fin 1) (⟨t.val * 512 + q.val, hQ⟩ : Fin 2048)) := by
    show V c main_call0_v4 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * q.val = t.val * 512 + q.val; omega
  rw [View.read_apply]
  show _ = hiddenOf (V c main_call0_v3) (V c main_arg3) (V c main_call0_v4) (((cfg1.win 3).blk t).view.emb (ix2 p q))
  rw [hemb, r2, Finset.sum_congr rfl (fun k _ => by rw [r0 k, r1 k])]
  rfl

/-- An index of the array is in point `t`'s tile iff each coordinate is in the tile's range on its axis. -/
theorem mem_tile1 (t : Fin cfg1.N) (i : S128x2048.Idx) :
    i ∈ ((cfg1.win 3).blk t).view.set ↔ ∀ a : Fin 2, win1_3.index t a * S128x512.size a ≤ (i a).val ∧ (i a).val < win1_3.index t a * S128x512.size a + S128x512.size a := by
  show i ∈ ((View.whole main_call0_v5).slice (win1_3.rect t)).set ↔ _
  rw [View.set_slice_whole, Rect.mem_set_unit]
  exact Iff.rfl

/-- Column `j` lies in tile `j / 512`: the four tiles cover the array. -/
theorem hidden_cover (i : S128x2048.Idx) :
    ∃ t : Fin cfg1.N, (cfg1.win 3).flush t = true ∧ i ∈ ((cfg1.win 3).blk t).view.set := by
  have h0 : (i 0).val < 128 := (i 0).isLt
  have h1 : (i 1).val < 2048 := (i 1).isLt
  have hN : grid1.N = 4 := N_1
  have hlt : (i 1).val / 512 < grid1.N := by omega
  obtain ⟨e00, e01, e10, e11, e20, e21, e30, e31, ht⟩ := tiles1 ⟨(i 1).val / 512, hlt⟩
  refine ⟨⟨(i 1).val / 512, hlt⟩, flush1_3 _, ?_⟩
  rw [mem_tile1]
  intro a
  match a with
  | ⟨0, _⟩ =>
    show win1_3.index ⟨(i 1).val / 512, hlt⟩ (0 : Fin 2) * 128 ≤ (i 0).val ∧ (i 0).val < win1_3.index ⟨(i 1).val / 512, hlt⟩ (0 : Fin 2) * 128 + 128
    omega
  | ⟨1, _⟩ =>
    show win1_3.index ⟨(i 1).val / 512, hlt⟩ (1 : Fin 2) * 512 ≤ (i 1).val ∧ (i 1).val < win1_3.index ⟨(i 1).val / 512, hlt⟩ (1 : Fin 2) * 512 + 512
    have e : win1_3.index ⟨(i 1).val / 512, hlt⟩ (1 : Fin 2) = (i 1).val / 512 := e31
    omega

/-- THE HIDDEN LAYER'S ARRAY after the call: `hiddenOf` of the three arrays the call reads. -/
theorem hidden_array (c : Dev nD) :
    (dat1 V c).arrAt 3 cfg1.N = hiddenOf (V c main_call0_v3) (V c main_arg3) (V c main_call0_v4) :=
  (dat1 V c).arrAt_eq_of_cover 3 _ (fun t _ => hidden_tile V c t) hidden_cover

end Cert.KernelIdeal.Hand

end
-- ==== Proof.KI.Value2.lean ====
/-
  The output layer after its call: every entry (p, q) of the result is Σ_k h[p, k] · W2[k, q] + b2[0, q] of the three
  arrays the call reads. Each grid point writes one column tile of 256 of that function — the last tile only its 200
  columns inside the array: the write-back is cut there, and a kept column reads its own column of the weight's and
  the bias's blocks, which the cut fetches did move — and the six tiles cover the 1480 columns.
-/
import proofs.«105144_g2000002570731441_pallasbulk_209_2_alg».proof.Proof.KI.Region2
import proofs.«105144_g2000002570731441_pallasbulk_209_2_alg».proof.Proof.Val.KIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b))

/-- The output layer as one function of the hidden, weight and bias arrays. -/
def outOf (H : S128x2048.Idx → EReal) (W : S2048x1480.Idx → EReal) (B : S1x1480.Idx → EReal) : S128x1480.Idx → EReal :=
  fun i => Cert.Spec.out H W B (i 0) (i 1)

/-- The printed index maps and the cuts over the six grid points: the hidden activations' block never moves; the
    weight's, the bias's and the result's blocks sit at column tile `t`; the result's tile keeps all its 128 rows and
    its columns inside the array, 256 of them but for the last tile's 200. -/
theorem tiles2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = t.val ∧ t.val < 6
    ∧ win2_3.xsize (grid2.coords t) (0 : Fin 2) = 128
    ∧ (t.val < 5 → win2_3.xsize (grid2.coords t) (1 : Fin 2) = 256)
    ∧ (¬t.val < 5 → win2_3.xsize (grid2.coords t) (1 : Fin 2) = 200) :=
  (by decide +kernel : ∀ t : Fin grid2.N, _)

/-- A block filled out past the array's end reads, at an index the transfer moves, the block's part inside the array. -/
theorem fill_of_lt {G : Pipeline.Grid} (w : Pipeline.Window sig G) {α : Type} (i : G.Coords) (d : w.block.Idx → α)
    (g : (w.xblock i).Idx → α) (y : w.block.Idx) (h : ∀ a, (y a).val < w.xsize i a) :
    w.fill i d g y = g fun a => ⟨(y a).val, h a⟩ := by
  unfold Pipeline.Window.fill
  rw [dif_pos ((w.moved_iff i y).mpr h)]

/-- A row-against-column term over blocks is the output layer's entry, once each block entry it reads is the array's
    entry the layer reads there. -/
theorem out_of_reads (H : S128x2048.Idx → EReal) (W : S2048x1480.Idx → EReal) (B : S1x1480.Idx → EReal)
    (x0 : S128x2048.Idx → EReal) (x1 : S2048x256.Idx → EReal) (x2 : S1x256.Idx → EReal)
    (p : Fin 128) (q : Fin 256) (p' : Fin 128) (q' : Fin 1480)
    (h0 : ∀ k : Fin 2048, x0 (ix2 p k) = H (ix2 p' k)) (h1 : ∀ k : Fin 2048, x1 (ix2 k q) = W (ix2 k q'))
    (h2 : x2 (ix2 (0 : Fin 1) q) = B (ix2 (0 : Fin 1) q')) :
    (∑ k : Fin 2048, x0 (ix2 p k) * x1 (ix2 k q)) + x2 (ix2 (0 : Fin 1) q) = Cert.Spec.out H W B p' q' := by
  unfold Cert.Spec.out Cert.Spec.dense
  rw [h2]
  exact congrArg (fun z => z + B (ix2 (0 : Fin 1) q')) (Finset.sum_congr rfl fun k _ => by rw [h0 k, h1 k])

/-- The part inside the array of what the body computes at point `t` from the blocks as fetched — the weight's and the
    bias's filled out past the array's end with anything — is column tile `t` of `outOf` of the arrays as the call
    finds them: a kept column reads its own column of the weight and of the bias, which is inside their arrays. -/
theorem out_tile_core (c : Dev nD) (t : Fin cfg2.N) (d1 : Vec Ideal S2048x256 .f32) (d2 : Vec Ideal S1x256 .f32) :
    win2_3.cut (grid2.coords t)
      (k2_pay1 (F := Ideal)
        (win2_1.fill (grid2.coords t) d1 (((cfg2.win 1).blk t).view.read (Elt Ideal) (V c main_arg5)))
        (((cfg2.win 0).blk t).view.read (Elt Ideal) (V c main_call0_v5))
        (win2_2.fill (grid2.coords t) d2 (((cfg2.win 2).blk t).view.read (Elt Ideal) (V c main_call0_v6))))
      = ((cfg2.win 3).blk t).view.read (Elt Ideal) (outOf (V c main_call0_v5) (V c main_arg5) (V c main_call0_v6)) := by
  obtain ⟨e00, e01, e10, e11, e20, e21, e30, e31, ht, -, -, -⟩ := tiles2 t
  funext j
  have hj1 : (j 1).val < win2_3.xsize (grid2.coords t) 1 := (j 1).isLt
  show k2_pay1 _ _ _ (win2_3.xinj (grid2.coords t) j) = _
  rw [eq_ix2 (n0 := 128) (n1 := 256) (win2_3.xinj (grid2.coords t) j)]
  refine (Cert.KernelIdeal.Pay.k2_pay1_apply _ _ _ _ _).trans ?_
  rw [View.read_apply]
  show _ = Cert.Spec.out (V c main_call0_v5) (V c main_arg5) (V c main_call0_v6)
    ((((cfg2.win 3).blk t).view.emb j) 0) ((((cfg2.win 3).blk t).view.emb j) 1)
  refine out_of_reads _ _ _ _ _ _ _ _ _ _ (fun k => ?_) (fun k => ?_) ?_
  · show V c main_call0_v5 (((cfg2.win 0).blk t).view.emb (ix2 ((win2_3.xinj (grid2.coords t) j) 0) k)) = V c main_call0_v5 _
    refine congrArg _ (funext fun a => Fin.ext ?_)
    match a with
    | ⟨0, _⟩ => show win2_0.index t (0 : Fin 2) * 128 + 1 * (j 0).val = win2_3.index t (0 : Fin 2) * 128 + 1 * (j 0).val; rw [e00, e30]
    | ⟨1, _⟩ => show win2_0.index t (1 : Fin 2) * 2048 + 1 * k.val = k.val; rw [e01]; omega
  · rw [fill_of_lt win2_1 (grid2.coords t) d1 _ (ix2 k ((win2_3.xinj (grid2.coords t) j) 1)) (fun a => by
      match a with
      | ⟨0, _⟩ => exact k.isLt
      | ⟨1, _⟩ => exact hj1)]
    show V c main_arg5 (((cfg2.win 1).blk t).view.emb _) = V c main_arg5 _
    refine congrArg _ (funext fun a => Fin.ext ?_)
    match a with
    | ⟨0, _⟩ => show win2_1.index t (0 : Fin 2) * 2048 + 1 * k.val = k.val; rw [e10]; omega
    | ⟨1, _⟩ => show win2_1.index t (1 : Fin 2) * 256 + 1 * (j 1).val = win2_3.index t (1 : Fin 2) * 256 + 1 * (j 1).val; rw [e11, e31]
  · rw [fill_of_lt win2_2 (grid2.coords t) d2 _ (ix2 (0 : Fin 1) ((win2_3.xinj (grid2.coords t) j) 1)) (fun a => by
      match a with
      | ⟨0, _⟩ => exact Nat.zero_lt_one
      | ⟨1, _⟩ => exact hj1)]
    show V c main_call0_v6 (((cfg2.win 2).blk t).view.emb _) = V c main_call0_v6 _
    refine congrArg _ (funext fun a => Fin.ext ?_)
    match a with
    | ⟨0, _⟩ => show win2_2.index t (0 : Fin 2) * 1 + 1 * 0 = 0; rw [e20]
    | ⟨1, _⟩ => show win2_2.index t (1 : Fin 2) * 256 + 1 * (j 1).val = win2_3.index t (1 : Fin 2) * 256 + 1 * (j 1).val; rw [e21, e31]

/-- An index of the result is in point `t`'s tile iff each coordinate is inside the tile's part of the array on its axis. -/
theorem mem_tile2 (t : Fin cfg2.N) (i : S128x1480.Idx) :
    i ∈ ((cfg2.win 3).blk t).view.set ↔ ∀ a : Fin 2, win2_3.index t a * S128x256.size a ≤ (i a).val
      ∧ (i a).val < win2_3.index t a * S128x256.size a + win2_3.xsize (grid2.coords t) a := by
  show i ∈ ((View.whole main_call0_v7).slice (win2_3.rect t)).set ↔ _
  rw [View.set_slice_whole, Rect.mem_set_unit]
  exact Iff.rfl

/-- The six column tiles cover the 1480 columns: column `j` lies in tile `j / 256`, the last tile holding the 200
    columns from 1280 on. -/
theorem out_cover (i : S128x1480.Idx) :
    ∃ t : Fin cfg2.N, (cfg2.win 3).flush t = true ∧ i ∈ ((cfg2.win 3).blk t).view.set := by
  have h0 : (i 0).val < 128 := (i 0).isLt
  have h1 : (i 1).val < 1480 := (i 1).isLt
  have hN : grid2.N = 6 := N_2
  have hlt : (i 1).val / 256 < grid2.N := by omega
  obtain ⟨-, -, -, -, -, -, e30, e31, -, x0, x1, x1'⟩ := tiles2 ⟨(i 1).val / 256, hlt⟩
  refine ⟨⟨(i 1).val / 256, hlt⟩, flush2_3 _, ?_⟩
  rw [mem_tile2]
  intro a
  match a with
  | ⟨0, _⟩ =>
    show win2_3.index ⟨(i 1).val / 256, hlt⟩ (0 : Fin 2) * 128 ≤ (i 0).val
      ∧ (i 0).val < win2_3.index ⟨(i 1).val / 256, hlt⟩ (0 : Fin 2) * 128 + win2_3.xsize (grid2.coords ⟨(i 1).val / 256, hlt⟩) (0 : Fin 2)
    rw [e30, x0]; omega
  | ⟨1, _⟩ =>
    show win2_3.index ⟨(i 1).val / 256, hlt⟩ (1 : Fin 2) * 256 ≤ (i 1).val
      ∧ (i 1).val < win2_3.index ⟨(i 1).val / 256, hlt⟩ (1 : Fin 2) * 256 + win2_3.xsize (grid2.coords ⟨(i 1).val / 256, hlt⟩) (1 : Fin 2)
    have e : win2_3.index ⟨(i 1).val / 256, hlt⟩ (1 : Fin 2) = (i 1).val / 256 := e31
    rw [e]
    by_cases h5 : (i 1).val / 256 < 5
    · rw [x1 h5]; omega
    · rw [x1' h5]; omega

/-- What grid point `t` writes back is column tile `t` of `outOf` of the arrays as the call finds them. -/
theorem out_tile (c : Dev nD) (t : Fin cfg2.N) :
    (dat2 V c).flushed 3 t = ((cfg2.win 3).blk t).view.read (Elt Ideal)
      (outOf (V c main_call0_v5) (V c main_arg5) (V c main_call0_v6)) := by
  rw [flushed2_3]
  unfold wblk2 bblk2 blk2
  exact out_tile_core V c t _ _

/-- The output layer's array after the call: `outOf` of the three arrays the call reads. -/
theorem out_array (c : Dev nD) :
    (dat2 V c).arrAt 3 cfg2.N = outOf (V c main_call0_v5) (V c main_arg5) (V c main_call0_v6) :=
  (dat2 V c).arrAt_eq_of_cover 3 _ (fun t _ => out_tile V c t) out_cover

end Cert.KernelIdeal.Hand

end
-- ==== Proof.KI.Chain.lean ====
/-
  The arrays each call reads, traced back to the arguments: every host operation of @main is a reshape, so the array a call
  finds in one of its windows is a reshape of an argument, an argument itself, or a reshape of the previous call's result.
  With the three calls' result arrays (the pooled array, the hidden layer, the output layer, each one function of the arrays
  its call reads) this gives the program's result as one term of the seven arguments.
-/
import proofs.«105144_g2000002570731441_pallasbulk_209_2_alg».proof.Proof.KI.Run
import proofs.«105144_g2000002570731441_pallasbulk_209_2_alg».proof.Proof.KI.Value0
import proofs.«105144_g2000002570731441_pallasbulk_209_2_alg».proof.Proof.KI.Value1
import proofs.«105144_g2000002570731441_pallasbulk_209_2_alg».proof.Proof.KI.Value2
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What the first call reads -/

/-- The feature array as the first call finds it: the argument with its two spatial axes merged. -/
theorem in0_x (c : Dev nD) : U1 m c main_call0_v0
    = shapeCast S128x512x225 (m ((c : Thread nD τ).loc main_arg0)) shapeCasts_S128x512x9x25_S128x512x225 := by
  show StableHlo.after hostOps0 (W0 m c) (Proc.devRef .tc main_call0_v0) = _
  after_results
  rfl
/-- The bias as the first call finds it: the argument as a column. -/
theorem in0_b (c : Dev nD) : U1 m c main_call0_v1
    = shapeCast S8x1 (m ((c : Thread nD τ).loc main_arg2)) shapeCasts_S8_S8x1 := by
  show StableHlo.after hostOps0 (W0 m c) (Proc.devRef .tc main_call0_v1) = _
  after_results
  rfl
/-- The weight is the argument. -/
theorem in0_w (c : Dev nD) : U1 m c main_arg1 = m ((c : Thread nD τ).loc main_arg1) :=
  calc W1 m c (Proc.devRef .tc main_arg1)
    _ = W0 m c (Proc.devRef .tc main_arg1) := StableHlo.after_of_writes_sub hostOps0 _ hostOps0_writes (by decide)
    _ = m ((c : Thread nD τ).loc main_arg1) := rfl

/-! ## What the second call reads -/

/-- The activation as the second call finds it: the first call's result with channel and position merged. -/
theorem in1_x (c : Dev nD) : U3 m c main_call0_v3
    = shapeCast S128x1800 ((dat0 (U1 m) c).arrAt 3 cfg0.N) shapeCasts_S128x8x225_S128x1800 := by
  have e : U3 m c main_call0_v3 = shapeCast S128x1800 (W2 m c (Proc.devRef .tc main_call0_v2)) shapeCasts_S128x8x225_S128x1800 := by
    show StableHlo.after hostOps1 (W2 m c) (Proc.devRef .tc main_call0_v3) = _
    after_results
    rfl
  rw [e]
  exact congrArg (fun z => shapeCast S128x1800 z shapeCasts_S128x8x225_S128x1800) (W2_arr m c 3)
theorem W2_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
/-- The first bias as the second call finds it: the argument as a row. -/
theorem in1_b (c : Dev nD) : U3 m c main_call0_v4
    = shapeCast S1x2048 (m ((c : Thread nD τ).loc main_arg4)) shapeCasts_S2048_S1x2048 := by
  have e : U3 m c main_call0_v4 = shapeCast S1x2048 (W2 m c (Proc.devRef .tc main_arg4)) shapeCasts_S2048_S1x2048 := by
    show StableHlo.after hostOps1 (W2 m c) (Proc.devRef .tc main_call0_v4) = _
    after_results
    rfl
  rw [e]
  exact congrArg (fun z => shapeCast S1x2048 z shapeCasts_S2048_S1x2048) (W2_arg4 m c)
/-- The first weight is the argument. -/
theorem in1_w (c : Dev nD) : U3 m c main_arg3 = m ((c : Thread nD τ).loc main_arg3) :=
  calc W3 m c (Proc.devRef .tc main_arg3)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## What the third call reads -/

/-- The hidden layer as the third call finds it: the second call's result. -/
theorem in2_x (c : Dev nD) : U5 m c main_call0_v5 = (dat1 (U3 m) c).arrAt 3 cfg1.N :=
  calc W5 m c (Proc.devRef .tc main_call0_v5)
    _ = W4 m c (Proc.devRef .tc main_call0_v5) := StableHlo.after_of_writes_sub hostOps2 _ hostOps2_writes (by decide)
    _ = (dat1 (U3 m) c).arrAt 3 cfg1.N := W4_arr m c 3
theorem W4_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
/-- The second bias as the third call finds it: the argument as a row. -/
theorem in2_b (c : Dev nD) : U5 m c main_call0_v6
    = shapeCast S1x1480 (m ((c : Thread nD τ).loc main_arg6)) shapeCasts_S1480_S1x1480 := by
  have e : U5 m c main_call0_v6 = shapeCast S1x1480 (W4 m c (Proc.devRef .tc main_arg6)) shapeCasts_S1480_S1x1480 := by
    show StableHlo.after hostOps2 (W4 m c) (Proc.devRef .tc main_call0_v6) = _
    after_results
    rfl
  rw [e]
  exact congrArg (fun z => shapeCast S1x1480 z shapeCasts_S1480_S1x1480) (W4_arg6 m c)
/-- The second weight is the argument. -/
theorem in2_w (c : Dev nD) : U5 m c main_arg5 = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The result -/

/-- The program's result: the third call's result array with its columns split into three axes. -/
theorem result_reshape (c : Dev nD) : W7 m c (Proc.devRef .tc main_v0)
    = shapeCast S128x37x10x4 ((dat2 (U5 m) c).arrAt 3 cfg2.N) shapeCasts_S128x1480_S128x37x10x4 := by
  have e : W7 m c (Proc.devRef .tc main_v0) = shapeCast S128x37x10x4 (W6 m c (Proc.devRef .tc main_call0_v7)) shapeCasts_S128x1480_S128x37x10x4 := by
    show StableHlo.after hostOps3 (W6 m c) (Proc.devRef .tc main_v0) = _
    after_results
    rfl
  rw [e]
  exact congrArg (fun z => shapeCast S128x37x10x4 z shapeCasts_S128x1480_S128x37x10x4) (W6_arr m c 3)

end Cert.KernelIdeal.Hand

end
-- ==== Proof.KI.Result.lean ====
/-
  The program's result as ONE term of its seven arguments, at the exact instance: the output layer of the hidden layer of
  the pooled features, each stage the function its call computes (a row against a column plus a bias; the hidden layer
  clamped below by zero), the arrays between the stages re-laid by the host's reshapes.
-/
import proofs.«105144_g2000002570731441_pallasbulk_209_2_alg».proof.Proof.KI.Chain

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The network of the seven argument arrays of core `c`. -/
def netOf (c : Dev nD) : Buf (Elt Ideal) ((c : Thread nD τ).loc main_v0) :=
  shapeCast S128x37x10x4
    (outOf
      (hiddenOf
        (shapeCast S128x1800
          (poolOf (shapeCast S128x512x225 (m ((c : Thread nD τ).loc main_arg0)) shapeCasts_S128x512x9x25_S128x512x225)
            (m ((c : Thread nD τ).loc main_arg1))
            (shapeCast S8x1 (m ((c : Thread nD τ).loc main_arg2)) shapeCasts_S8_S8x1))
          shapeCasts_S128x8x225_S128x1800)
        (m ((c : Thread nD τ).loc main_arg3))
        (shapeCast S1x2048 (m ((c : Thread nD τ).loc main_arg4)) shapeCasts_S2048_S1x2048))
      (m ((c : Thread nD τ).loc main_arg5))
      (shapeCast S1x1480 (m ((c : Thread nD τ).loc main_arg6)) shapeCasts_S1480_S1x1480))
    shapeCasts_S128x1480_S128x37x10x4

/-- What the result buffer holds at the end of the run is the network of the arguments. -/
theorem result_value (c : Dev nD) : W7 m c (Proc.devRef .tc main_v0) = netOf m c := by
  unfold netOf
  rw [result_reshape, out_array, in2_x, in2_w, in2_b, hidden_array, in1_x, in1_w, in1_b, pool_array, in0_x, in0_w, in0_b]

end Cert.KernelIdeal.Hand

end
-- ==== Proof.KI.Region2Ideal.lean ====
/-
  The payload of `cc2__linear_kernel` at the exact values: element `(i, j)` of `h · w + b` is the sum over the
  contraction of `h`'s row `i` times `w`'s column `j`, plus `b` at `j` (`pay2_apply`) — so it reads of the weights
  and of the bias their column `j` and nothing else (`payLocal2_ideal`: the column locality region 2's body obligation
  takes as a hypothesis, stated here with the hypothesis's definition unfolded).
-/
import proofs.«105144_g2000002570731441_pallasbulk_209_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic
open Idealize.ShloMosaic.ValueIdx (ix2 eq_ix2)
open scoped BigOperators

/-- At the exact values, element `(i, j)` of the payload is the sum over the contraction of the operand's row `i` times
    the weights' column `j`, plus the bias at `j`: the product is the exact contraction, the change of format the
    identity, the shape casts are to the same shapes and the broadcast repeats the bias's one row. -/
theorem pay2_apply (v0 : FVec Ideal S2048x256 .f32) (v2 : FVec Ideal S128x2048 .bf16) (v5 : FVec Ideal S1x256 .f32)
    (i : Fin 128) (j : Fin 256) :
    k2_pay1 (F := Ideal) v0 v2 v5 (ix2 i j)
      = ((∑ k : dot_S128x2048_S2048x256_S128x256_1_0_0_1_n_n.contr.Idx,
            (v2 (dot_S128x2048_S2048x256_S128x256_1_0_0_1_n_n.lhsIdx (ix2 i j) k) : EReal)
              * (v0 (ix2 ((dot_S128x2048_S2048x256_S128x256_1_0_0_1_n_n.rhsIdx (ix2 i j) k) 0) j) : EReal))
        + (v5 (ix2 (0 : Fin 1) j) : EReal) : EReal) := by
  have hb : broadcastTo S128x256 (shapeCast S1x256 v5 shapeCasts_S1x256_S1x256) broadcasts_S1x256_S128x256 (ix2 i j)
      = v5 (ix2 (0 : Fin 1) j) := by
    rw [shapeCast_self]; unfold broadcastTo; refine congrArg v5 ?_
    funext a; match a with | ⟨0, _⟩ => rfl | ⟨1, _⟩ => rfl
  have hm : FloatOps.matmul (F := Ideal) dot_S128x2048_S2048x256_S128x256_1_0_0_1_n_n none
        (shapeCast S128x2048 v2 shapeCasts_S128x2048_S128x2048) (truncf .bf16 v0 bitsLt_bf16_f32)
        (constant (F := Ideal) S128x256 .f32 0x00000000#32) (ix2 i j)
      = ∑ k : dot_S128x2048_S2048x256_S128x256_1_0_0_1_n_n.contr.Idx,
          (v2 (dot_S128x2048_S2048x256_S128x256_1_0_0_1_n_n.lhsIdx (ix2 i j) k) : EReal)
            * (v0 (ix2 ((dot_S128x2048_S2048x256_S128x256_1_0_0_1_n_n.rhsIdx (ix2 i j) k) 0) j) : EReal) := by
    rw [Ideal.matmul_constant_zero_apply, shapeCast_self]
    refine Finset.sum_congr rfl fun k _ => ?_
    refine congrArg ((v2 _ : EReal) * ·) ?_
    show v0 (dot_S128x2048_S2048x256_S128x256_1_0_0_1_n_n.rhsIdx (ix2 i j) k) = _
    refine congrArg v0 ?_
    exact (eq_ix2 _).trans (congrArg (ix2 _) (Fin.ext rfl))
  show FloatOps.addf (F := Ideal) (FloatOps.matmul (F := Ideal) dot_S128x2048_S2048x256_S128x256_1_0_0_1_n_n none
        (shapeCast S128x2048 v2 shapeCasts_S128x2048_S128x2048) (truncf .bf16 v0 bitsLt_bf16_f32)
        (constant (F := Ideal) S128x256 .f32 0x00000000#32) (ix2 i j))
      (broadcastTo S128x256 (shapeCast S1x256 v5 shapeCasts_S1x256_S1x256) broadcasts_S1x256_S128x256 (ix2 i j)) = _
  rw [hm, hb]; rfl

/-- COLUMN LOCALITY of the payload at the exact values: element `(i, j)` reads of the weights and of the bias their
    column `j` and nothing else. -/
theorem payLocal2_ideal (v0 v0' : Vec Ideal S2048x256 .f32) (v2 : Vec Ideal S128x2048 .bf16) (v5 v5' : Vec Ideal S1x256 .f32)
    (i : Fin 128) (j : Fin 256) (h0 : ∀ k : Fin 2048, v0 (ix2 k j) = v0' (ix2 k j))
    (h5 : v5 (ix2 (0 : Fin 1) j) = v5' (ix2 (0 : Fin 1) j)) :
    k2_pay1 v0 v2 v5 (ix2 i j) = k2_pay1 v0' v2 v5' (ix2 i j) := by
  refine (pay2_apply v0 v2 v5 i j).trans (Eq.trans ?_ (pay2_apply v0' v2 v5' i j).symm)
  refine congrArg₂ (· + ·) (Finset.sum_congr rfl fun k _ => ?_) h5
  exact congrArg ((v2 _ : EReal) * ·) (h0 _)

end Cert.KernelIdeal.Hand
end
-- ==== Proof.RI.Region0.lean ====
/-
  The reference's pooling call (its first pallas_call): a 1 x 1 convolution from 512 channels to 8, one batch row per grid
  point (128 points). The body reads the row's feature slab (1 x 512 x 225), the weight (8 x 512) and the bias (8 x 1) and
  stores W · slab + bias into the row's slab (1 x 8 x 225) of the result, whole.
  This module states what the body leaves in the result's staging buffer as a function of the three blocks it
  read, proves the body's triple, and packages the call's proof data at an arbitrary entry valuation `V`.
-/
import proofs.«105144_g2000002570731441_pallasbulk_209_2_alg».proof.Proof.Gen.ReferenceIdeal.Launch
import proofs.«105144_g2000002570731441_pallasbulk_209_2_alg».proof.Proof.Gen.ReferenceIdeal.Skeleton
import proofs.«105144_g2000002570731441_pallasbulk_209_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, the body's result, the body's triple -/

/-- Window `w`'s block at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangle of each staging buffer. -/
abbrev whole0_0 : Rect S1x512x225 := Rect.unit (s := S1x512x225) ![0, 0, 0] S1x512x225.size inb_S1x512x225_S1x512x225_0_0_0
abbrev whole0_1 : Rect S8x512 := Rect.unit (s := S8x512) ![0, 0] S8x512.size inb_S8x512_S8x512_0_0
abbrev whole0_2 : Rect S8x1 := Rect.unit (s := S8x1) ![0, 0] S8x1.size inb_S8x1_S8x1_0_0
abbrev whole0_3 : Rect S1x8x225 := Rect.unit (s := S1x8x225) ![0, 0, 0] S1x8x225.size inb_S1x8x225_S1x8x225_0_0_0

/-- The result slab the body stores, from the feature slab `x0`, the weight `x1` and the bias `x2`: one whole store of W · x + bias. -/
def pool0 (x0 : Vec F S1x512x225 .f32) (x1 : Vec F S8x512 .f32) (x2 : Vec F S8x1 .f32) : Vec F S1x8x225 .f32 :=
  View.canon [⟨whole0_3, k0_pay1 (View.ld x1 whole0_1) (View.ld x0 whole0_0) (View.ld x2 whole0_2)⟩]

/-- The one store fills the buffer. -/
theorem pool0_cover (p : Vec F S1x8x225 .f32) (y : S1x8x225.Idx) :
    ∃ pc ∈ ([⟨whole0_3, p⟩] : List (View.Piece (Elt F) S1x8x225 .f32)), y ∈ pc.1.set :=
  View.cover_of_tiled [⟨whole0_3, p⟩] S1x8x225.size (by rfl) y

set_option maxHeartbeats 1000000 in
/-- The body on whole staging buffers: the three inputs are read and left as they were, the result's buffer ends at `pool0`. -/
theorem body0_triple (c : Dev nD) (E : Set ℕ) (i : grid0.Coords)
    (a1 : Memref sig .tc .vmem S1x512x225 .f32) (h1 : a1.IsWhole) (a2 : Memref sig .tc .vmem S8x512 .f32) (h2 : a2.IsWhole)
    (a3 : Memref sig .tc .vmem S8x1 .f32) (h3 : a3.IsWhole) (a4 : Memref sig .tc .vmem S1x8x225 .f32) (h4 : a4.IsWhole)
    (x0 : Vec F S1x512x225 .f32) (x1 : Vec F S8x512 .f32) (x2 : Vec F S8x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (pool0 x0 x1 x2)) -∗ K ⟨⟩))
      ⊢ wp frame (wpE (defs₀ (F := F)) Variants.none c none) E (cc0_pool_conv1x1_kernel i a1 h1 a2 h2 a3 h3 a4 h4) K := by
  simp only [cc0_pool_conv1x1_kernel_eq_skeleton]; unfold cc0_pool_conv1x1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (pool0_cover _)

/-! ## The call's proof data -/

/-- The proof data of the call on core `c`: the arrays as the call finds them; after the body at point `t` each input's
    buffer still at its block and the result's buffer at `pool0` of the three blocks; the invariant is the scoped rest and
    the generator register, untouched; nothing is owed; every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => pool0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = pool0 (blk0 V c 0 t) (blk0 V c 1 t) (blk0 V c 2 t) := by dsimp only [dat0]

/-- Each input's current staging buffer holds its block at every point, whether the point fetched it or an earlier one did
    (the block index has not moved since). -/
theorem found0_0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [dat0_after2]; unfold Dat.blockOf blk0; rw [dat0_A]; try rfl) t d).trans
    (by unfold Dat.fetched Dat.blockOf blk0; rw [dat0_A]; try rfl)

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body0_obligation (c : Dev nD) : BodyObligation (dat0 (F := F) V c) (defs₀ (F := F)) Variants.none () Set.univ := fun t => by
  rw [bigSep_W0, bigSep_W0]
  exact body0_at V c t

end Cert.ReferenceIdeal.Hand

end
-- ==== Proof.RI.Region1.lean ====
/-
  The reference's hidden layer (its second pallas_call): h = relu(xf · W1 + b1), in four column tiles of 512. At each grid
  point the body reads the whole activation matrix (128 x 1800, resident), one column tile of the weight (1800 x 512) and of
  the bias (1 x 512), and stores the tile of the result (128 x 512) whole.
  This module states what the body leaves in the result's staging buffer as a function of the three blocks it
  read, proves the body's triple, and packages the call's proof data at an arbitrary entry valuation `V`.
-/
import proofs.«105144_g2000002570731441_pallasbulk_209_2_alg».proof.Proof.Gen.ReferenceIdeal.Launch
import proofs.«105144_g2000002570731441_pallasbulk_209_2_alg».proof.Proof.Gen.ReferenceIdeal.Skeleton
import proofs.«105144_g2000002570731441_pallasbulk_209_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, the body's result, the body's triple -/

/-- Window `w`'s block at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole rectangle of each staging buffer. -/
abbrev whole1_0 : Rect S128x1800 := Rect.unit (s := S128x1800) ![0, 0] S128x1800.size inb_S128x1800_S128x1800_0_0
abbrev whole1_1 : Rect S1800x512 := Rect.unit (s := S1800x512) ![0, 0] S1800x512.size inb_S1800x512_S1800x512_0_0
abbrev whole1_2 : Rect S1x512 := Rect.unit (s := S1x512) ![0, 0] S1x512.size inb_S1x512_S1x512_0_0
abbrev whole1_3 : Rect S128x512 := Rect.unit (s := S128x512) ![0, 0] S128x512.size inb_S128x512_S128x512_0_0

/-- The result tile the body stores, from the activation block `x0`, the weight tile `x1` and the bias tile `x2`: one whole store of relu(x · w + b). -/
def hid1 (x0 : Vec F S128x1800 .f32) (x1 : Vec F S1800x512 .f32) (x2 : Vec F S1x512 .f32) : Vec F S128x512 .f32 :=
  View.canon [⟨whole1_3, k1_pay1 (View.ld x0 whole1_0) (View.ld x1 whole1_1) (View.ld x2 whole1_2)⟩]

/-- The one store fills the buffer. -/
theorem hid1_cover (p : Vec F S128x512 .f32) (y : S128x512.Idx) :
    ∃ pc ∈ ([⟨whole1_3, p⟩] : List (View.Piece (Elt F) S128x512 .f32)), y ∈ pc.1.set :=
  View.cover_of_tiled [⟨whole1_3, p⟩] S128x512.size (by rfl) y

set_option maxHeartbeats 1000000 in
/-- The body on whole staging buffers: the three inputs are read and left as they were, the result's buffer ends at `hid1`. -/
theorem body1_triple (c : Dev nD) (E : Set ℕ) (i : grid1.Coords)
    (a1 : Memref sig .tc .vmem S128x1800 .f32) (h1 : a1.IsWhole) (a2 : Memref sig .tc .vmem S1800x512 .f32) (h2 : a2.IsWhole)
    (a3 : Memref sig .tc .vmem S1x512 .f32) (h3 : a3.IsWhole) (a4 : Memref sig .tc .vmem S128x512 .f32) (h4 : a4.IsWhole)
    (x0 : Vec F S128x1800 .f32) (x1 : Vec F S1800x512 .f32) (x2 : Vec F S1x512 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (hid1 x0 x1 x2)) -∗ K ⟨⟩))
      ⊢ wp frame (wpE (defs₀ (F := F)) Variants.none c none) E (cc1_linear_kernel i a1 h1 a2 h2 a3 h3 a4 h4) K := by
  simp only [cc1_linear_kernel_eq_skeleton]; unfold cc1_linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hid1_cover _)

/-! ## The call's proof data -/

/-- The proof data of the call on core `c`: the arrays as the call finds them; after the body at point `t` each input's
    buffer still at its block and the result's buffer at `hid1` of the three blocks; the invariant is the scoped rest and
    the generator register, untouched; nothing is owed; every array is held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hid1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = hid1 (blk1 V c 0 t) (blk1 V c 1 t) (blk1 V c 2 t) := by dsimp only [dat1]

/-- Each input's current staging buffer holds its block at every point, whether the point fetched it or an earlier one did
    (the block index has not moved since). -/
theorem found1_0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body1_obligation (c : Dev nD) : BodyObligation (dat1 (F := F) V c) (defs₀ (F := F)) Variants.none () Set.univ := fun t => by
  rw [bigSep_W1, bigSep_W1]
  exact body1_at V c t

end Cert.ReferenceIdeal.Hand

end
-- ==== Proof.RI.Region2.lean ====
/-
  The reference's output layer (its third pallas_call): out = h · W2 + b2, in three column tiles of 512 over 1480 columns.
  At each grid point the body reads the whole hidden activation (128 x 2048, resident), one column tile of the weight
  (2048 x 512) and of the bias (1 x 512), and stores the tile of the result (128 x 512) whole. Three tiles of 512 are
  1536 columns: the last tile overhangs the arrays by 56 columns, so at the last point the weight's, the bias's and the
  result's blocks are cut at column 456; the fetches fill only that part of the staging buffers and the write-back moves
  only that part of the result's. What lies past the cut in the weight's and the bias's buffers is whatever was there, and
  the body's matrix product reads it; the columns of the result inside the array do not depend on it where a column of the
  product reads only the same column of the right operand and of the bias (`PayLocal2`), which is what the proof of the
  body obligation takes as a hypothesis on the float instance.
-/
import proofs.«105144_g2000002570731441_pallasbulk_209_2_alg».proof.Proof.Gen.ReferenceIdeal.Launch
import proofs.«105144_g2000002570731441_pallasbulk_209_2_alg».proof.Proof.Gen.ReferenceIdeal.Skeleton
import proofs.«105144_g2000002570731441_pallasbulk_209_2_alg».proof.Proof.Gen.ReferenceIdeal.Points
import Idealize.ShloMosaic.Lib.Pipeline.FrameBody
import Idealize.ShloMosaic.Lib.Pipeline.Value
import Idealize.ShloMosaic.Lib.Pipeline.Kit
import Idealize.ShloMosaic.Lib.Tactic
import Idealize.ShloMosaic.Lib.ValueIdx

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: the block's part inside the
    array (for the last point of windows 1, 2, 3 the first 456 of its 512 columns). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The word a block cut at the array's end is filled out with past that end: the zero word. No column of the result
    inside the array reads it. -/
def pad2 : Elt F .f32 := Scalar.ofBits .f32 0#32

/-- The weight's block at point `t` as a whole staging block: its part inside the array, filled out. -/
def wblk2 (c : Dev nD) (t : Fin cfg2.N) : Vec F S2048x512 .f32 :=
  win2_1.fill (grid2.coords t) (fun _ => pad2) (blk2 V c 1 t)

/-- The bias's block likewise. -/
def bblk2 (c : Dev nD) (t : Fin cfg2.N) : Vec F S1x512 .f32 :=
  win2_2.fill (grid2.coords t) (fun _ => pad2) (blk2 V c 2 t)

/-- The call's proof data on core `c`: the arrays as the call finds them; after the body at point `t` the activation's
    buffer still at the whole activation, the weight's and the bias's at their blocks filled out, the result's at the
    payload of those three; the invariant is the scoped rest and the generator register, untouched; nothing is owed;
    every array is held whole. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => wblk2 V c t
    | ⟨2, _⟩ => bblk2 V c t
    | ⟨3, _⟩ => k2_pay1 (blk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = k2_pay1 (blk2 V c 0 t) (wblk2 V c t) (bblk2 V c t) := by dsimp only [dat2]

/-- The whole rectangle of each staging buffer. -/
abbrev r2_0 : Rect S128x2048 := Rect.unit (s := S128x2048) ![0, 0] S128x2048.size inb_S128x2048_S128x2048_0_0
abbrev r2_1 : Rect S2048x512 := Rect.unit (s := S2048x512) ![0, 0] S2048x512.size inb_S2048x512_S2048x512_0_0
abbrev r2_2 : Rect S1x512 := Rect.unit (s := S1x512) ![0, 0] S1x512.size inb_S1x512_S1x512_0_0
abbrev r2_3 : Rect S128x512 := Rect.unit (s := S128x512) ![0, 0] S128x512.size inb_S128x512_S128x512_0_0

theorem hz2 : (![0, 0] : Fin 2 → Nat) = fun _ => 0 := funext fun a => by fin_cases a <;> rfl

/-- The one store fills the result's buffer, -/
theorem cover2_3 (p : Vec F S128x512 .f32) (y : S128x512.Idx) :
    ∃ pc ∈ ([⟨r2_3, p⟩] : List (View.Piece (Elt F) S128x512 .f32)), y ∈ pc.1.set :=
  ⟨⟨r2_3, p⟩, List.mem_singleton_self _, View.mem_set_unit_zero hz2 inb_S128x512_S128x512_0_0 y⟩

/-- so the buffer then holds what was stored. -/
theorem canon2_3 (p : Vec F S128x512 .f32) :
    View.canon ([⟨r2_3, p⟩] : List (View.Piece (Elt F) S128x512 .f32)) = p :=
  View.canon_unit_zero hz2 inb_S128x512_S128x512_0_0 p

theorem read_store2 {κ : Kind} {sp : Space} (v : View sig κ sp S128x512 .f32) (f : v.ty.Contents (Elt F)) (p : Vec F S128x512 .f32) :
    v.read (Elt F) (v.writes (Elt F) f [⟨r2_3, p⟩]) = p :=
  (View.read_writes_eq_canon v f _ (cover2_3 p)).trans (canon2_3 p)

/-- A load of a buffer's whole rectangle reads the buffer. -/
theorem readAt2_0 {κ : Kind} {sp : Space} (v : View sig κ sp S128x2048 .f32) (f : v.ty.Contents (Elt F)) :
    v.readAt (Elt F) r2_0.toLoadRect f = v.read (Elt F) f := View.ld_unit_zero hz2 inb_S128x2048_S128x2048_0_0 _
theorem readAt2_1 {κ : Kind} {sp : Space} (v : View sig κ sp S2048x512 .f32) (f : v.ty.Contents (Elt F)) :
    v.readAt (Elt F) r2_1.toLoadRect f = v.read (Elt F) f := View.ld_unit_zero hz2 inb_S2048x512_S2048x512_0_0 _
theorem readAt2_2 {κ : Kind} {sp : Space} (v : View sig κ sp S1x512 .f32) (f : v.ty.Contents (Elt F)) :
    v.readAt (Elt F) r2_2.toLoadRect f = v.read (Elt F) f := View.ld_unit_zero hz2 inb_S1x512_S1x512_0_0 _

/-! ## The body's triple -/

set_option maxHeartbeats 1000000 in
/-- The kernel body on whole staging memrefs: the three inputs' at contents `x0`, `x1`, `x2`, the result's at anything.
    It loads the three whole, loads the result's buffer (a value nothing reads) and stores the payload over all of it:
    the inputs' buffers are left as found and the result's holds the payload of what the inputs' held. -/
theorem sound_kernel2 (c : Dev nD) (E : Set ℕ) (i : grid2.Coords)
    (arg1 : Memref sig .tc .vmem S128x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S128x512 .f32) (harg4 : arg4.IsWhole)
    (x0 : Vec F S128x2048 .f32) (x1 : Vec F S2048x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x0 x1 x2)) -∗ K ⟨⟩))
      ⊢ wp frame (wpE (defs₀ (F := F)) Variants.none c none) E (cc2_linear_kernel i arg1 harg1 arg2 harg2 arg3 harg3 arg4 harg4) K := by
  simp only [cc2_linear_kernel_eq_skeleton]; unfold cc2_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store2 _ _ _).trans ?_
  rw [readAt2_0, readAt2_1, readAt2_2]

/-! ## What the body finds in the inputs' buffers -/

/-- The resident operand's buffer holds the whole operand at every point: fetched at the first, kept since (its block
    index never moves, and the body leaves the buffer as found). -/
theorem before2_0 (c : Dev nD) (t : Fin cfg2.N) (d) : (dat2 V c).before 0 t d = blk2 V c 0 t :=
  ((dat2 V c).before_in_eq_fetched 0 rfl (fun _ => rfl) (fun _ _ _ => rfl)
    (fun u => by rw [after2_0]; unfold Dat.blockOf blk2; rw [A_eq2]; try rfl) t d).trans
    (by unfold Dat.fetched Dat.blockOf blk2; rw [A_eq2]; try rfl)

/-- The weight's buffer, fetched at every point, holds the block's part inside the array and `d` past it. -/
theorem before2_1 (c : Dev nD) (t : Fin cfg2.N) (d) :
    (dat2 V c).before 1 t d = win2_1.fill (grid2.coords t) d (blk2 V c 1 t) := by
  rw [(dat2 V c).before_fetched 1 t (fetch2_1 t) d]; unfold Dat.fetched Dat.blockOf blk2; rw [A_eq2]; try rfl

/-- The bias's likewise. -/
theorem before2_2 (c : Dev nD) (t : Fin cfg2.N) (d) :
    (dat2 V c).before 2 t d = win2_2.fill (grid2.coords t) d (blk2 V c 2 t) := by
  rw [(dat2 V c).before_fetched 2 t (fetch2_2 t) d]; unfold Dat.fetched Dat.blockOf blk2; rw [A_eq2]; try rfl

/-! ## The body at a point -/

/-- The body at any point, the result's buffer handed over at anything: the inputs' buffers hold their blocks (windows 1
    and 2 filled out past the array's end with whatever the cut fetches left, `d1`, `d2`), so the body's triple applies;
    the invariant and the core's dues pass through unread. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ X, owns (c : Thread nD τ) (st2_3 t) fullShare X))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare (blk2 V c 0 t)
            ∗ ∃ d1 d2, iprop(owns (c : Thread nD τ) (st2_1 t) fullShare (win2_1.fill (grid2.coords t) d1 (blk2 V c 1 t))
                ∗ owns (c : Thread nD τ) (st2_2 t) fullShare (win2_2.fill (grid2.coords t) d2 (blk2 V c 2 t))
                ∗ owns (c : Thread nD τ) (st2_3 t) fullShare
                    (k2_pay1 (blk2 V c 0 t) (win2_1.fill (grid2.coords t) d1 (blk2 V c 1 t))
                      (win2_2.fill (grid2.coords t) d2 (blk2 V c 2 t)))))) := by
  simp only [before2_0, before2_1, before2_2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  iapply (sound_kernel2 c Set.univ _ _ _ _ _ _ _ _ _ (blk2 V c 0 t) (win2_1.fill (grid2.coords t) d1 (blk2 V c 1 t))
    (win2_2.fill (grid2.coords t) d2 (blk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  iexists d1; iexists d2
  isplitl [H1]; · iexact H1
  isplitl [H2]; · iexact H2
  iexact H3

/-! ## What the buffers are left holding, on the part the transfers move -/

/-- What the weight's and the bias's buffers are left holding is, on the part inside the array, the block: all a
    window cut at the array's end is asked of them. -/
theorem leaves2_1 (c : Dev nD) (t : Fin cfg2.N) (d1 : Vec F S2048x512 .f32) :
    win2_1.fill (grid2.coords t) d1 (win2_1.cut (grid2.coords t) ((dat2 V c).after 1 t))
      = win2_1.fill (grid2.coords t) d1 (blk2 V c 1 t) := by
  rw [after2_1]; unfold wblk2; rw [win2_1.cut_fill]
theorem leaves2_2 (c : Dev nD) (t : Fin cfg2.N) (d2 : Vec F S1x512 .f32) :
    win2_2.fill (grid2.coords t) d2 (win2_2.cut (grid2.coords t) ((dat2 V c).after 2 t))
      = win2_2.fill (grid2.coords t) d2 (blk2 V c 2 t) := by
  rw [after2_2]; unfold bblk2; rw [win2_2.cut_fill]

/-! ## The result's block, where the payload is local to its column -/

/-- COLUMN LOCALITY of the payload: its element `(i, j)` reads of the weight and of the bias their column `j` and
    nothing else. It holds where an element of the matrix product is a function of its own row and column of the
    operands (the exact product is); a float instance whose product reads the whole right operand need not have it. -/
def PayLocal2 : Prop :=
  ∀ (v2 v2' : Vec F S2048x512 .f32) (v0 : Vec F S128x2048 .f32) (v4 v4' : Vec F S1x512 .f32) (i : Fin 128) (j : Fin 512),
    (∀ k : Fin 2048, v2 (ix2 k j) = v2' (ix2 k j)) → v4 (ix2 (0 : Fin 1) j) = v4' (ix2 (0 : Fin 1) j) →
      k2_pay1 v0 v2 v4 (ix2 i j) = k2_pay1 v0 v2' v4' (ix2 i j)

/-- Under it, the part of the result's block inside the array does not depend on what the weight's and the bias's
    buffers hold past the array's end: a column of the result inside the array reads the same column of the weight
    and of the bias, which is inside their arrays (the three windows are cut at the same column). -/
theorem cut_pay2 (hloc : PayLocal2 (F := F)) (i : grid2.Coords) (x0 : Vec F S128x2048 .f32)
    (d1 d1' : Vec F S2048x512 .f32) (g1 : (win2_1.xblock i).Idx → Elt F .f32)
    (d2 d2' : Vec F S1x512 .f32) (g2 : (win2_2.xblock i).Idx → Elt F .f32) :
    win2_3.cut i (k2_pay1 x0 (win2_1.fill i d1 g1) (win2_2.fill i d2 g2))
      = win2_3.cut i (k2_pay1 x0 (win2_1.fill i d1' g1) (win2_2.fill i d2' g2)) := by
  funext j
  have hj : (j 1).val < win2_3.xsize i 1 := (j 1).isLt
  show k2_pay1 _ _ _ (win2_3.xinj i j) = k2_pay1 _ _ _ (win2_3.xinj i j)
  rw [eq_ix2 (n0 := 128) (n1 := 512) (win2_3.xinj i j)]
  refine hloc _ _ _ _ _ _ _ (fun k => ?_) ?_
  · have hm : win2_1.moved i (ix2 k ((win2_3.xinj i j) 1)) = true :=
      (win2_1.moved_iff i _).mpr fun a => by
        match a with
        | ⟨0, _⟩ => exact k.isLt
        | ⟨1, _⟩ => exact hj
    unfold Window.fill; rw [dif_pos hm, dif_pos hm]
  · have hm : win2_2.moved i (ix2 (0 : Fin 1) ((win2_3.xinj i j) 1)) = true :=
      (win2_2.moved_iff i _).mpr fun a => by
        match a with
        | ⟨0, _⟩ => exact Nat.zero_lt_one
        | ⟨1, _⟩ => exact hj
    unfold Window.fill; rw [dif_pos hm, dif_pos hm]

/-- So what the body leaves in the result's buffer is, on the part inside the array, the payload of the blocks
    filled out with the zero word. -/
theorem leaves2_3 (hloc : PayLocal2 (F := F)) (c : Dev nD) (t : Fin cfg2.N) (d1 : Vec F S2048x512 .f32) (d2 : Vec F S1x512 .f32) :
    win2_3.fill (grid2.coords t)
        (k2_pay1 (blk2 V c 0 t) (win2_1.fill (grid2.coords t) d1 (blk2 V c 1 t)) (win2_2.fill (grid2.coords t) d2 (blk2 V c 2 t)))
        (win2_3.cut (grid2.coords t) ((dat2 V c).after 3 t))
      = k2_pay1 (blk2 V c 0 t) (win2_1.fill (grid2.coords t) d1 (blk2 V c 1 t)) (win2_2.fill (grid2.coords t) d2 (blk2 V c 2 t)) := by
  rw [after2_3]; unfold wblk2 bblk2
  exact win2_3.fill_congr_cut _ (cut_pay2 hloc _ _ _ _ _ _ _ _)

/-- The result's buffer as the obligation of a window cut at the array's end states it. -/
theorem post2_3 (hloc : PayLocal2 (F := F)) (c : Dev nD) (t : Fin cfg2.N) (d1 : Vec F S2048x512 .f32) (d2 : Vec F S1x512 .f32) :
    owns (c : Thread nD τ) (st2_3 t) fullShare
        (k2_pay1 (blk2 V c 0 t) (win2_1.fill (grid2.coords t) d1 (blk2 V c 1 t)) (win2_2.fill (grid2.coords t) d2 (blk2 V c 2 t)))
      ⊢ (iprop(∃ d, owns (c : Thread nD τ) (st2_3 t) fullShare
          (win2_3.fill (grid2.coords t) d (win2_3.cut (grid2.coords t) ((dat2 V c).after 3 t)))) : sProp 𝕄) := by
  iintro H; iexists _; rw [leaves2_3 V hloc c t d1 d2]; iexact H

/-! ## The body obligation -/

/-- The body obligation at a float instance whose payload is local to its column: the resident operand's buffer is left
    holding the operand, the weight's and the bias's their blocks on the part inside the array, the result's the payload
    of the filled-out blocks on the part inside the array. -/
theorem body_obligation2 (hloc : PayLocal2 (F := F)) (c : Dev nD) :
    BodyObligationLoose (dat2 (F := F) V c) (defs₀ (F := F)) Variants.none () Set.univ := fun t => by
  rw [bigSep_W2, bigSep_W2]
  simp only
  refine (sep_mono .rfl (sep_mono .rfl (sep_mono .rfl (sep_mono .rfl (sep_mono .rfl ?_))))).trans
    ((sound_body2 V c t).trans (wp_mono _ _ _ fun _ => ?_))
  · iintro ⟨%d, H⟩; iexists _; iexact H
  iintro ⟨HΦ, Ho, H0, ⟨%d1, %d2, H1, H2, H3⟩⟩
  isplitl [HΦ]; · iexact HΦ
  isplitl [Ho]; · iexact Ho
  isplitl [H0]; · rw [after2_0]; iexact H0
  isplitl [H1]
  · iexists d1
    change _ ⊢ owns (c : Thread nD τ) (st2_1 t) fullShare (win2_1.fill (grid2.coords t) d1 (win2_1.cut (grid2.coords t) ((dat2 V c).after 1 t)))
    rw [leaves2_1]
  isplitl [H2]
  · iexists d2
    change _ ⊢ owns (c : Thread nD τ) (st2_2 t) fullShare (win2_2.fill (grid2.coords t) d2 (win2_2.cut (grid2.coords t) ((dat2 V c).after 2 t)))
    rw [leaves2_2]
  · iapply (post2_3 V hloc c t d1 d2); iexact H3

/-! ## What the call writes, and what it leaves alone -/

/-- What point `t` writes back of the result: the part inside the array of the payload of the three blocks (the
    weight's and the bias's filled out with the zero word). -/
theorem flushed2_3 (c : Dev nD) (t : Fin cfg2.N) :
    (dat2 V c).flushed 3 t = win2_3.cut (grid2.coords t) (k2_pay1 (blk2 V c 0 t) (wblk2 V c t) (bblk2 V c t)) := by
  unfold Dat.flushed; rw [after2_3]; try rfl

/-- Under column locality, with the weight's and the bias's buffers filled out with anything. -/
theorem flushed2_3_of (hloc : PayLocal2 (F := F)) (c : Dev nD) (t : Fin cfg2.N) (d1 : Vec F S2048x512 .f32) (d2 : Vec F S1x512 .f32) :
    (dat2 V c).flushed 3 t
      = win2_3.cut (grid2.coords t)
          (k2_pay1 (blk2 V c 0 t) (win2_1.fill (grid2.coords t) d1 (blk2 V c 1 t)) (win2_2.fill (grid2.coords t) d2 (blk2 V c 2 t))) := by
  rw [flushed2_3]; unfold wblk2 bblk2
  exact cut_pay2 hloc _ _ _ _ _ _ _ _

/-- The inputs' arrays are never written: at every point they hold what the call found. -/
theorem arrAt2_in (c : Dev nD) (w : Fin cfg2.W) (hw : (cfg2.win w).isOut = false) (n : Nat) :
    (dat2 V c).arrAt w n = V c (Pipeline.arrRef spec2 w) :=
  ((dat2 V c).arrAt_in w hw n).trans (A_eq2 V c w)
theorem arrAt2_0 (c : Dev nD) (n : Nat) : (dat2 V c).arrAt 0 n = V c (Pipeline.arrRef spec2 0) := arrAt2_in V c 0 rfl n
theorem arrAt2_1 (c : Dev nD) (n : Nat) : (dat2 V c).arrAt 1 n = V c (Pipeline.arrRef spec2 1) := arrAt2_in V c 1 rfl n
theorem arrAt2_2 (c : Dev nD) (n : Nat) : (dat2 V c).arrAt 2 n = V c (Pipeline.arrRef spec2 2) := arrAt2_in V c 2 rfl n

end Cert.ReferenceIdeal.Hand

end
-- ==== Proof.RI.Run.lean ====
/-
  The whole program's run: @main is four stretches of host operations (reshapes) around the three calls. This module
  names the contents of every unscoped buffer at each of the eight boundaries between those seven items, starting from the
  launch memory, makes each call a segment entered from one boundary's contents and left at the next, and launches the
  seven segments: every weakly fair execution terminates without a fault, and at the end every unscoped buffer holds the
  last boundary's contents — in particular each argument array what it held at launch.
-/
import proofs.«105144_g2000002570731441_pallasbulk_209_2_alg».proof.Proof.Gen.ReferenceIdeal.Regions
import proofs.«105144_g2000002570731441_pallasbulk_209_2_alg».proof.Proof.RI.Region0
import proofs.«105144_g2000002570731441_pallasbulk_209_2_alg».proof.Proof.RI.Region1
import proofs.«105144_g2000002570731441_pallasbulk_209_2_alg».proof.Proof.RI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- When call 0 returns: its windows' arrays at what the pipeline leaves (the inputs as entered, the result's write-backs
    folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m c b
theorem W2_final (c : Dev nD) (w : Fin cfg0.W) : (dat0 (U1 m) c).arrAt w cfg0.N = U2 m c (Pipeline.arrRef spec0 w) :=
  (W2_arr m c w).symm
theorem W2_rest (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host operations `hostOps1`. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- When call 1 returns: its windows' arrays at what the pipeline leaves (the inputs as entered, the result's write-backs
    folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m c b
theorem W4_final (c : Dev nD) (w : Fin cfg1.W) : (dat1 (U3 m) c).arrAt w cfg1.N = U4 m c (Pipeline.arrRef spec1 w) :=
  (W4_arr m c w).symm
theorem W4_rest (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the host operations `hostOps2`. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- When call 2 returns: its windows' arrays at what the pipeline leaves (the inputs as entered, the result's write-backs
    folded), every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m c b
theorem W6_final (c : Dev nD) (w : Fin cfg2.W) : (dat2 (U5 m) c).arrAt w cfg2.N = U6 m c (Pipeline.arrRef spec2 w) :=
  (W6_arr m c w).symm
theorem W6_rest (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last host operations: the end. -/
abbrev W7 : Dev nD → Valuation τ sig (Elt F) := fun c => StableHlo.after hostOps3 (W6 m c)

/-! ## The arguments end as launched -/

/-- `main_arg0` reaches the end as launched: no host operation writes it, and a call reads it through an input window or not at all. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host operation writes it, and a call reads it through an input window or not at all. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (U1 m) c).arrAt_in 1 rfl _).trans (dat0_A (U1 m) c 1))
    _ = W0 m c (Proc.devRef .tc main_arg1) := StableHlo.after_of_writes_sub hostOps0 _ hostOps0_writes (by decide)
    _ = m ((c : Thread nD τ).loc main_arg1) := rfl

/-- `main_arg2` reaches the end as launched: no host operation writes it, and a call reads it through an input window or not at all. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it, and a call reads it through an input window or not at all. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := (W4_arr m c 1).trans (((dat1 (U3 m) c).arrAt_in 1 rfl _).trans (dat1_A (U3 m) c 1))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it, and a call reads it through an input window or not at all. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it, and a call reads it through an input window or not at all. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := (W6_arr m c 1).trans (((dat2 (U5 m) c).arrAt_in 1 rfl _).trans (A_eq2 (U5 m) c 1))
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it, and a call reads it through an input window or not at all. -/
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and what rides along -/

/- The last call's blocks overhang the array's 1480 columns at its last grid point; that the stored columns inside the array do
    not depend on the buffer columns past the array's end is a property of the instance's matrix product, taken here as a
    hypothesis (it holds on the extended reals, where the product is a sum over the contracted axis). -/
variable (hloc : PayLocal2 (F := F))

/-- Every call's proof data, each at its own entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state, and its dues, none. -/
abbrev Rest (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- Call 0 as a segment: entered with every unscoped buffer at `W1`, left with them at `W2`. Its windows' arrays are
    split out of the unscoped buffers at entry and put back at their final contents at exit; the generator register goes
    into the call's invariant and comes back; nothing is owed; the kernel has no semaphore of its own. -/
def reg0 : Pipeline.RegionSeg (pcfgs (F := F)) adm (pdats m) () defs₀ 𝒱n Lz lvz 0 where
  win := launch0.win.to₀
  block_pos := launch0.block_pos
  stage_whole := launch0.stage_whole
  K := PEmpty
  osem k := k.elim
  ho := Pipeline.OwnSemFacts.none _
  hbody c := (body0_obligation (U1 m) c).loose
  hwaits := Pipeline.hwaits_of_owed_zero _ _ _ _ Lz lvz 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (W2_final m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its windows' arrays are
    split out of the unscoped buffers at entry and put back at their final contents at exit; the generator register goes
    into the call's invariant and comes back; nothing is owed; the kernel has no semaphore of its own. -/
def reg1 : Pipeline.RegionSeg (pcfgs (F := F)) adm (pdats m) () defs₀ 𝒱n Lz lvz 1 where
  win := launch1.win.to₀
  block_pos := launch1.block_pos
  stage_whole := launch1.stage_whole
  K := PEmpty
  osem k := k.elim
  ho := Pipeline.OwnSemFacts.none _
  hbody c := (body1_obligation (U3 m) c).loose
  hwaits := Pipeline.hwaits_of_owed_zero _ _ _ _ Lz lvz 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (W4_final m c) (W4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its windows' arrays are
    split out of the unscoped buffers at entry and put back at their final contents at exit; the generator register goes
    into the call's invariant and comes back; nothing is owed; the kernel has no semaphore of its own. -/
def reg2 : Pipeline.RegionSeg (pcfgs (F := F)) adm (pdats m) () defs₀ 𝒱n Lz lvz 2 where
  win := launch2.win.to₀
  block_pos := launch2.block_pos
  stage_whole := launch2.stage_whole
  K := PEmpty
  osem k := k.elim
  ho := Pipeline.OwnSemFacts.none _
  hbody c := body_obligation2 (U5 m) hloc c
  hwaits := Pipeline.hwaits_of_owed_zero _ _ _ _ Lz lvz 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (W6_final m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev allSegs : List (Pipeline.Seg (pcfgs (F := F)) adm (pdats m) () defs₀ 𝒱n Lz lvz) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m hloc),
    .host (hostSeg hostOps3 hostOps3_sub hostOps3_fresh (W6 m)) ]
/-- @main is the run of the segments. -/
theorem main_is_segs (c : Dev nD) : main (F := F) c = Pipeline.Seg.run (allSegs m hloc) := (main_chain c).trans (by chain_rfl)

set_option backward.isDefEq.respectTransparency.types false in
include hloc in
/-- THE RUN, at any `F`: from any memory with zero counters every weakly fair execution of @main on the TensorCores
    terminates, nothing faulting, and every final state holds each unscoped buffer at the last boundary's contents `W7`. -/
theorem run_buffers (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱n Lz lvz m ρ main (allSegs m hloc)
    (fun c Q => by rw [main_is_segs m hloc c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rest c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

include hloc in
/-- The run with the result named and the arguments unchanged: what both the frame claim and the value claim read off. -/
theorem run_named (ρ : Dev nD → PrngReg) : θ_run defs (onTc (τ := τ) (main (F := F))) ⟨m, fun _ => 0, ρ⟩ (fun r => ∀ c : Dev nD,
      r.2.mem ((c.tc : Thread nD τ).loc main_v0) = W7 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_unscoped main_v0 (by decide)),
    (h c _ (mem_unscoped main_arg0 (by decide))).trans (W7_main_arg0 m c),
    (h c _ (mem_unscoped main_arg1 (by decide))).trans (W7_main_arg1 m c),
    (h c _ (mem_unscoped main_arg2 (by decide))).trans (W7_main_arg2 m c),
    (h c _ (mem_unscoped main_arg3 (by decide))).trans (W7_main_arg3 m c),
    (h c _ (mem_unscoped main_arg4 (by decide))).trans (W7_main_arg4 m c),
    (h c _ (mem_unscoped main_arg5 (by decide))).trans (W7_main_arg5 m c),
    (h c _ (mem_unscoped main_arg6 (by decide))).trans (W7_main_arg6 m c)⟩) (run_buffers m hloc ρ)

end Cert.ReferenceIdeal.Hand

end
-- ==== Proof.Val.RIPay.lean ====
/-
  The arithmetic of the idealized reference's bodies, read at one index on the extended reals: every store's value is
  a row against a column plus a bias (one image's convolution, the two dense layers), the hidden layer's clamped below
  by the zero word.
-/
import proofs.«105144_g2000002570731441_pallasbulk_209_2_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.ReferenceIdeal.Pay

open Cert.ReferenceIdeal

/-! ## A plain matrix product read at an index -/

section Plain
variable {m n r : Nat}

/-- Row axis of the left factor: the output's row. -/
theorem lhs_row (D : DotDims ⟨2, ![m, n]⟩ ⟨2, ![n, r]⟩ ⟨2, ![m, r]⟩)
    (hlb : D.lhsBatch = []) (hln : D.lhsNonContracting = [0])
    (j : (⟨2, ![m, r]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- Column axis of the right factor: the output's column. -/
theorem rhs_col (D : DotDims ⟨2, ![m, n]⟩ ⟨2, ![n, r]⟩ ⟨2, ![m, r]⟩)
    (hlb : D.lhsBatch = []) (hrb : D.rhsBatch = []) (hln : D.lhsNonContracting = [0]) (hrn : D.rhsNonContracting = [1])
    (j : (⟨2, ![m, r]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A product of an [m, n] by an [n, r] matrix into the zero accumulator (rows of the left factor against columns of
    the right one, one contracted axis, no batch axis), read at (p, q), is the sum over the contracted axis. -/
theorem matmul_plain_apply (D : DotDims ⟨2, ![m, n]⟩ ⟨2, ![n, r]⟩ ⟨2, ![m, r]⟩)
    (hlc : D.lhsContracting = [1]) (hrc : D.rhsContracting = [0])
    (hln : D.lhsNonContracting = [0]) (hrn : D.rhsNonContracting = [1])
    (hlb : D.lhsBatch = []) (hrb : D.rhsBatch = [])
    {φ₁ φ₂ : FTy} (a : FVec Ideal ⟨2, ![m, n]⟩ φ₁) (b : FVec Ideal ⟨2, ![n, r]⟩ φ₂) (p : Fin m) (q : Fin r) :
    matmul D none a b (constant (F := Ideal) ⟨2, ![m, r]⟩ .f32 0x00000000#32) (ix2 p q)
      = ∑ k : Fin n, a (ix2 p k) * b (ix2 k q) := by
  have hr : D.contr.rank = 1 := by rw [D.rank_contr, hlc]; rfl
  have hs : D.contr.size ⟨0, by omega⟩ = n := by
    rw [D.size_contr 0 (by rw [hlc]; exact Nat.one_pos)]
    simp [hlc]
  refine (Ideal.matmul_constant_zero_apply D none a b (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k :=
    funext fun c => Fin.ext (by
      match c with
      | ⟨0, _⟩ => exact lhs_row D hlb hln _ _
      | ⟨1, _⟩ => exact (D.lhsIdx_val_of_single hlc _ _).trans hk)
  have er : D.rhsIdx (ix2 p q) ((contrEquiv1 D n hr hs).symm k) = ix2 k q :=
    funext fun c => Fin.ext (by
      match c with
      | ⟨0, _⟩ => exact (D.rhsIdx_val_of_single hrc _ _).trans hk
      | ⟨1, _⟩ => exact rhs_col D hlb hrb hln hrn _ _)
  rw [el, er]

end Plain

/-! ## A column laid along every column position -/

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The convolution's body -/

/-- One image's convolution at output channel `o` and position `s`: the channel's weights against the image's column
    at the position, plus the channel's bias. -/
theorem k0_pay1_apply (v0 : Vec Ideal S8x512 .f32) (v1 : Vec Ideal S1x512x225 .f32) (v4 : Vec Ideal S8x1 .f32)
    (o : Fin 8) (s : Fin 225) :
    Gen.k0_pay1 (F := Ideal) v0 v1 v4 (ix3 (0 : Fin 1) o s)
      = (∑ k : Fin 512, (v0 (ix2 o k) : EReal) * (v1 (ix3 (0 : Fin 1) k s) : EReal)) + (v4 (ix2 o (0 : Fin 1)) : EReal) := by
  unfold Gen.k0_pay1
  simp only [shapeCast_self]
  rw [shapeCast_ab_1ab_apply, addf_apply, broadcastTo_a1_ab_apply,
    matmul_plain_apply dot_S8x512_S512x225_S8x225_1_0_0_1_n_n rfl rfl rfl rfl rfl rfl]
  simp only [shapeCast_1ab_ab_apply]

/-! ## The two dense layers' bodies -/

/-- The hidden layer's body at (p, q): the row of the activations against the column of the weights, plus the bias of
    the column, clamped below by the zero word. -/
theorem k1_pay1_apply (v0 : Vec Ideal S128x1800 .f32) (v2 : Vec Ideal S1800x512 .f32) (v4 : Vec Ideal S1x512 .f32)
    (p : Fin 128) (q : Fin 512) :
    Gen.k1_pay1 (F := Ideal) v0 v2 v4 (ix2 p q)
      = max ((∑ k : Fin 1800, (v0 (ix2 p k) : EReal) * (v2 (ix2 k q) : EReal)) + (v4 (ix2 (0 : Fin 1) q) : EReal))
          (Ideal.ofBits .f32 0x00000000#32) := by
  unfold Gen.k1_pay1
  simp only [shapeCast_self]
  rw [maximumf_apply, addf_apply, broadcast_apply, broadcastTo_1b_ab_apply,
    matmul_plain_apply dot_S128x1800_S1800x512_S128x512_1_0_0_1_n_n rfl rfl rfl rfl rfl rfl]
  rfl

/-- The output layer's body at (p, q): the row of the hidden activations against the column of the weights, plus the
    bias of the column. -/
theorem k2_pay1_apply (v0 : Vec Ideal S128x2048 .f32) (v2 : Vec Ideal S2048x512 .f32) (v4 : Vec Ideal S1x512 .f32)
    (p : Fin 128) (q : Fin 512) :
    Gen.k2_pay1 (F := Ideal) v0 v2 v4 (ix2 p q)
      = (∑ k : Fin 2048, (v0 (ix2 p k) : EReal) * (v2 (ix2 k q) : EReal)) + (v4 (ix2 (0 : Fin 1) q) : EReal) := by
  unfold Gen.k2_pay1
  simp only [shapeCast_self]
  rw [addf_apply, broadcastTo_1b_ab_apply,
    matmul_plain_apply dot_S128x2048_S2048x512_S128x512_1_0_0_1_n_n rfl rfl rfl rfl rfl rfl]

end Cert.ReferenceIdeal.Pay

end
-- ==== Proof.RI.Value0.lean ====
/-
  The reference's pooling convolution after its call: every entry (n, o, s) of the result is
  Σ_k W[o, k] · x[n, k, s] + b[o, 0] of the three arrays the call reads. Each grid point writes one batch row of that
  function (the body's value read at an index, the row's offset added to the feature's batch coordinate), and the 128
  rows cover the result.
-/
import proofs.«105144_g2000002570731441_pallasbulk_209_2_alg».proof.Proof.RI.Region0
import proofs.«105144_g2000002570731441_pallasbulk_209_2_alg».proof.Proof.Val.RIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The pooling convolution as one function of the feature, weight and bias arrays. -/
def poolOf (X : S128x512x225.Idx → EReal) (W : S8x512.Idx → EReal) (B : S8x1.Idx → EReal) : S128x8x225.Idx → EReal :=
  fun i => Cert.Spec.conv X W B (i 0) (i 1) (i 2)

theorem zero2' : (![0, 0] : Fin 2 → Nat) = fun _ => 0 := funext fun a => by fin_cases a <;> rfl
theorem zero3 : (![0, 0, 0] : Fin 3 → Nat) = fun _ => 0 := funext fun a => by fin_cases a <;> rfl

/-- The printed index maps over the 128 grid points: the feature's and the result's blocks sit at batch row `t`; the
    weight's and the bias's blocks never move. -/
theorem rows0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 ∧ t.val < 128 :=
  (by decide +kernel : ∀ t : Fin grid0.N, _)

/-- A row-against-column term over blocks is the convolution's entry, once each block entry it reads is the array's
    entry the convolution reads there. -/
theorem conv_of_reads (X : S128x512x225.Idx → EReal) (W : S8x512.Idx → EReal) (B : S8x1.Idx → EReal)
    (x0 : S1x512x225.Idx → EReal) (x1 : S8x512.Idx → EReal) (x2 : S8x1.Idx → EReal)
    (o : Fin 8) (s : Fin 225) (n' : Fin 128) (o' : Fin 8) (s' : Fin 225)
    (h1 : ∀ k : Fin 512, x1 (ix2 o k) = W (ix2 o' k)) (h0 : ∀ k : Fin 512, x0 (ix3 (0 : Fin 1) k s) = X (ix3 n' k s'))
    (h2 : x2 (ix2 o (0 : Fin 1)) = B (ix2 o' (0 : Fin 1))) :
    (∑ k : Fin 512, x1 (ix2 o k) * x0 (ix3 (0 : Fin 1) k s)) + x2 (ix2 o (0 : Fin 1)) = Cert.Spec.conv X W B n' o' s' := by
  unfold Cert.Spec.conv Cert.Spec.dense
  rw [h2]
  exact congrArg (fun z => z + B (ix2 o' (0 : Fin 1))) (Finset.sum_congr rfl fun k _ => by rw [h0 k, h1 k])

/-- What grid point `t` writes back is batch row `t` of `poolOf` of the arrays as the call finds them. -/
theorem pool_tile (c : Dev nD) (t : Fin cfg0.N) :
    (dat0 V c).flushed 3 t = ((cfg0.win 3).blk t).view.read (Elt Ideal)
      (poolOf (V c main_call0_v0) (V c main_arg1) (V c main_call0_v1)) := by
  show (cfg0.win 3).cut (grid0.coords t) ((dat0 V c).after 3 t) = _
  rw [dat0_after3]
  unfold pool0
  rw [View.canon_unit_zero zero3]
  simp only [View.ld_unit_zero (S := S1x512x225) zero3, View.ld_unit_zero (S := S8x512) zero2', View.ld_unit_zero (S := S8x1) zero2']
  obtain ⟨e00, e01, e02, e10, e11, e20, e21, e30, e31, e32, ht⟩ := rows0 t
  funext j
  obtain ⟨u, o, s, rfl⟩ : ∃ (u : Fin 1) (o : Fin 8) (s : Fin 225), j = ix3 u o s := ⟨j 0, j 1, j 2, eq_ix3 j⟩
  obtain rfl : u = 0 := Subsingleton.elim _ _
  refine (Cert.ReferenceIdeal.Pay.k0_pay1_apply _ _ _ o s).trans ?_
  rw [View.read_apply]
  show _ = Cert.Spec.conv (V c main_call0_v0) (V c main_arg1) (V c main_call0_v1)
    ((((cfg0.win 3).blk t).view.emb (ix3 (0 : Fin 1) o s)) 0) ((((cfg0.win 3).blk t).view.emb (ix3 (0 : Fin 1) o s)) 1)
    ((((cfg0.win 3).blk t).view.emb (ix3 (0 : Fin 1) o s)) 2)
  refine conv_of_reads _ _ _ _ _ _ o s _ _ _ (fun k => ?_) (fun k => ?_) ?_
  · show V c main_arg1 (((cfg0.win 1).blk t).view.emb (ix2 o k)) = V c main_arg1 _
    refine congrArg _ (funext fun a => Fin.ext ?_)
    match a with
    | ⟨0, _⟩ => show win0_1.index t (0 : Fin 2) * 8 + 1 * o.val = win0_3.index t (1 : Fin 3) * 8 + 1 * o.val; rw [e10, e31]
    | ⟨1, _⟩ => show win0_1.index t (1 : Fin 2) * 512 + 1 * k.val = k.val; rw [e11]; omega
  · show V c main_call0_v0 (((cfg0.win 0).blk t).view.emb (ix3 (0 : Fin 1) k s)) = V c main_call0_v0 _
    refine congrArg _ (funext fun a => Fin.ext ?_)
    match a with
    | ⟨0, _⟩ => show win0_0.index t (0 : Fin 3) * 1 + 1 * 0 = win0_3.index t (0 : Fin 3) * 1 + 1 * 0; rw [e00, e30]
    | ⟨1, _⟩ => show win0_0.index t (1 : Fin 3) * 512 + 1 * k.val = k.val; rw [e01]; omega
    | ⟨2, _⟩ => show win0_0.index t (2 : Fin 3) * 225 + 1 * s.val = win0_3.index t (2 : Fin 3) * 225 + 1 * s.val; rw [e02, e32]
  · show V c main_call0_v1 (((cfg0.win 2).blk t).view.emb (ix2 o (0 : Fin 1))) = V c main_call0_v1 _
    refine congrArg _ (funext fun a => Fin.ext ?_)
    match a with
    | ⟨0, _⟩ => show win0_2.index t (0 : Fin 2) * 8 + 1 * o.val = win0_3.index t (1 : Fin 3) * 8 + 1 * o.val; rw [e20, e31]
    | ⟨1, _⟩ => show win0_2.index t (1 : Fin 2) * 1 + 1 * 0 = 0; rw [e21]

/-- An index of the result is in point `t`'s slab iff each coordinate is inside the slab on its axis. -/
theorem mem_tile0 (t : Fin cfg0.N) (i : S128x8x225.Idx) :
    i ∈ ((cfg0.win 3).blk t).view.set ↔ ∀ a : Fin 3, win0_3.index t a * S1x8x225.size a ≤ (i a).val ∧ (i a).val < win0_3.index t a * S1x8x225.size a + S1x8x225.size a := by
  show i ∈ ((View.whole main_call0_v2).slice (win0_3.rect t)).set ↔ _
  rw [View.set_slice_whole, Rect.mem_set_unit]
  exact Iff.rfl

/-- The 128 one-row slabs cover the result: batch row `n` lies in point `n`'s slab. -/
theorem pool_cover (i : S128x8x225.Idx) :
    ∃ t : Fin cfg0.N, (cfg0.win 3).flush t = true ∧ i ∈ ((cfg0.win 3).blk t).view.set := by
  have h0 : (i 0).val < 128 := (i 0).isLt
  have h1 : (i 1).val < 8 := (i 1).isLt
  have h2 : (i 2).val < 225 := (i 2).isLt
  have hN : grid0.N = 128 := N_0
  have hlt : (i 0).val < grid0.N := by omega
  obtain ⟨-, -, -, -, -, -, -, e30, e31, e32, -⟩ := rows0 ⟨(i 0).val, hlt⟩
  refine ⟨⟨(i 0).val, hlt⟩, flush0_3 _, ?_⟩
  rw [mem_tile0]
  intro a
  match a with
  | ⟨0, _⟩ =>
    show win0_3.index ⟨(i 0).val, hlt⟩ (0 : Fin 3) * 1 ≤ (i 0).val
      ∧ (i 0).val < win0_3.index ⟨(i 0).val, hlt⟩ (0 : Fin 3) * 1 + 1
    have e : win0_3.index ⟨(i 0).val, hlt⟩ (0 : Fin 3) = (i 0).val := e30
    rw [e]; omega
  | ⟨1, _⟩ =>
    show win0_3.index ⟨(i 0).val, hlt⟩ (1 : Fin 3) * 8 ≤ (i 1).val
      ∧ (i 1).val < win0_3.index ⟨(i 0).val, hlt⟩ (1 : Fin 3) * 8 + 8
    rw [e31]; omega
  | ⟨2, _⟩ =>
    show win0_3.index ⟨(i 0).val, hlt⟩ (2 : Fin 3) * 225 ≤ (i 2).val
      ∧ (i 2).val < win0_3.index ⟨(i 0).val, hlt⟩ (2 : Fin 3) * 225 + 225
    rw [e32]; omega

/-- The pooling convolution's array after the call: `poolOf` of the three arrays the call reads. -/
theorem pool_array (c : Dev nD) :
    (dat0 V c).arrAt 3 cfg0.N = poolOf (V c main_call0_v0) (V c main_arg1) (V c main_call0_v1) :=
  (dat0 V c).arrAt_eq_of_cover 3 _ (fun t _ => pool_tile V c t) pool_cover

end Cert.ReferenceIdeal.Hand

end
-- ==== Proof.RI.Value1.lean ====
/-
  The reference's hidden layer after its call: every entry (p, q) of the result is
  relu(Σ_k xf[p, k] · W1[k, q] + b1[0, q]) of the three arrays the call reads. Each grid point writes one column tile of
  512 of that function (the body's value read at an index, the tile's column offset added to the weight's and the
  bias's column), and the four tiles cover the 2048 columns.
-/
import proofs.«105144_g2000002570731441_pallasbulk_209_2_alg».proof.Proof.RI.Region1
import proofs.«105144_g2000002570731441_pallasbulk_209_2_alg».proof.Proof.Val.RIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The hidden layer as one function of the activation, weight and bias arrays. -/
def hiddenOf (A : S128x1800.Idx → EReal) (W : S1800x2048.Idx → EReal) (B : S1x2048.Idx → EReal) : S128x2048.Idx → EReal :=
  fun i => Cert.Spec.hidden A W B (i 0) (i 1)

theorem zero2 : (![0, 0] : Fin 2 → Nat) = fun _ => 0 := funext fun a => by fin_cases a <;> rfl

/-- The printed index maps over the four grid points: the activation's block never moves; the weight's, the bias's and
    the result's blocks sit at column tile `t`. -/
theorem tiles1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val ∧ t.val < 4 :=
  (by decide +kernel : ∀ t : Fin grid1.N, _)

/-- A clamped row-against-column term over blocks is the hidden layer's entry, once each block entry it reads is the
    array's entry the layer reads there. -/
theorem hidden_of_reads (A : S128x1800.Idx → EReal) (W : S1800x2048.Idx → EReal) (B : S1x2048.Idx → EReal)
    (x0 : S128x1800.Idx → EReal) (x1 : S1800x512.Idx → EReal) (x2 : S1x512.Idx → EReal)
    (p : Fin 128) (q : Fin 512) (p' : Fin 128) (q' : Fin 2048)
    (h0 : ∀ k : Fin 1800, x0 (ix2 p k) = A (ix2 p' k)) (h1 : ∀ k : Fin 1800, x1 (ix2 k q) = W (ix2 k q'))
    (h2 : x2 (ix2 (0 : Fin 1) q) = B (ix2 (0 : Fin 1) q')) :
    max ((∑ k : Fin 1800, x0 (ix2 p k) * x1 (ix2 k q)) + x2 (ix2 (0 : Fin 1) q)) (Ideal.ofBits .f32 0x00000000#32)
      = Cert.Spec.hidden A W B p' q' := by
  unfold Cert.Spec.hidden Cert.Spec.relu Cert.Spec.dense
  rw [h2]
  exact congrArg (fun z => max (z + B (ix2 (0 : Fin 1) q')) (Ideal.ofBits .f32 0x00000000#32))
    (Finset.sum_congr rfl fun k _ => by rw [h0 k, h1 k])

/-- What grid point `t` writes back is column tile `t` of `hiddenOf` of the arrays as the call finds them. -/
theorem hidden_tile (c : Dev nD) (t : Fin cfg1.N) :
    (dat1 V c).flushed 3 t = ((cfg1.win 3).blk t).view.read (Elt Ideal)
      (hiddenOf (V c main_call0_v3) (V c main_arg3) (V c main_call0_v4)) := by
  show (cfg1.win 3).cut (grid1.coords t) ((dat1 V c).after 3 t) = _
  rw [dat1_after3]
  unfold hid1
  rw [View.canon_unit_zero zero2]
  simp only [View.ld_unit_zero (S := S128x1800) zero2, View.ld_unit_zero (S := S1800x512) zero2, View.ld_unit_zero (S := S1x512) zero2]
  obtain ⟨e00, e01, e10, e11, e20, e21, e30, e31, ht⟩ := tiles1 t
  funext j
  obtain ⟨p, q, rfl⟩ : ∃ (p : Fin 128) (q : Fin 512), j = ix2 p q := ⟨j 0, j 1, eq_ix2 j⟩
  refine (Cert.ReferenceIdeal.Pay.k1_pay1_apply _ _ _ p q).trans ?_
  rw [View.read_apply]
  show _ = Cert.Spec.hidden (V c main_call0_v3) (V c main_arg3) (V c main_call0_v4)
    ((((cfg1.win 3).blk t).view.emb (ix2 p q)) 0) ((((cfg1.win 3).blk t).view.emb (ix2 p q)) 1)
  refine hidden_of_reads _ _ _ _ _ _ p q _ _ (fun k => ?_) (fun k => ?_) ?_
  · show V c main_call0_v3 (((cfg1.win 0).blk t).view.emb (ix2 p k)) = V c main_call0_v3 _
    refine congrArg _ (funext fun a => Fin.ext ?_)
    match a with
    | ⟨0, _⟩ => show win1_0.index t (0 : Fin 2) * 128 + 1 * p.val = win1_3.index t (0 : Fin 2) * 128 + 1 * p.val; rw [e00, e30]
    | ⟨1, _⟩ => show win1_0.index t (1 : Fin 2) * 1800 + 1 * k.val = k.val; rw [e01]; omega
  · show V c main_arg3 (((cfg1.win 1).blk t).view.emb (ix2 k q)) = V c main_arg3 _
    refine congrArg _ (funext fun a => Fin.ext ?_)
    match a with
    | ⟨0, _⟩ => show win1_1.index t (0 : Fin 2) * 1800 + 1 * k.val = k.val; rw [e10]; omega
    | ⟨1, _⟩ => show win1_1.index t (1 : Fin 2) * 512 + 1 * q.val = win1_3.index t (1 : Fin 2) * 512 + 1 * q.val; rw [e11, e31]
  · show V c main_call0_v4 (((cfg1.win 2).blk t).view.emb (ix2 (0 : Fin 1) q)) = V c main_call0_v4 _
    refine congrArg _ (funext fun a => Fin.ext ?_)
    match a with
    | ⟨0, _⟩ => show win1_2.index t (0 : Fin 2) * 1 + 1 * 0 = 0; rw [e20]
    | ⟨1, _⟩ => show win1_2.index t (1 : Fin 2) * 512 + 1 * q.val = win1_3.index t (1 : Fin 2) * 512 + 1 * q.val; rw [e21, e31]

/-- An index of the result is in point `t`'s tile iff each coordinate is inside the tile on its axis. -/
theorem mem_tile1 (t : Fin cfg1.N) (i : S128x2048.Idx) :
    i ∈ ((cfg1.win 3).blk t).view.set ↔ ∀ a : Fin 2, win1_3.index t a * S128x512.size a ≤ (i a).val ∧ (i a).val < win1_3.index t a * S128x512.size a + S128x512.size a := by
  show i ∈ ((View.whole main_call0_v5).slice (win1_3.rect t)).set ↔ _
  rw [View.set_slice_whole, Rect.mem_set_unit]
  exact Iff.rfl

/-- The four column tiles of 512 cover the 2048 columns: column `j` lies in tile `j / 512`. -/
theorem hidden_cover (i : S128x2048.Idx) :
    ∃ t : Fin cfg1.N, (cfg1.win 3).flush t = true ∧ i ∈ ((cfg1.win 3).blk t).view.set := by
  have h0 : (i 0).val < 128 := (i 0).isLt
  have h1 : (i 1).val < 2048 := (i 1).isLt
  have hN : grid1.N = 4 := N_1
  have hlt : (i 1).val / 512 < grid1.N := by omega
  obtain ⟨-, -, -, -, -, -, e30, e31, -⟩ := tiles1 ⟨(i 1).val / 512, hlt⟩
  refine ⟨⟨(i 1).val / 512, hlt⟩, flush1_3 _, ?_⟩
  rw [mem_tile1]
  intro a
  match a with
  | ⟨0, _⟩ =>
    show win1_3.index ⟨(i 1).val / 512, hlt⟩ (0 : Fin 2) * 128 ≤ (i 0).val
      ∧ (i 0).val < win1_3.index ⟨(i 1).val / 512, hlt⟩ (0 : Fin 2) * 128 + 128
    rw [e30]; omega
  | ⟨1, _⟩ =>
    show win1_3.index ⟨(i 1).val / 512, hlt⟩ (1 : Fin 2) * 512 ≤ (i 1).val
      ∧ (i 1).val < win1_3.index ⟨(i 1).val / 512, hlt⟩ (1 : Fin 2) * 512 + 512
    have e : win1_3.index ⟨(i 1).val / 512, hlt⟩ (1 : Fin 2) = (i 1).val / 512 := e31
    rw [e]; omega

/-- The hidden layer's array after the call: `hiddenOf` of the three arrays the call reads. -/
theorem hidden_array (c : Dev nD) :
    (dat1 V c).arrAt 3 cfg1.N = hiddenOf (V c main_call0_v3) (V c main_arg3) (V c main_call0_v4) :=
  (dat1 V c).arrAt_eq_of_cover 3 _ (fun t _ => hidden_tile V c t) hidden_cover

end Cert.ReferenceIdeal.Hand

end
-- ==== Proof.RI.Value2.lean ====
/-
  The reference's output layer after its call: every entry (p, q) of the result is Σ_k h[p, k] · W2[k, q] + b2[0, q] of
  the three arrays the call reads. Each grid point writes one column tile of 512 of that function — the last tile only
  its 456 columns inside the array: the write-back is cut there, and a kept column reads its own column of the
  weight's and the bias's blocks, which the cut fetches did move — and the three tiles cover the 1480 columns.
-/
import proofs.«105144_g2000002570731441_pallasbulk_209_2_alg».proof.Proof.RI.Region2
import proofs.«105144_g2000002570731441_pallasbulk_209_2_alg».proof.Proof.Val.RIPay
import proofs.«105144_g2000002570731441_pallasbulk_209_2_alg».proof.Proof.Val.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b))

/-- The output layer as one function of the hidden, weight and bias arrays. -/
def outOf (H : S128x2048.Idx → EReal) (W : S2048x1480.Idx → EReal) (B : S1x1480.Idx → EReal) : S128x1480.Idx → EReal :=
  fun i => Cert.Spec.out H W B (i 0) (i 1)

/-- The printed index maps and the cuts over the three grid points: the hidden activations' block never moves; the
    weight's, the bias's and the result's blocks sit at column tile `t`; the result's tile keeps all its 128 rows and
    its columns inside the array, 512 of them but for the last tile's 456. -/
theorem tiles2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = t.val ∧ t.val < 3
    ∧ win2_3.xsize (grid2.coords t) (0 : Fin 2) = 128
    ∧ (t.val < 2 → win2_3.xsize (grid2.coords t) (1 : Fin 2) = 512)
    ∧ (¬t.val < 2 → win2_3.xsize (grid2.coords t) (1 : Fin 2) = 456) :=
  (by decide +kernel : ∀ t : Fin grid2.N, _)

/-- A block filled out past the array's end reads, at an index the transfer moves, the block's part inside the array. -/
theorem fill_of_lt {G : Pipeline.Grid} (w : Pipeline.Window sig G) {α : Type} (i : G.Coords) (d : w.block.Idx → α)
    (g : (w.xblock i).Idx → α) (y : w.block.Idx) (h : ∀ a, (y a).val < w.xsize i a) :
    w.fill i d g y = g fun a => ⟨(y a).val, h a⟩ := by
  unfold Pipeline.Window.fill
  rw [dif_pos ((w.moved_iff i y).mpr h)]

/-- A row-against-column term over blocks is the output layer's entry, once each block entry it reads is the array's
    entry the layer reads there. -/
theorem out_of_reads (H : S128x2048.Idx → EReal) (W : S2048x1480.Idx → EReal) (B : S1x1480.Idx → EReal)
    (x0 : S128x2048.Idx → EReal) (x1 : S2048x512.Idx → EReal) (x2 : S1x512.Idx → EReal)
    (p : Fin 128) (q : Fin 512) (p' : Fin 128) (q' : Fin 1480)
    (h0 : ∀ k : Fin 2048, x0 (ix2 p k) = H (ix2 p' k)) (h1 : ∀ k : Fin 2048, x1 (ix2 k q) = W (ix2 k q'))
    (h2 : x2 (ix2 (0 : Fin 1) q) = B (ix2 (0 : Fin 1) q')) :
    (∑ k : Fin 2048, x0 (ix2 p k) * x1 (ix2 k q)) + x2 (ix2 (0 : Fin 1) q) = Cert.Spec.out H W B p' q' := by
  unfold Cert.Spec.out Cert.Spec.dense
  rw [h2]
  exact congrArg (fun z => z + B (ix2 (0 : Fin 1) q')) (Finset.sum_congr rfl fun k _ => by rw [h0 k, h1 k])

/-- The part inside the array of what the body computes at point `t` from the blocks as fetched — the weight's and the
    bias's filled out past the array's end with anything — is column tile `t` of `outOf` of the arrays as the call
    finds them: a kept column reads its own column of the weight and of the bias, which is inside their arrays. -/
theorem out_tile_core (c : Dev nD) (t : Fin cfg2.N) (d1 : Vec Ideal S2048x512 .f32) (d2 : Vec Ideal S1x512 .f32) :
    win2_3.cut (grid2.coords t)
      (k2_pay1 (F := Ideal)
        (((cfg2.win 0).blk t).view.read (Elt Ideal) (V c main_call0_v5))
        (win2_1.fill (grid2.coords t) d1 (((cfg2.win 1).blk t).view.read (Elt Ideal) (V c main_arg5)))
        (win2_2.fill (grid2.coords t) d2 (((cfg2.win 2).blk t).view.read (Elt Ideal) (V c main_call0_v6))))
      = ((cfg2.win 3).blk t).view.read (Elt Ideal) (outOf (V c main_call0_v5) (V c main_arg5) (V c main_call0_v6)) := by
  obtain ⟨e00, e01, e10, e11, e20, e21, e30, e31, ht, -, -, -⟩ := tiles2 t
  funext j
  have hj1 : (j 1).val < win2_3.xsize (grid2.coords t) 1 := (j 1).isLt
  show k2_pay1 _ _ _ (win2_3.xinj (grid2.coords t) j) = _
  rw [eq_ix2 (n0 := 128) (n1 := 512) (win2_3.xinj (grid2.coords t) j)]
  refine (Cert.ReferenceIdeal.Pay.k2_pay1_apply _ _ _ _ _).trans ?_
  rw [View.read_apply]
  show _ = Cert.Spec.out (V c main_call0_v5) (V c main_arg5) (V c main_call0_v6)
    ((((cfg2.win 3).blk t).view.emb j) 0) ((((cfg2.win 3).blk t).view.emb j) 1)
  refine out_of_reads _ _ _ _ _ _ _ _ _ _ (fun k => ?_) (fun k => ?_) ?_
  · show V c main_call0_v5 (((cfg2.win 0).blk t).view.emb (ix2 ((win2_3.xinj (grid2.coords t) j) 0) k)) = V c main_call0_v5 _
    refine congrArg _ (funext fun a => Fin.ext ?_)
    match a with
    | ⟨0, _⟩ => show win2_0.index t (0 : Fin 2) * 128 + 1 * (j 0).val = win2_3.index t (0 : Fin 2) * 128 + 1 * (j 0).val; rw [e00, e30]
    | ⟨1, _⟩ => show win2_0.index t (1 : Fin 2) * 2048 + 1 * k.val = k.val; rw [e01]; omega
  · rw [fill_of_lt win2_1 (grid2.coords t) d1 _ (ix2 k ((win2_3.xinj (grid2.coords t) j) 1)) (fun a => by
      match a with
      | ⟨0, _⟩ => exact k.isLt
      | ⟨1, _⟩ => exact hj1)]
    show V c main_arg5 (((cfg2.win 1).blk t).view.emb _) = V c main_arg5 _
    refine congrArg _ (funext fun a => Fin.ext ?_)
    match a with
    | ⟨0, _⟩ => show win2_1.index t (0 : Fin 2) * 2048 + 1 * k.val = k.val; rw [e10]; omega
    | ⟨1, _⟩ => show win2_1.index t (1 : Fin 2) * 512 + 1 * (j 1).val = win2_3.index t (1 : Fin 2) * 512 + 1 * (j 1).val; rw [e11, e31]
  · rw [fill_of_lt win2_2 (grid2.coords t) d2 _ (ix2 (0 : Fin 1) ((win2_3.xinj (grid2.coords t) j) 1)) (fun a => by
      match a with
      | ⟨0, _⟩ => exact Nat.zero_lt_one
      | ⟨1, _⟩ => exact hj1)]
    show V c main_call0_v6 (((cfg2.win 2).blk t).view.emb _) = V c main_call0_v6 _
    refine congrArg _ (funext fun a => Fin.ext ?_)
    match a with
    | ⟨0, _⟩ => show win2_2.index t (0 : Fin 2) * 1 + 1 * 0 = 0; rw [e20]
    | ⟨1, _⟩ => show win2_2.index t (1 : Fin 2) * 512 + 1 * (j 1).val = win2_3.index t (1 : Fin 2) * 512 + 1 * (j 1).val; rw [e21, e31]

/-- An index of the result is in point `t`'s tile iff each coordinate is inside the tile's part of the array on its axis. -/
theorem mem_tile2 (t : Fin cfg2.N) (i : S128x1480.Idx) :
    i ∈ ((cfg2.win 3).blk t).view.set ↔ ∀ a : Fin 2, win2_3.index t a * S128x512.size a ≤ (i a).val
      ∧ (i a).val < win2_3.index t a * S128x512.size a + win2_3.xsize (grid2.coords t) a := by
  show i ∈ ((View.whole main_call0_v7).slice (win2_3.rect t)).set ↔ _
  rw [View.set_slice_whole, Rect.mem_set_unit]
  exact Iff.rfl

/-- The three column tiles cover the 1480 columns: column `j` lies in tile `j / 512`, the last tile holding the 456
    columns from 1024 on. -/
theorem out_cover (i : S128x1480.Idx) :
    ∃ t : Fin cfg2.N, (cfg2.win 3).flush t = true ∧ i ∈ ((cfg2.win 3).blk t).view.set := by
  have h0 : (i 0).val < 128 := (i 0).isLt
  have h1 : (i 1).val < 1480 := (i 1).isLt
  have hN : grid2.N = 3 := N_2
  have hlt : (i 1).val / 512 < grid2.N := by omega
  obtain ⟨-, -, -, -, -, -, e30, e31, -, x0, x1, x1'⟩ := tiles2 ⟨(i 1).val / 512, hlt⟩
  refine ⟨⟨(i 1).val / 512, hlt⟩, flush2_3 _, ?_⟩
  rw [mem_tile2]
  intro a
  match a with
  | ⟨0, _⟩ =>
    show win2_3.index ⟨(i 1).val / 512, hlt⟩ (0 : Fin 2) * 128 ≤ (i 0).val
      ∧ (i 0).val < win2_3.index ⟨(i 1).val / 512, hlt⟩ (0 : Fin 2) * 128 + win2_3.xsize (grid2.coords ⟨(i 1).val / 512, hlt⟩) (0 : Fin 2)
    rw [e30, x0]; omega
  | ⟨1, _⟩ =>
    show win2_3.index ⟨(i 1).val / 512, hlt⟩ (1 : Fin 2) * 512 ≤ (i 1).val
      ∧ (i 1).val < win2_3.index ⟨(i 1).val / 512, hlt⟩ (1 : Fin 2) * 512 + win2_3.xsize (grid2.coords ⟨(i 1).val / 512, hlt⟩) (1 : Fin 2)
    have e : win2_3.index ⟨(i 1).val / 512, hlt⟩ (1 : Fin 2) = (i 1).val / 512 := e31
    rw [e]
    by_cases h2 : (i 1).val / 512 < 2
    · rw [x1 h2]; omega
    · rw [x1' h2]; omega

/-- What grid point `t` writes back is column tile `t` of `outOf` of the arrays as the call finds them. -/
theorem out_tile (c : Dev nD) (t : Fin cfg2.N) :
    (dat2 V c).flushed 3 t = ((cfg2.win 3).blk t).view.read (Elt Ideal)
      (outOf (V c main_call0_v5) (V c main_arg5) (V c main_call0_v6)) := by
  rw [flushed2_3]
  unfold wblk2 bblk2 blk2
  exact out_tile_core V c t _ _

/-- The output layer's array after the call: `outOf` of the three arrays the call reads. -/
theorem out_array (c : Dev nD) :
    (dat2 V c).arrAt 3 cfg2.N = outOf (V c main_call0_v5) (V c main_arg5) (V c main_call0_v6) :=
  (dat2 V c).arrAt_eq_of_cover 3 _ (fun t _ => out_tile V c t) out_cover

end Cert.ReferenceIdeal.Hand

end
-- ==== Proof.RI.Chain.lean ====
/-
  The arrays each call reads, traced back to the arguments: every host operation of @main is a reshape, so the array a call
  finds in one of its windows is a reshape of an argument, an argument itself, or a reshape of the previous call's result.
  With the three calls' result arrays (the pooled array, the hidden layer, the output layer, each one function of the arrays
  its call reads) this gives the program's result as one term of the seven arguments.
-/
import proofs.«105144_g2000002570731441_pallasbulk_209_2_alg».proof.Proof.RI.Run
import proofs.«105144_g2000002570731441_pallasbulk_209_2_alg».proof.Proof.RI.Value0
import proofs.«105144_g2000002570731441_pallasbulk_209_2_alg».proof.Proof.RI.Value1
import proofs.«105144_g2000002570731441_pallasbulk_209_2_alg».proof.Proof.RI.Value2
import Idealize.ShloMosaic.Lib.StableHlo.Run
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What the first call reads -/

/-- The feature array as the first call finds it: the argument with its two spatial axes merged. -/
theorem in0_x (c : Dev nD) : U1 m c main_call0_v0
    = shapeCast S128x512x225 (m ((c : Thread nD τ).loc main_arg0)) shapeCasts_S128x512x9x25_S128x512x225 := by
  show StableHlo.after hostOps0 (W0 m c) (Proc.devRef .tc main_call0_v0) = _
  after_results
  rfl
/-- The bias as the first call finds it: the argument as a column. -/
theorem in0_b (c : Dev nD) : U1 m c main_call0_v1
    = shapeCast S8x1 (m ((c : Thread nD τ).loc main_arg2)) shapeCasts_S8_S8x1 := by
  show StableHlo.after hostOps0 (W0 m c) (Proc.devRef .tc main_call0_v1) = _
  after_results
  rfl
/-- The weight is the argument. -/
theorem in0_w (c : Dev nD) : U1 m c main_arg1 = m ((c : Thread nD τ).loc main_arg1) :=
  calc W1 m c (Proc.devRef .tc main_arg1)
    _ = W0 m c (Proc.devRef .tc main_arg1) := StableHlo.after_of_writes_sub hostOps0 _ hostOps0_writes (by decide)
    _ = m ((c : Thread nD τ).loc main_arg1) := rfl

/-! ## What the second call reads -/

/-- The activation as the second call finds it: the first call's result with channel and position merged. -/
theorem in1_x (c : Dev nD) : U3 m c main_call0_v3
    = shapeCast S128x1800 ((dat0 (U1 m) c).arrAt 3 cfg0.N) shapeCasts_S128x8x225_S128x1800 := by
  have e : U3 m c main_call0_v3 = shapeCast S128x1800 (W2 m c (Proc.devRef .tc main_call0_v2)) shapeCasts_S128x8x225_S128x1800 := by
    show StableHlo.after hostOps1 (W2 m c) (Proc.devRef .tc main_call0_v3) = _
    after_results
    rfl
  rw [e]
  exact congrArg (fun z => shapeCast S128x1800 z shapeCasts_S128x8x225_S128x1800) (W2_arr m c 3)
theorem W2_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
/-- The first bias as the second call finds it: the argument as a row. -/
theorem in1_b (c : Dev nD) : U3 m c main_call0_v4
    = shapeCast S1x2048 (m ((c : Thread nD τ).loc main_arg4)) shapeCasts_S2048_S1x2048 := by
  have e : U3 m c main_call0_v4 = shapeCast S1x2048 (W2 m c (Proc.devRef .tc main_arg4)) shapeCasts_S2048_S1x2048 := by
    show StableHlo.after hostOps1 (W2 m c) (Proc.devRef .tc main_call0_v4) = _
    after_results
    rfl
  rw [e]
  exact congrArg (fun z => shapeCast S1x2048 z shapeCasts_S2048_S1x2048) (W2_arg4 m c)
/-- The first weight is the argument. -/
theorem in1_w (c : Dev nD) : U3 m c main_arg3 = m ((c : Thread nD τ).loc main_arg3) :=
  calc W3 m c (Proc.devRef .tc main_arg3)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## What the third call reads -/

/-- The hidden layer as the third call finds it: the second call's result. -/
theorem in2_x (c : Dev nD) : U5 m c main_call0_v5 = (dat1 (U3 m) c).arrAt 3 cfg1.N :=
  calc W5 m c (Proc.devRef .tc main_call0_v5)
    _ = W4 m c (Proc.devRef .tc main_call0_v5) := StableHlo.after_of_writes_sub hostOps2 _ hostOps2_writes (by decide)
    _ = (dat1 (U3 m) c).arrAt 3 cfg1.N := W4_arr m c 3
theorem W4_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
/-- The second bias as the third call finds it: the argument as a row. -/
theorem in2_b (c : Dev nD) : U5 m c main_call0_v6
    = shapeCast S1x1480 (m ((c : Thread nD τ).loc main_arg6)) shapeCasts_S1480_S1x1480 := by
  have e : U5 m c main_call0_v6 = shapeCast S1x1480 (W4 m c (Proc.devRef .tc main_arg6)) shapeCasts_S1480_S1x1480 := by
    show StableHlo.after hostOps2 (W4 m c) (Proc.devRef .tc main_call0_v6) = _
    after_results
    rfl
  rw [e]
  exact congrArg (fun z => shapeCast S1x1480 z shapeCasts_S1480_S1x1480) (W4_arg6 m c)
/-- The second weight is the argument. -/
theorem in2_w (c : Dev nD) : U5 m c main_arg5 = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The result -/

/-- The program's result: the third call's result array with its columns split into three axes. -/
theorem result_reshape (c : Dev nD) : W7 m c (Proc.devRef .tc main_v0)
    = shapeCast S128x37x10x4 ((dat2 (U5 m) c).arrAt 3 cfg2.N) shapeCasts_S128x1480_S128x37x10x4 := by
  have e : W7 m c (Proc.devRef .tc main_v0) = shapeCast S128x37x10x4 (W6 m c (Proc.devRef .tc main_call0_v7)) shapeCasts_S128x1480_S128x37x10x4 := by
    show StableHlo.after hostOps3 (W6 m c) (Proc.devRef .tc main_v0) = _
    after_results
    rfl
  rw [e]
  exact congrArg (fun z => shapeCast S128x37x10x4 z shapeCasts_S128x1480_S128x37x10x4) (W6_arr m c 3)

end Cert.ReferenceIdeal.Hand

end
-- ==== Proof.RI.Result.lean ====
/-
  The program's result as ONE term of its seven arguments, at the exact instance: the output layer of the hidden layer of
  the pooled features, each stage the function its call computes (a row against a column plus a bias; the hidden layer
  clamped below by zero), the arrays between the stages re-laid by the host's reshapes.
-/
import proofs.«105144_g2000002570731441_pallasbulk_209_2_alg».proof.Proof.RI.Chain

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ)

/-- The network of the seven argument arrays of core `c`. -/
def netOf (c : Dev nD) : Buf (Elt Ideal) ((c : Thread nD τ).loc main_v0) :=
  shapeCast S128x37x10x4
    (outOf
      (hiddenOf
        (shapeCast S128x1800
          (poolOf (shapeCast S128x512x225 (m ((c : Thread nD τ).loc main_arg0)) shapeCasts_S128x512x9x25_S128x512x225)
            (m ((c : Thread nD τ).loc main_arg1))
            (shapeCast S8x1 (m ((c : Thread nD τ).loc main_arg2)) shapeCasts_S8_S8x1))
          shapeCasts_S128x8x225_S128x1800)
        (m ((c : Thread nD τ).loc main_arg3))
        (shapeCast S1x2048 (m ((c : Thread nD τ).loc main_arg4)) shapeCasts_S2048_S1x2048))
      (m ((c : Thread nD τ).loc main_arg5))
      (shapeCast S1x1480 (m ((c : Thread nD τ).loc main_arg6)) shapeCasts_S1480_S1x1480))
    shapeCasts_S128x1480_S128x37x10x4

/-- What the result buffer holds at the end of the run is the network of the arguments. -/
theorem result_value (c : Dev nD) : W7 m c (Proc.devRef .tc main_v0) = netOf m c := by
  unfold netOf
  rw [result_reshape, out_array, in2_x, in2_w, in2_b, hidden_array, in1_x, in1_w, in1_b, pool_array, in0_x, in0_w, in0_b]

end Cert.ReferenceIdeal.Hand

end
-- ==== Proof.RI.Region2Ideal.lean ====
/-
  The payload of `cc2_linear_kernel` at the exact values: element `(i, j)` of `h · w + b` is the sum over the
  contraction of `h`'s row `i` times `w`'s column `j`, plus `b` at `j` (`pay2_apply`) — so it reads of the weights
  and of the bias their column `j` and nothing else (`payLocal2_ideal`: the column locality region 2's body obligation
  takes as a hypothesis, stated here with the hypothesis's definition unfolded).
-/
import proofs.«105144_g2000002570731441_pallasbulk_209_2_alg».proof.Proof.Gen.ReferenceIdeal.Skeleton
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen
open Idealize.ShloMosaic
open Idealize.ShloMosaic.ValueIdx (ix2 eq_ix2)
open scoped BigOperators

/-- At the exact values, element `(i, j)` of the payload is the sum over the contraction of the operand's row `i` times
    the weights' column `j`, plus the bias at `j`: the product is the exact contraction, the shape casts are to the same
    shapes and the broadcast repeats the bias's one row. -/
theorem pay2_apply (v0 : FVec Ideal S128x2048 .f32) (v2 : FVec Ideal S2048x512 .f32) (v4 : FVec Ideal S1x512 .f32)
    (i : Fin 128) (j : Fin 512) :
    k2_pay1 (F := Ideal) v0 v2 v4 (ix2 i j)
      = ((∑ k : dot_S128x2048_S2048x512_S128x512_1_0_0_1_n_n.contr.Idx,
            (v0 (dot_S128x2048_S2048x512_S128x512_1_0_0_1_n_n.lhsIdx (ix2 i j) k) : EReal)
              * (v2 (ix2 ((dot_S128x2048_S2048x512_S128x512_1_0_0_1_n_n.rhsIdx (ix2 i j) k) 0) j) : EReal))
        + (v4 (ix2 (0 : Fin 1) j) : EReal) : EReal) := by
  have hb : broadcastTo S128x512 (shapeCast S1x512 v4 shapeCasts_S1x512_S1x512) broadcasts_S1x512_S128x512 (ix2 i j)
      = v4 (ix2 (0 : Fin 1) j) := by
    rw [shapeCast_self]; unfold broadcastTo; refine congrArg v4 ?_
    funext a; match a with | ⟨0, _⟩ => rfl | ⟨1, _⟩ => rfl
  have hm : FloatOps.matmul (F := Ideal) dot_S128x2048_S2048x512_S128x512_1_0_0_1_n_n none
        (shapeCast S128x2048 v0 shapeCasts_S128x2048_S128x2048) v2
        (constant (F := Ideal) S128x512 .f32 0x00000000#32) (ix2 i j)
      = ∑ k : dot_S128x2048_S2048x512_S128x512_1_0_0_1_n_n.contr.Idx,
          (v0 (dot_S128x2048_S2048x512_S128x512_1_0_0_1_n_n.lhsIdx (ix2 i j) k) : EReal)
            * (v2 (ix2 ((dot_S128x2048_S2048x512_S128x512_1_0_0_1_n_n.rhsIdx (ix2 i j) k) 0) j) : EReal) := by
    rw [Ideal.matmul_constant_zero_apply, shapeCast_self]
    refine Finset.sum_congr rfl fun k _ => ?_
    refine congrArg ((v0 _ : EReal) * ·) ?_
    refine congrArg v2 ?_
    exact (eq_ix2 _).trans (congrArg (ix2 _) (Fin.ext rfl))
  show FloatOps.addf (F := Ideal) (FloatOps.matmul (F := Ideal) dot_S128x2048_S2048x512_S128x512_1_0_0_1_n_n none
        (shapeCast S128x2048 v0 shapeCasts_S128x2048_S128x2048) v2
        (constant (F := Ideal) S128x512 .f32 0x00000000#32) (ix2 i j))
      (broadcastTo S128x512 (shapeCast S1x512 v4 shapeCasts_S1x512_S1x512) broadcasts_S1x512_S128x512 (ix2 i j)) = _
  rw [hm, hb]; rfl

/-- COLUMN LOCALITY of the payload at the exact values: element `(i, j)` reads of the weights and of the bias their
    column `j` and nothing else. -/
theorem payLocal2_ideal (v2 v2' : Vec Ideal S2048x512 .f32) (v0 : Vec Ideal S128x2048 .f32) (v4 v4' : Vec Ideal S1x512 .f32)
    (i : Fin 128) (j : Fin 512) (h2 : ∀ k : Fin 2048, v2 (ix2 k j) = v2' (ix2 k j))
    (h4 : v4 (ix2 (0 : Fin 1) j) = v4' (ix2 (0 : Fin 1) j)) :
    k2_pay1 v0 v2 v4 (ix2 i j) = k2_pay1 v0 v2' v4' (ix2 i j) := by
  refine (pay2_apply v0 v2 v4 i j).trans (Eq.trans ?_ (pay2_apply v0 v2' v4' i j).symm)
  refine congrArg₂ (· + ·) (Finset.sum_congr rfl fun k _ => ?_) h4
  exact congrArg ((v0 _ : EReal) * ·) (h2 _)

end Cert.ReferenceIdeal.Hand
end
-- ==== Proof.lean ====
/-
  Three programs: the kernel as printed (word level), its idealization, and the idealized reference. Each is four stretches of
  host reshapes around three calls — a 1 x 1 convolution (512 channels to 8) over a 9 x 25 map, a dense layer with a clamp at
  zero (1800 to 2048), a dense layer (2048 to 1480) — and differs from the others only in the tiling of the calls and in the
  float formats between them, which the exact instance does not see.

  Frames. Every call's body reads whole blocks and stores whole blocks, so each call is a pipelined region whose proof data say
  what the body leaves in every staging buffer; the program's run is the chain of its seven segments. The last call's column
  tiles overhang the 1480 columns at the last grid point: the body's product then also reads buffer columns past the array's
  end. At the word level nothing says the stored columns inside the array are independent of those, so the word-level frame
  forgets what that call leaves in its result array (the frame claims nothing of it); on the extended reals the product is a sum
  over the contracted axis, column by column, and the result array is named.

  Values. On the extended reals each call's result array is one function of the arrays the call reads — every entry a row
  against a column plus a bias, the hidden layer clamped below by zero —, whatever the tiling; the reshapes between the calls
  are the same in both programs. So both results are one term of the seven arguments, and agree when the arguments do. No
  finiteness is used: entry by entry the two sides are the same sum over the contracted axis followed by the same bias (and
  clamp); the tilings only partition the result arrays.
-/
import proofs.«105144_g2000002570731441_pallasbulk_209_2_alg».proof.Defs
import proofs.«105144_g2000002570731441_pallasbulk_209_2_alg».proof.Proof.Gen.Kernel
import proofs.«105144_g2000002570731441_pallasbulk_209_2_alg».proof.Proof.Gen.KernelIdeal
import proofs.«105144_g2000002570731441_pallasbulk_209_2_alg».proof.Proof.Gen.ReferenceIdeal
import proofs.«105144_g2000002570731441_pallasbulk_209_2_alg».proof.Proof.Gen.Pre_finite_inputs
import proofs.«105144_g2000002570731441_pallasbulk_209_2_alg».proof.Proof.K.Run
import proofs.«105144_g2000002570731441_pallasbulk_209_2_alg».proof.Proof.KI.Result
import proofs.«105144_g2000002570731441_pallasbulk_209_2_alg».proof.Proof.KI.Region2Ideal
import proofs.«105144_g2000002570731441_pallasbulk_209_2_alg».proof.Proof.RI.Result
import proofs.«105144_g2000002570731441_pallasbulk_209_2_alg».proof.Proof.RI.Region2Ideal

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame (F := Bits) m ρ

/-- So does its idealization: the run with the result named, the result dropped. -/
theorem frame_ki : Cert.frame_KernelIdeal := fun m ρ _ =>
  (θ_run Cert.KernelIdeal.defs _ _).mono (fun _ h c => (h c).2)
    (Cert.KernelIdeal.Hand.run_named (F := Ideal) m Cert.KernelIdeal.Hand.payLocal2_ideal ρ)

/-- And the idealized reference. -/
theorem frame_ri : Cert.frame_ReferenceIdeal := fun m ρ _ =>
  (θ_run Cert.ReferenceIdeal.defs _ _).mono (fun _ h c => (h c).2)
    (Cert.ReferenceIdeal.Hand.run_named (F := Ideal) m Cert.ReferenceIdeal.Hand.payLocal2_ideal ρ)

/-- The ideal pass rewrote nothing. -/
theorem preserves : Cert.preserves_Kernel_KernelIdeal := trivial

/-- On the extended reals both programs end with the same network of their arguments in the result buffer. -/
theorem algebraic : Cert.algebraic_KernelIdeal_ReferenceIdeal := by
  intro m ρ m' ρ' _ hagree
  refine ⟨fun c => Cert.KernelIdeal.Hand.netOf m c, ?_, ?_⟩
  · exact (θ_run Cert.KernelIdeal.defs _ _).mono
      (fun _ h c => ⟨(h c).1.trans (Cert.KernelIdeal.Hand.result_value m c), (h c).2⟩)
      (Cert.KernelIdeal.Hand.run_named (F := Ideal) m Cert.KernelIdeal.Hand.payLocal2_ideal ρ)
  · refine (θ_run Cert.ReferenceIdeal.defs _ _).mono (fun _ h c => ⟨(h c).1.trans ?_, (h c).2⟩)
      (Cert.ReferenceIdeal.Hand.run_named (F := Ideal) m' Cert.ReferenceIdeal.Hand.payLocal2_ideal ρ')
    rw [Cert.ReferenceIdeal.Hand.result_value m' c]
    unfold Cert.ReferenceIdeal.Hand.netOf Cert.KernelIdeal.Hand.netOf
    rw [(hagree c).1, (hagree c).2.1, (hagree c).2.2.1, (hagree c).2.2.2.1, (hagree c).2.2.2.2.1, (hagree c).2.2.2.2.2.1,
      (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
